-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S4096 : Shape := ⟨1, ![4096]⟩
abbrev S4096x4096 : Shape := ⟨2, ![4096, 4096]⟩
abbrev S4096x1000 : Shape := ⟨2, ![4096, 1000]⟩
abbrev S1000 : Shape := ⟨1, ![1000]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096x1000 : S_.BroadcastsInDim S4096x1000 (![] : Fin 0 → Fin S4096x1000.rank)
  reducesTo_S4096x1000_S_d0_1 : S4096x1000.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S4096 .f32) (main_arg5 : FVec F S4096x1000 .f32) (main_arg6 : FVec F S1000 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1000 .f32 := Host.absf main_arg5
  let main_cst_8 : FVec F S_ .f32 := constant S_ .f32 0x7F800000#32
  let main_v25 : FVec F S4096x1000 .f32 := broadcastInDim S4096x1000 ![] bcast_S_S4096x1000 main_cst_8
  let main_v26 : IVec S4096x1000 1 := cmpf .olt main_v24 main_v25
  let main_c_9 : IVec S_ 1 := constantI S_ 1 1#1
  let main_v27 : IVec S_ 1 := (fun x v => Host.reduce IntOp.andi x v reducesTo_S4096x1000_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  main_v33

def fn {F : FTy → Type} [FloatOps F] (main_arg0 : FVec F S4096x2048 .f32) (main_arg1 : FVec F S2048x4096 .f32) (main_arg2 : FVec F S4096 .f32) (main_arg3 : FVec F S4096x4096 .f32) (main_arg4 : FVec F S4096 .f32) (main_arg5 : FVec F S4096x1000 .f32) (main_arg6 : FVec F S1000 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S4096x2048 : Shape := ⟨2, ![4096, 2048]⟩
abbrev S2048x4096 : Shape := ⟨2, ![2048, 4096]⟩
abbrev S4096 : Shape := ⟨1, ![4096]⟩
abbrev S4096x4096 : Shape := ⟨2, ![4096, 4096]⟩
abbrev S4096x1000 : Shape := ⟨2, ![4096, 1000]⟩
abbrev S1000 : Shape := ⟨1, ![1000]⟩
abbrev S1x4096 : Shape := ⟨2, ![1, 4096]⟩
abbrev S_ : Shape := ⟨0, ![]⟩
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 24
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x1000, .f32⟩
  | .hbm, ⟨6, _⟩ => ⟨S1000, .f32⟩
  | .hbm, ⟨7, _⟩ => ⟨S4096x2048, .bf16⟩
  | .hbm, ⟨8, _⟩ => ⟨S2048x4096, .bf16⟩
  | .hbm, ⟨9, _⟩ => ⟨S4096x4096, .bf16⟩
  | .hbm, ⟨10, _⟩ => ⟨S4096x1000, .bf16⟩
  | .hbm, ⟨11, _⟩ => ⟨S1x4096, .f32⟩
  | .hbm, ⟨12, _⟩ => ⟨S1x4096, .f32⟩
  | .hbm, ⟨13, _⟩ => ⟨S_, .i32⟩
  | .hbm, ⟨14, _⟩ => ⟨S_, .bf16⟩
  | .hbm, ⟨15, _⟩ => ⟨S4096x1024, .bf16⟩
  | .hbm, ⟨16, _⟩ => ⟨S_, .i32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S4096x4096, .bf16⟩
  | .hbm, ⟨21, _⟩ => ⟨S4096x4096, .bf16⟩
  | .hbm, ⟨22, _⟩ => ⟨S4096x1024, .f32⟩
  | .hbm, ⟨23, _⟩ => ⟨S4096x1000, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 1, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  bitsLt_bf16_f32 : FTy.bits .bf16 < FTy.bits .f32
  shapeCasts_S4096_S1x4096 : S4096.ShapeCasts S1x4096
  pads_S4096x1000_S4096x1024_000_0240 : S4096x1000.Pads (![0, 0] : Fin 2 → Nat) ![0, 24] ![0, 0] S4096x1024
  h_S_ : 0 < S_.numel
  pads_S1000_S1024_0240 : S1000.Pads (![0] : Fin 1 → Nat) ![24] ![0] S1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  slices_S4096x1024_S4096x1000_0_0 : S4096x1024.Slices ![0, 0] S4096x1000
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x2048.size a
  hwx0_0 : ∀ i : grid0.Coords, EltTy.bits .bf16 = 32 ∨ (Rect.block (s := S4096x2048) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S2048x4096.size a
  hwx0_1 : ∀ i : grid0.Coords, EltTy.bits .bf16 = 32 ∨ (Rect.block (s := S2048x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .bf16 = 32 ∨ (Rect.block (s := S4096x4096) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .bf16 = 32 ∨ (Rect.block (s := S4096x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x1024.size a
  hwx2_1 : ∀ i : grid2.Coords, EltTy.bits .bf16 = 32 ∨ (Rect.block (s := S4096x1024) S1024x1024.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v9) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v10) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x4096 : Shape := ⟨2, ![2048, 4096]⟩
abbrev S4096 : Shape := ⟨1, ![4096]⟩
abbrev S4096x4096 : Shape := ⟨2, ![4096, 4096]⟩
abbrev S4096x1000 : Shape := ⟨2, ![4096, 1000]⟩
abbrev S1000 : Shape := ⟨1, ![1000]⟩
abbrev S1x4096 : Shape := ⟨2, ![1, 4096]⟩
abbrev S_ : Shape := ⟨0, ![]⟩
abbrev S1x1000 : Shape := ⟨2, ![1, 1000]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x1000, .f32⟩
  | .hbm, ⟨6, _⟩ => ⟨S1000, .f32⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x1000, .f32⟩
  | .hbm, ⟨22, _⟩ => ⟨S1x1000, .f32⟩
  | .hbm, ⟨23, _⟩ => ⟨S4096x1000, .f32⟩
  | .hbm, ⟨24, _⟩ => ⟨S4096x1000, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  dot_S4096x2048_S2048x4096_S4096x4096_1_0_0_1_n_n_wf : DotDims.WF S4096x2048 S2048x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x1000_S4096x1000_1_0_0_1_n_n_wf : DotDims.WF S4096x4096 S4096x1000 S4096x1000 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1000_S4096x1000_1_0_0_1_n_n : DotDims S4096x4096 S4096x1000 S4096x1000 where
  lhsContracting := [1]
  rhsContracting := [0]
  lhsNonContracting := [0]
  rhsNonContracting := [1]
  lhsBatch := []
  rhsBatch := []
  wf := dot_S4096x4096_S4096x1000_S4096x1000_1_0_0_1_n_n_wf

class Facts : Prop extends Facts₀ where

variable [Facts]
-- ==== Proof.BR0Conds.lean ====
/-
  Region 0 of the network (layer 1): where along the grid the accumulator is reset and where the layer's
  block is finished.  The grid's last axis walks the blocks of the contraction; the accumulator is zeroed at its first
  step and the bias (and rectifier) applied and the block stored at its last.
-/
import proofs.«143312_j70592082477120_2_alg».proof.Proof.Gen.Kernel.Launch
import proofs.«143312_j70592082477120_2_alg».proof.Proof.Gen.Kernel.Skeleton
import proofs.«143312_j70592082477120_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contraction's first block: the body's first conditional, from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 2). -/
theorem hcond0_0 : ∀ t : Fin cfg0.N, cond0_0 (grid0.coords t) ↔ t.val % 2 = 0 :=
  (by decide +kernel : ∀ t : Fin grid0.N, cond0_0 (grid0.coords t) ↔ t.val % 2 = 0)

/-- The contraction's last block: the body's second conditional. -/
abbrev cond0_1 (i : grid0.Coords) : Prop := k0_cond2 i = 1#1
/-- It holds at the points ≡ 1 (mod 2). -/
theorem hcond0_1 : ∀ t : Fin cfg0.N, cond0_1 (grid0.coords t) ↔ t.val % 2 = 1 :=
  (by decide +kernel : ∀ t : Fin grid0.N, cond0_1 (grid0.coords t) ↔ t.val % 2 = 1)

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The output window is idle, and not written back, exactly where the contraction is not at its last block. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- Each window's current staging memref at point `t`, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: the kernel's one scratch buffer, whole. -/
abbrev scM0 : Memref sig .tc .vmem S1024x1024 .f32 := Memref.whole cc0_scratch0
/-- The accumulator and one staging buffer of the output as views: contents are stated through them. -/
abbrev VS0 : View sig .tc .vmem S1024x1024 .f32 := (scM0).view
abbrev VO0 : View sig .tc .vmem S1024x1024 .bf16 := (Memref.whole cc0_stg3_0 : Memref sig .tc .vmem S1024x1024 .bf16).view

end Cert.Kernel.Hand

end
-- ==== Proof.BR0Runs.lean ====
/-
  Region 0: the kernel body run once per case of its two conditionals, on any whole staging memrefs.
  First block of the contraction: the accumulator, found at anything, is zeroed and the first product added.
  Last block: the product is added, then the bias and the rectifier applied and the output block stored.
  What each buffer ends with is recorded as the list of pieces the stores wrote.
-/
import proofs.«143312_j70592082477120_2_alg».proof.Proof.BR0Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The contraction's first block (the output window idle: its buffer handed back untouched). -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    { LS : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__fc_kernel i arg3 harg3 arg4 harg4 arg5 harg5 arg6 harg6 arg7 harg7) K } := by
  refine ⟨?_, fun xi3 E K => ?run⟩
  case run =>
    simp only [cc0__fc_kernel_eq_skeleton]; unfold cc0__fc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- The contraction's last block: the accumulator at what the step before left; the output block is stored. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs : Vec F S1024x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__fc_kernel i arg3 harg3 arg4 harg4 arg5 harg5 arg6 harg6 arg7 harg7) K } := by
  refine ⟨?_, ?_, fun E K => ?run⟩
  case run =>
    simp only [cc0__fc_kernel_eq_skeleton]; unfold cc0__fc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.BR0Dat.lean ====
/-
  Region 0: what the accumulator and the output's staging buffer hold after each grid point, the proof data of
  the pipeline, and the body obligation.  After a point the accumulator holds the partial sum of the block products
  of the current contraction (restarted from zero at the contraction's first block); at the contraction's last block
  the output's buffer holds the finished block.  Between points the invariant keeps the accumulator at that value,
  beside the other scoped buffers at anything.
-/
import proofs.«143312_j70592082477120_2_alg».proof.Proof.BR0Runs
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- First block: the stores into the accumulator cover it. -/
theorem scover0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i) (x0 : Vec F S1024x1024 .bf16) (x1 : Vec F S1024x1024 .bf16) (x2 : Vec F S1x1024 .f32) (y : S1024x1024.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S1024x1024.size (by sl_kernel_rfl) y
/-- What the first block leaves in the accumulator. -/
def sout0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i) (x0 : Vec F S1024x1024 .bf16) (x1 : Vec F S1024x1024 .bf16) (x2 : Vec F S1x1024 .f32) : Vec F S1024x1024 .f32 :=
  VS0.read (Elt F) (VS0.writes (Elt F) VS0.junk (kernelRun0_A c i arg3 harg3 arg4 harg4 arg5 harg5 arg6 harg6 arg7 harg7 hc0 hc1 x0 x1 x2).1)

/-- Last block: the store into the output's buffer covers it, -/
theorem cover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1x1024 .f32) (xs : Vec F S1024x1024 .f32) (y : S1024x1024.Idx) :
    ∃ pc ∈ (kernelRun0_C c i arg3 harg3 arg4 harg4 arg5 harg5 arg6 harg6 arg7 harg7 hc0 hc1 x0 x1 x2 xs).1, y ∈ pc.1.set :=
  View.cover_of_tiledL (kernelRun0_C c i arg3 harg3 arg4 harg4 arg5 harg5 arg6 harg6 arg7 harg7 hc0 hc1 x0 x1 x2 xs).1 S1024x1024.size (by sl_kernel_rfl) y
/-- what it leaves there, -/
def out0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1x1024 .f32) (xs : Vec F S1024x1024 .f32) : Vec F S1024x1024 .bf16 :=
  VO0.read (Elt F) (VO0.writes (Elt F) VO0.junk (kernelRun0_C c i arg3 harg3 arg4 harg4 arg5 harg5 arg6 harg6 arg7 harg7 hc0 hc1 x0 x1 x2 xs).1)
/-- the store into the accumulator covers it, -/
theorem scover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1x1024 .f32) (xs : Vec F S1024x1024 .f32) (y : S1024x1024.Idx) :
    ∃ pc ∈ (kernelRun0_C c i arg3 harg3 arg4 harg4 arg5 harg5 arg6 harg6 arg7 harg7 hc0 hc1 x0 x1 x2 xs).2.1, y ∈ pc.1.set :=
  View.cover_of_tiledL (kernelRun0_C c i arg3 harg3 arg4 harg4 arg5 harg5 arg6 harg6 arg7 harg7 hc0 hc1 x0 x1 x2 xs).2.1 S1024x1024.size (by sl_kernel_rfl) y
/-- and what it leaves in the accumulator. -/
def sout0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1x1024 .f32) (xs : Vec F S1024x1024 .f32) : Vec F S1024x1024 .f32 :=
  VS0.read (Elt F) (VS0.writes (Elt F) VS0.junk (kernelRun0_C c i arg3 harg3 arg4 harg4 arg5 harg5 arg6 harg6 arg7 harg7 hc0 hc1 x0 x1 x2 xs).2.1)

/-- Where the output window is idle nothing consults its entry: a placeholder. -/
def idleOut0 : Vec F S1024x1024 .bf16 := VO0.read (Elt F) (VO0.junk)

/-! ## Point by point -/

/-- What the output's staging buffer and the accumulator hold after the body at position `n`: the case the closed forms
    select, run at the point's input blocks, the accumulator (where the case reads it) at what position `n - 1` left. -/
def outsAt0 (c : Dev nD) : (n : ℕ) → n < cfg0.N → Vec F S1024x1024 .bf16 × Vec F S1024x1024 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 2 = 0 then
      (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 2 = 1 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        False.elim (by omega)

theorem outsAt0_A (c : Dev nD) (t : Fin cfg0.N) (h0 : t.val % 2 = 0) (h1 : ¬t.val % 2 = 1) :
    outsAt0 V c t.val t.isLt = (idleOut0, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans rfl

theorem outsAt0_C (c : Dev nD) (t : Fin cfg0.N) (h0 : ¬t.val % 2 = 0) (h1 : t.val % 2 = 1) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The other scoped buffers (every other region's staging buffers and accumulators), each at anything. -/
abbrev others0 (c : Dev nD) : sProp 𝕄 :=
  Pipeline.scopedRestBut (Ix := Unit) (Name := ℕ) (U := UR sig nD τ) (Lvl := ℕ) (Val := Elt F) spec0 c [cc0_scratch0]

/-- The scoped rest with the accumulator split off it. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA
  rw [Pipeline.scopedRest_split_of_list spec0 c [cc0_scratch0] (by decide) (by decide)]
  simp only [scM0, owns_whole, bigSepL]; try rfl

/-- Before the first point the accumulator holds anything; afterwards what the point before left. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- The arrays as the region finds them; after the body each input's buffer at its block, the output's and the accumulator
    at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the closed forms say which case the point is in; the invariant
    hands the body the accumulator (at anything at the first point, else at what the point before left) and takes it back
    at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 2 = 0
  · have h1 : ¬t.val % 2 = 1 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 2 = 1
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover0_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · exfalso; omega

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives it back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, HR⟩, Hg⟩
  isplitl [HS HR]
  · isplitl [HS]; · iexists _; iexact HS
    iexact HR
  iexact Hg

end Cert.Kernel.Hand

end
-- ==== Proof.BR1Conds.lean ====
/-
  Region 1 of the network (layer 2): where along the grid the accumulator is reset and where the layer's
  block is finished.  The grid's last axis walks the blocks of the contraction; the accumulator is zeroed at its first
  step and the bias (and rectifier) applied and the block stored at its last.
-/
import proofs.«143312_j70592082477120_2_alg».proof.Proof.Gen.Kernel.Launch
import proofs.«143312_j70592082477120_2_alg».proof.Proof.Gen.Kernel.Skeleton
import proofs.«143312_j70592082477120_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contraction's first block: the body's first conditional, from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The contraction's last block: the body's second conditional. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle, and not written back, exactly where the contraction is not at its last block. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging memref at point `t`, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
/-- The accumulator: the kernel's one scratch buffer, whole. -/
abbrev scM1 : Memref sig .tc .vmem S1024x1024 .f32 := Memref.whole cc1_scratch0
/-- The accumulator and one staging buffer of the output as views: contents are stated through them. -/
abbrev VS1 : View sig .tc .vmem S1024x1024 .f32 := (scM1).view
abbrev VO1 : View sig .tc .vmem S1024x1024 .bf16 := (Memref.whole cc1_stg3_0 : Memref sig .tc .vmem S1024x1024 .bf16).view

end Cert.Kernel.Hand

end
-- ==== Proof.BR1Runs.lean ====
/-
  Region 1: the kernel body run once per case of its two conditionals, on any whole staging memrefs.
  First block of the contraction: the accumulator, found at anything, is zeroed and the first product added.
  A middle block: the product is added to the accumulator the step before left.
  Last block: the product is added, then the bias and the rectifier applied and the output block stored.
  What each buffer ends with is recorded as the list of pieces the stores wrote.
-/
import proofs.«143312_j70592082477120_2_alg».proof.Proof.BR1Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The contraction's first block (the output window idle: its buffer handed back untouched). -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    { LS : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__fc_kernel i arg3 harg3 arg4 harg4 arg5 harg5 arg6 harg6 arg7 harg7) K } := by
  refine ⟨?_, fun xi3 E K => ?run⟩
  case run =>
    simp only [cc1__fc_kernel_eq_skeleton]; unfold cc1__fc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- A middle block of the contraction: the accumulator at what the step before left. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs : Vec F S1024x1024 .f32) :
    { LS : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__fc_kernel i arg3 harg3 arg4 harg4 arg5 harg5 arg6 harg6 arg7 harg7) K } := by
  refine ⟨?_, fun xi3 E K => ?run⟩
  case run =>
    simp only [cc1__fc_kernel_eq_skeleton]; unfold cc1__fc_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- The contraction's last block: the accumulator at what the step before left; the output block is stored. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs : Vec F S1024x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__fc_kernel i arg3 harg3 arg4 harg4 arg5 harg5 arg6 harg6 arg7 harg7) K } := by
  refine ⟨?_, ?_, fun E K => ?run⟩
  case run =>
    simp only [cc1__fc_kernel_eq_skeleton]; unfold cc1__fc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.BR1Dat.lean ====
/-
  Region 1: what the accumulator and the output's staging buffer hold after each grid point, the proof data of
  the pipeline, and the body obligation.  After a point the accumulator holds the partial sum of the block products
  of the current contraction (restarted from zero at the contraction's first block); at the contraction's last block
  the output's buffer holds the finished block.  Between points the invariant keeps the accumulator at that value,
  beside the other scoped buffers at anything.
-/
import proofs.«143312_j70592082477120_2_alg».proof.Proof.BR1Runs
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- First block: the stores into the accumulator cover it. -/
theorem scover1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i) (x0 : Vec F S1024x1024 .bf16) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S1024x1024.size (by sl_kernel_rfl) y
/-- What the first block leaves in the accumulator. -/
def sout1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i) (x0 : Vec F S1024x1024 .bf16) (x1 : Vec F S1024x1024 .bf16) (x2 : Vec F S1x1024 .f32) : Vec F S1024x1024 .f32 :=
  VS1.read (Elt F) (VS1.writes (Elt F) VS1.junk (kernelRun1_A c i arg3 harg3 arg4 harg4 arg5 harg5 arg6 harg6 arg7 harg7 hc0 hc1 x0 x1 x2).1)

/-- Middle block: the store into the accumulator covers it. -/
theorem scover1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i) (x0 : Vec F S1024x1024 .bf16) (x1 : Vec F S1024x1024 .bf16) (x2 : Vec F S1x1024 .f32) (xs : Vec F S1024x1024 .f32) (y : S1024x1024.Idx) :
    ∃ pc ∈ (kernelRun1_B c i arg3 harg3 arg4 harg4 arg5 harg5 arg6 harg6 arg7 harg7 hc0 hc1 x0 x1 x2 xs).1, y ∈ pc.1.set :=
  View.cover_of_tiledL (kernelRun1_B c i arg3 harg3 arg4 harg4 arg5 harg5 arg6 harg6 arg7 harg7 hc0 hc1 x0 x1 x2 xs).1 S1024x1024.size (by sl_kernel_rfl) y
/-- What a middle block leaves in the accumulator. -/
def sout1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i) (x0 : Vec F S1024x1024 .bf16) (x1 : Vec F S1024x1024 .bf16) (x2 : Vec F S1x1024 .f32) (xs : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs).1)

/-- Last block: the store into the output's buffer covers it, -/
theorem cover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .bf16) (x2 : Vec F S1x1024 .f32) (xs : Vec F S1024x1024 .f32) (y : S1024x1024.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S1024x1024.size (by sl_kernel_rfl) y
/-- what it leaves there, -/
def out1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .bf16) (x2 : Vec F S1x1024 .f32) (xs : Vec F S1024x1024 .f32) : Vec F S1024x1024 .bf16 :=
  VO1.read (Elt F) (VO1.writes (Elt F) VO1.junk (kernelRun1_C c i arg3 harg3 arg4 harg4 arg5 harg5 arg6 harg6 arg7 harg7 hc0 hc1 x0 x1 x2 xs).1)
/-- the store into the accumulator covers it, -/
theorem scover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .bf16) (x2 : Vec F S1x1024 .f32) (xs : Vec F S1024x1024 .f32) (y : S1024x1024.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S1024x1024.size (by sl_kernel_rfl) y
/-- and what it leaves in the accumulator. -/
def sout1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .bf16) (x2 : Vec F S1x1024 .f32) (xs : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs).2.1)

/-- Where the output window is idle nothing consults its entry: a placeholder. -/
def idleOut1 : Vec F S1024x1024 .bf16 := VO1.read (Elt F) (VO1.junk)

/-! ## Point by point -/

/-- What the output's staging buffer and the accumulator hold after the body at position `n`: the case the closed forms
    select, run at the point's input blocks, the accumulator (where the case reads it) at what position `n - 1` left. -/
def outsAt1 (c : Dev nD) : (n : ℕ) → n < cfg1.N → Vec F S1024x1024 .bf16 × Vec F S1024x1024 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (idleOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (idleOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The other scoped buffers (every other region's staging buffers and accumulators), each at anything. -/
abbrev others1 (c : Dev nD) : sProp 𝕄 :=
  Pipeline.scopedRestBut (Ix := Unit) (Name := ℕ) (U := UR sig nD τ) (Lvl := ℕ) (Val := Elt F) spec1 c [cc1_scratch0]

/-- The scoped rest with the accumulator split off it. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [scM1, owns_whole, bigSepL]; try rfl

/-- Before the first point the accumulator holds anything; afterwards what the point before left. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 c) ∗ (∃ r, prngReg c r)) := by
  cases n with
  | zero => exact absurd rfl hz
  | succ n => rfl

/-! ## The proof data -/

/-- The arrays as the region finds them; after the body each input's buffer at its block, the output's and the accumulator
    at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which case the point is in; the invariant
    hands the body the accumulator (at anything at the first point, else at what the point before left) and takes it back
    at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · have h1 : ¬t.val % 4 = 3 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover1_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, HR⟩, Hg⟩
  isplitl [HS HR]
  · isplitl [HS]; · iexists _; iexact HS
    iexact HR
  iexact Hg

end Cert.Kernel.Hand

end
-- ==== Proof.BR2Conds.lean ====
/-
  Region 2 of the network (layer 3): where along the grid the accumulator is reset and where the layer's
  block is finished.  The grid's last axis walks the blocks of the contraction; the accumulator is zeroed at its first
  step and the bias (and rectifier) applied and the block stored at its last.
-/
import proofs.«143312_j70592082477120_2_alg».proof.Proof.Gen.Kernel.Launch
import proofs.«143312_j70592082477120_2_alg».proof.Proof.Gen.Kernel.Skeleton
import proofs.«143312_j70592082477120_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contraction's first block: the body's first conditional, from the grid coordinates. -/
abbrev cond2_0 (i : grid2.Coords) : Prop := (Scalar.cmpi .ne (Scalar.extui (Scalar.cmpi .eq (BitVec.ofNat 32 (i 2).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The contraction's last block: the body's second conditional. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-- The three input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- The output window is idle, and not written back, exactly where the contraction is not at its last block. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-- Each window's current staging memref at point `t`, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The accumulator: the kernel's one scratch buffer, whole. -/
abbrev scM2 : Memref sig .tc .vmem S1024x1024 .f32 := Memref.whole cc2_scratch0
/-- The accumulator and one staging buffer of the output as views: contents are stated through them. -/
abbrev VS2 : View sig .tc .vmem S1024x1024 .f32 := (scM2).view
abbrev VO2 : View sig .tc .vmem S1024x1024 .f32 := (Memref.whole cc2_stg3_0 : Memref sig .tc .vmem S1024x1024 .f32).view

end Cert.Kernel.Hand

end
-- ==== Proof.BR2Runs.lean ====
/-
  Region 2: the kernel body run once per case of its two conditionals, on any whole staging memrefs.
  First block of the contraction: the accumulator, found at anything, is zeroed and the first product added.
  A middle block: the product is added to the accumulator the step before left.
  Last block: the product is added, then the bias applied and the output block stored.
  What each buffer ends with is recorded as the list of pieces the stores wrote.
-/
import proofs.«143312_j70592082477120_2_alg».proof.Proof.BR2Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The contraction's first block (the output window idle: its buffer handed back untouched). -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1x1024 .f32) :
    { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__fc_kernel i arg3 harg3 arg4 harg4 arg5 harg5 arg6 harg6 arg7 harg7) K } := by
  refine ⟨?_, fun xi3 E K => ?run⟩
  case run =>
    simp only [cc2__fc_kernel_eq_skeleton]; unfold cc2__fc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- A middle block of the contraction: the accumulator at what the step before left. -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1x1024 .f32) (xs : Vec F S1024x1024 .f32) :
    { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__fc_kernel i arg3 harg3 arg4 harg4 arg5 harg5 arg6 harg6 arg7 harg7) K } := by
  refine ⟨?_, fun xi3 E K => ?run⟩
  case run =>
    simp only [cc2__fc_kernel_eq_skeleton]; unfold cc2__fc_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- The contraction's last block: the accumulator at what the step before left; the output block is stored. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc2__fc_kernel i arg3 harg3 arg4 harg4 arg5 harg5 arg6 harg6 arg7 harg7) K } := by
  refine ⟨?_, ?_, fun E K => ?run⟩
  case run =>
    simp only [cc2__fc_kernel_eq_skeleton]; unfold cc2__fc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.BR2Dat.lean ====
/-
  Region 2: what the accumulator and the output's staging buffer hold after each grid point, the proof data of
  the pipeline, and the body obligation.  After a point the accumulator holds the partial sum of the block products
  of the current contraction (restarted from zero at the contraction's first block); at the contraction's last block
  the output's buffer holds the finished block.  Between points the invariant keeps the accumulator at that value,
  beside the other scoped buffers at anything.
-/
import proofs.«143312_j70592082477120_2_alg».proof.Proof.BR2Runs
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- First block: the stores into the accumulator cover it. -/
theorem scover2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i) (x0 : Vec F S1024x1024 .bf16) (x1 : Vec F S1024x1024 .bf16) (x2 : Vec F S1x1024 .f32) (y : S1024x1024.Idx) :
    ∃ pc ∈ (kernelRun2_A c i arg3 harg3 arg4 harg4 arg5 harg5 arg6 harg6 arg7 harg7 hc0 hc1 x0 x1 x2).1, y ∈ pc.1.set :=
  View.cover_of_tiledL (kernelRun2_A c i arg3 harg3 arg4 harg4 arg5 harg5 arg6 harg6 arg7 harg7 hc0 hc1 x0 x1 x2).1 S1024x1024.size (by sl_kernel_rfl) y
/-- What the first block leaves in the accumulator. -/
def sout2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i) (x0 : Vec F S1024x1024 .bf16) (x1 : Vec F S1024x1024 .bf16) (x2 : Vec F S1x1024 .f32) : Vec F S1024x1024 .f32 :=
  VS2.read (Elt F) (VS2.writes (Elt F) VS2.junk (kernelRun2_A c i arg3 harg3 arg4 harg4 arg5 harg5 arg6 harg6 arg7 harg7 hc0 hc1 x0 x1 x2).1)

/-- Middle block: the store into the accumulator covers it. -/
theorem scover2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i) (x0 : Vec F S1024x1024 .bf16) (x1 : Vec F S1024x1024 .bf16) (x2 : Vec F S1x1024 .f32) (xs : Vec F S1024x1024 .f32) (y : S1024x1024.Idx) :
    ∃ pc ∈ (kernelRun2_B c i arg3 harg3 arg4 harg4 arg5 harg5 arg6 harg6 arg7 harg7 hc0 hc1 x0 x1 x2 xs).1, y ∈ pc.1.set :=
  View.cover_of_tiledL (kernelRun2_B c i arg3 harg3 arg4 harg4 arg5 harg5 arg6 harg6 arg7 harg7 hc0 hc1 x0 x1 x2 xs).1 S1024x1024.size (by sl_kernel_rfl) y
/-- What a middle block leaves in the accumulator. -/
def sout2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i) (x0 : Vec F S1024x1024 .bf16) (x1 : Vec F S1024x1024 .bf16) (x2 : Vec F S1x1024 .f32) (xs : Vec F S1024x1024 .f32) : Vec F S1024x1024 .f32 :=
  VS2.read (Elt F) (VS2.writes (Elt F) VS2.junk (kernelRun2_B c i arg3 harg3 arg4 harg4 arg5 harg5 arg6 harg6 arg7 harg7 hc0 hc1 x0 x1 x2 xs).1)

/-- Last block: the store into the output's buffer covers it, -/
theorem cover2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x1024 .bf16) (x1 : Vec F S1024x1024 .bf16) (x2 : Vec F S1x1024 .f32) (xs : Vec F S1024x1024 .f32) (y : S1024x1024.Idx) :
    ∃ pc ∈ (kernelRun2_C c i arg3 harg3 arg4 harg4 arg5 harg5 arg6 harg6 arg7 harg7 hc0 hc1 x0 x1 x2 xs).1, y ∈ pc.1.set :=
  View.cover_of_tiledL (kernelRun2_C c i arg3 harg3 arg4 harg4 arg5 harg5 arg6 harg6 arg7 harg7 hc0 hc1 x0 x1 x2 xs).1 S1024x1024.size (by sl_kernel_rfl) y
/-- what it leaves there, -/
def out2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x1024 .bf16) (x1 : Vec F S1024x1024 .bf16) (x2 : Vec F S1x1024 .f32) (xs : Vec F S1024x1024 .f32) : Vec F S1024x1024 .f32 :=
  VO2.read (Elt F) (VO2.writes (Elt F) VO2.junk (kernelRun2_C c i arg3 harg3 arg4 harg4 arg5 harg5 arg6 harg6 arg7 harg7 hc0 hc1 x0 x1 x2 xs).1)
/-- the store into the accumulator covers it, -/
theorem scover2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x1024 .bf16) (x1 : Vec F S1024x1024 .bf16) (x2 : Vec F S1x1024 .f32) (xs : Vec F S1024x1024 .f32) (y : S1024x1024.Idx) :
    ∃ pc ∈ (kernelRun2_C c i arg3 harg3 arg4 harg4 arg5 harg5 arg6 harg6 arg7 harg7 hc0 hc1 x0 x1 x2 xs).2.1, y ∈ pc.1.set :=
  View.cover_of_tiledL (kernelRun2_C c i arg3 harg3 arg4 harg4 arg5 harg5 arg6 harg6 arg7 harg7 hc0 hc1 x0 x1 x2 xs).2.1 S1024x1024.size (by sl_kernel_rfl) y
/-- and what it leaves in the accumulator. -/
def sout2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x1024 .bf16) (x1 : Vec F S1024x1024 .bf16) (x2 : Vec F S1x1024 .f32) (xs : Vec F S1024x1024 .f32) : Vec F S1024x1024 .f32 :=
  VS2.read (Elt F) (VS2.writes (Elt F) VS2.junk (kernelRun2_C c i arg3 harg3 arg4 harg4 arg5 harg5 arg6 harg6 arg7 harg7 hc0 hc1 x0 x1 x2 xs).2.1)

/-- Where the output window is idle nothing consults its entry: a placeholder. -/
def idleOut2 : Vec F S1024x1024 .f32 := VO2.read (Elt F) (VO2.junk)

/-! ## Point by point -/

/-- What the output's staging buffer and the accumulator hold after the body at position `n`: the case the closed forms
    select, run at the point's input blocks, the accumulator (where the case reads it) at what position `n - 1` left. -/
def outsAt2 (c : Dev nD) : (n : ℕ) → n < cfg2.N → Vec F S1024x1024 .f32 × Vec F S1024x1024 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (idleOut2, sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans rfl

theorem outsAt2_B (c : Dev nD) (t : Fin cfg2.N) (h0 : ¬t.val % 4 = 0) (h1 : ¬t.val % 4 = 3) :
    outsAt2 V c t.val t.isLt = (idleOut2, sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The other scoped buffers (every other region's staging buffers and accumulators), each at anything. -/
abbrev others2 (c : Dev nD) : sProp 𝕄 :=
  Pipeline.scopedRestBut (Ix := Unit) (Name := ℕ) (U := UR sig nD τ) (Lvl := ℕ) (Val := Elt F) spec2 c [cc2_scratch0]

/-- The scoped rest with the accumulator split off it. -/
theorem PhiA2_eq (c : Dev nD) :
    (Pipeline.ΦA spec2 c : sProp 𝕄)
      = iprop(iprop((∃ d, owns (c : Thread nD τ) scM2 fullShare d) ∗ others2 c) ∗ (∃ r, prngReg c r)) := by
  unfold Pipeline.ΦA
  rw [Pipeline.scopedRest_split_of_list spec2 c [cc2_scratch0] (by decide) (by decide)]
  simp only [scM2, owns_whole, bigSepL]; try rfl

/-- Before the first point the accumulator holds anything; afterwards what the point before left. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ others2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ others2 c) ∗ (∃ r, prngReg c r)) := by
  cases n with
  | zero => exact absurd rfl hz
  | succ n => rfl

/-! ## The proof data -/

/-- The arrays as the region finds them; after the body each input's buffer at its block, the output's and the accumulator
    at `outsAt2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the closed forms say which case the point is in; the invariant
    hands the body the accumulator (at anything at the first point, else at what the point before left) and takes it back
    at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 4 = 0
  · have h1 : ¬t.val % 4 = 3 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [Dat.leavesExact_idle (dat2 V c) 3 t (idleAt2_3 t (fun h => h1 ((hcond2_1 t).mp h))) (noFlush2_3 t (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C sout2_C; (try dsimp only)
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover2_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C c _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B; (try dsimp only)
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover2_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point, -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- and after the last point the invariant gives it back, the accumulator's contents forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨HS, HR⟩, Hg⟩
  isplitl [HS HR]
  · isplitl [HS]; · iexists _; iexact HS
    iexact HR
  iexact Hg

end Cert.Kernel.Hand

end
-- ==== Proof.BRun.lean ====
/-
  The whole program as a chain of segments: the host lines before the first layer, the three layers' regions, the
  final slice.  Between two segments every unscoped buffer of the core is held at a known valuation: the launch
  contents, then each host stretch applied, then each region's arrays at what its pipeline leaves.  The run ends with
  every unscoped buffer at the last valuation; the arguments are never written, and the result buffer holds the slice
  of the third layer's output array.
-/
import proofs.«143312_j70592082477120_2_alg».proof.Proof.BR0Dat
import proofs.«143312_j70592082477120_2_alg».proof.Proof.BR1Dat
import proofs.«143312_j70592082477120_2_alg».proof.Proof.BR2Dat
import proofs.«143312_j70592082477120_2_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
/-- The same read at the TensorCore's references: what the first layer's region is entered with. -/
abbrev V5 : (c : Dev nD) → (b : Ref sig .tc) → Buf (Elt F) ((c : Thread nD τ).loc b) := fun c b => W5 m c b

/-- After the first layer: its arrays at what its pipeline leaves, every other buffer as entered. -/
def W6 (c : Dev nD) : Valuation τ sig (Elt F) :=
  Pipeline.withArrays spec0 c (W5 m c) fun w => (dat0 (V5 m) c).arrAt w cfg0.N
abbrev V6 : (c : Dev nD) → (b : Ref sig .tc) → Buf (Elt F) ((c : Thread nD τ).loc b) := fun c b => W6 m c b
theorem W6_arr (c : Dev nD) (w : Fin cfg0.W) :
    W6 m c (Proc.devRef .tc (Pipeline.arrRef spec0 w)) = (dat0 (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb

/-- After the second layer. -/
def W7 (c : Dev nD) : Valuation τ sig (Elt F) :=
  Pipeline.withArrays spec1 c (W6 m c) fun w => (dat1 (V6 m) c).arrAt w cfg1.N
abbrev V7 : (c : Dev nD) → (b : Ref sig .tc) → Buf (Elt F) ((c : Thread nD τ).loc b) := fun c b => W7 m c b
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb

/-- After the third layer. -/
def W8 (c : Dev nD) : Valuation τ sig (Elt F) :=
  Pipeline.withArrays spec2 c (W7 m c) fun w => (dat2 (V7 m) c).arrAt w cfg2.N
abbrev V8 : (c : Dev nD) → (b : Ref sig .tc) → Buf (Elt F) ((c : Thread nD τ).loc b) := fun c b => W8 m c b
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb

/-- After the final slice. -/
abbrev W9 : Dev nD → Valuation τ sig (Elt F) := fun c => StableHlo.after hostOps3 (W8 m c)

/-! ## The proof data family and what rides along -/

abbrev adm' : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (V5 m) c
  | ⟨1, _⟩ => fun c => dat1 (V6 m) c
  | ⟨2, _⟩ => fun c => dat2 (V7 m) c
abbrev 𝒱h : Variants := Variants.none
abbrev Lh : GSem nD τ sig → Finset Unit := fun _ => ∅
abbrev lvh : GSem nD τ sig → Unit → ℕ := fun _ _ => 0
/-- Beside the buffers: the generator register at some state and the core owing nothing. -/
abbrev Rh (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

theorem hF0 (c : Dev nD) (w : Fin cfg0.W) : (dat0 (V5 m) c).arrAt w cfg0.N = V6 m c (Pipeline.arrRef spec0 w) :=
  (W6_arr m c w).symm
theorem hrest0 (c : Dev nD) : ∀ b, b ∉ Finset.univ.image (Pipeline.arrRef spec0) → V6 m c b = V5 m c b :=
  fun b hb => W6_of_ne m c b fun w e => hb (Finset.mem_image.mpr ⟨w, Finset.mem_univ _, e⟩)

set_option backward.isDefEq.respectTransparency.types false in
/-- Layer 1's region over the thread state: entered from every unscoped buffer at the valuation before it, left at the one
    after it.  Its arrays are split out of the unscoped buffers and put back at the exit contents; the generator register goes
    into the invariant and comes back; nothing is owed; the kernel has no semaphore of its own. -/
def reg0 : Pipeline.RegionSeg (pcfgs (F := F)) adm' (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (V5 m) c).loose
  hwaits := Pipeline.hwaits_of_owed_zero _ _ _ _ Lh lvh 0 fun _ _ => rfl
  pre c := iprop(StableHlo.held (c : Thread nD τ) (Pipeline.ucRefs τ sig) (W5 m c) ∗ Rh c)
  post c := iprop(StableHlo.held (c : Thread nD τ) (Pipeline.ucRefs τ sig) (W6 m c) ∗ Rh c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V5 m) c)
    unfold Pipeline.ΦA
    iintro ⟨Hp, -, Hr⟩
    isplitl [Hr]; · iexact Hr
    iexact Hp
  hout c := by
    rw [Pipeline.ownSems0_none]
    refine BIBase.Entails.trans (hout0 (V5 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V5 m c) (V6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)

set_option backward.isDefEq.respectTransparency.types false in
/-- Layer 2's region over the thread state: entered from every unscoped buffer at the valuation before it, left at the one
    after it.  Its arrays are split out of the unscoped buffers and put back at the exit contents; the generator register goes
    into the invariant and comes back; nothing is owed; the kernel has no semaphore of its own. -/
def reg1 : Pipeline.RegionSeg (pcfgs (F := F)) adm' (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ Lh lvh 1 fun _ _ => rfl
  pre c := iprop(StableHlo.held (c : Thread nD τ) (Pipeline.ucRefs τ sig) (W6 m c) ∗ Rh c)
  post c := iprop(StableHlo.held (c : Thread nD τ) (Pipeline.ucRefs τ sig) (W7 m c) ∗ Rh c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V6 m) c)
    unfold Pipeline.ΦA
    iintro ⟨Hp, -, Hr⟩
    isplitl [Hr]; · iexact Hr
    iexact Hp
  hout c := by
    rw [Pipeline.ownSems0_none]
    refine BIBase.Entails.trans (hout1 (V6 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

set_option backward.isDefEq.respectTransparency.types false in
/-- Layer 3's region over the thread state: entered from every unscoped buffer at the valuation before it, left at the one
    after it.  Its arrays are split out of the unscoped buffers and put back at the exit contents; the generator register goes
    into the invariant and comes back; nothing is owed; the kernel has no semaphore of its own. -/
def reg2 : Pipeline.RegionSeg (pcfgs (F := F)) adm' (pdats m) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ Lh lvh 2 fun _ _ => rfl
  pre c := iprop(StableHlo.held (c : Thread nD τ) (Pipeline.ucRefs τ sig) (W7 m c) ∗ Rh c)
  post c := iprop(StableHlo.held (c : Thread nD τ) (Pipeline.ucRefs τ sig) (W8 m c) ∗ Rh c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm' (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V7 m) c)
    unfold Pipeline.ΦA
    iintro ⟨Hp, -, Hr⟩
    isplitl [Hr]; · iexact Hr
    iexact Hp
  hout c := by
    rw [Pipeline.ownSems0_none]
    refine BIBase.Entails.trans (hout2 (V7 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's nine segments in order. -/
abbrev segs : List (Pipeline.Seg (pcfgs (F := F)) adm' (pdats m) () defs₀ 𝒱h Lh lvh) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .region (reg1 m),
    .region (reg2 m),
    .host (hseg hostOps3 hostOps3_sub hostOps3_fresh (W8 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and every
    final memory has each unscoped buffer of each core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm' (pdats m) () cellOf_inj emb₁ defs₀ 𝒱h Lh lvh m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rh c))
    (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m c) ∗ Rh c) ⊢ _
        iintro ⟨Hh, Hp, HO⟩
        isplitl [Hh Hp]
        · isplitl [Hh]; · iexact Hh
          iexact Hp
        iexact HO⟩)
    (hinit := by
      refine Pipeline.initEach Lh lvh fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-! ## The arguments are never written -/

/-- A buffer no host line writes and no region holds as an array ends as launched. -/
theorem W9_kept (c : Dev nD) (b : Ref sig .tc) (h0 : b ∉ hostOps0_W) (h1 : b ∉ hostOps0_1_W) (h2 : b ∉ hostOps0_2_W) (h3 : b ∉ hostOps0_3_W)
    (h4 : b ∉ hostOps0_4_W) (h5 : b ∉ hostOps3_W) (hr0 : ∀ w, Pipeline.arrRef spec0 w ≠ b) (hr1 : ∀ w, Pipeline.arrRef spec1 w ≠ b)
    (hr2 : ∀ w, Pipeline.arrRef spec2 w ≠ b) : W9 m c (Proc.devRef .tc b) = m ((c : Thread nD τ).loc b) :=
  (StableHlo.after_of_writes_sub hostOps3 _ hostOps3_writes h5).trans <| (W8_of_ne m c b hr2).trans <| (W7_of_ne m c b hr1).trans <|
  (W6_of_ne m c b hr0).trans <| (StableHlo.after_of_writes_sub hostOps0_4 _ hostOps0_4_writes h4).trans <|
  (StableHlo.after_of_writes_sub hostOps0_3 _ hostOps0_3_writes h3).trans <| (StableHlo.after_of_writes_sub hostOps0_2 _ hostOps0_2_writes h2).trans <|
  (StableHlo.after_of_writes_sub hostOps0_1 _ hostOps0_1_writes h1).trans <| (StableHlo.after_of_writes_sub hostOps0 _ hostOps0_writes h0).trans rfl

theorem W9_arg0 (c : Dev nD) : W9 m c (Proc.devRef .tc main_arg0) = m ((c : Thread nD τ).loc main_arg0) :=
  W9_kept m c main_arg0 (by decide) (by decide) (by decide) (by decide) (by decide) (by decide) (by decide) (by decide) (by decide)
theorem W9_arg1 (c : Dev nD) : W9 m c (Proc.devRef .tc main_arg1) = m ((c : Thread nD τ).loc main_arg1) :=
  W9_kept m c main_arg1 (by decide) (by decide) (by decide) (by decide) (by decide) (by decide) (by decide) (by decide) (by decide)
theorem W9_arg2 (c : Dev nD) : W9 m c (Proc.devRef .tc main_arg2) = m ((c : Thread nD τ).loc main_arg2) :=
  W9_kept m c main_arg2 (by decide) (by decide) (by decide) (by decide) (by decide) (by decide) (by decide) (by decide) (by decide)
theorem W9_arg3 (c : Dev nD) : W9 m c (Proc.devRef .tc main_arg3) = m ((c : Thread nD τ).loc main_arg3) :=
  W9_kept m c main_arg3 (by decide) (by decide) (by decide) (by decide) (by decide) (by decide) (by decide) (by decide) (by decide)
theorem W9_arg4 (c : Dev nD) : W9 m c (Proc.devRef .tc main_arg4) = m ((c : Thread nD τ).loc main_arg4) :=
  W9_kept m c main_arg4 (by decide) (by decide) (by decide) (by decide) (by decide) (by decide) (by decide) (by decide) (by decide)
theorem W9_arg5 (c : Dev nD) : W9 m c (Proc.devRef .tc main_arg5) = m ((c : Thread nD τ).loc main_arg5) :=
  W9_kept m c main_arg5 (by decide) (by decide) (by decide) (by decide) (by decide) (by decide) (by decide) (by decide) (by decide)
theorem W9_arg6 (c : Dev nD) : W9 m c (Proc.devRef .tc main_arg6) = m ((c : Thread nD τ).loc main_arg6) :=
  W9_kept m c main_arg6 (by decide) (by decide) (by decide) (by decide) (by decide) (by decide) (by decide) (by decide) (by decide)

/-- The frame: every weakly fair execution terminates, nothing faulting, the seven argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W9_arg0 m c), (h c _ (mem_uc main_arg1 (by decide))).trans (W9_arg1 m c),
     (h c _ (mem_uc main_arg2 (by decide))).trans (W9_arg2 m c), (h c _ (mem_uc main_arg3 (by decide))).trans (W9_arg3 m c),
     (h c _ (mem_uc main_arg4 (by decide))).trans (W9_arg4 m c), (h c _ (mem_uc main_arg5 (by decide))).trans (W9_arg5 m c),
     (h c _ (mem_uc main_arg6 (by decide))).trans (W9_arg6 m c)⟩) (run_all m ρ)

end Cert.Kernel.Hand

end
-- ==== Proof.R0Conds.lean ====
/-
  Region 0 of the network (layer 1): where along the grid the accumulator is reset and where the layer's
  block is finished.  The grid's last axis walks the blocks of the contraction; the accumulator is zeroed at its first
  step and the bias (and rectifier) applied and the block stored at its last.
-/
import proofs.«143312_j70592082477120_2_alg».proof.Proof.Gen.KernelIdeal.Launch
import proofs.«143312_j70592082477120_2_alg».proof.Proof.Gen.KernelIdeal.Skeleton
import proofs.«143312_j70592082477120_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contraction's first block: the body's first conditional, from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 2). -/
theorem hcond0_0 : ∀ t : Fin cfg0.N, cond0_0 (grid0.coords t) ↔ t.val % 2 = 0 :=
  (by decide +kernel : ∀ t : Fin grid0.N, cond0_0 (grid0.coords t) ↔ t.val % 2 = 0)

/-- The contraction's last block: the body's second conditional. -/
abbrev cond0_1 (i : grid0.Coords) : Prop := k0_cond2 i = 1#1
/-- It holds at the points ≡ 1 (mod 2). -/
theorem hcond0_1 : ∀ t : Fin cfg0.N, cond0_1 (grid0.coords t) ↔ t.val % 2 = 1 :=
  (by decide +kernel : ∀ t : Fin grid0.N, cond0_1 (grid0.coords t) ↔ t.val % 2 = 1)

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The output window is idle, and not written back, exactly where the contraction is not at its last block. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- Each window's current staging memref at point `t`, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: the kernel's one scratch buffer, whole. -/
abbrev scM0 : Memref sig .tc .vmem S1024x1024 .f32 := Memref.whole cc0_scratch0
/-- The accumulator and one staging buffer of the output as views: contents are stated through them. -/
abbrev VS0 : View sig .tc .vmem S1024x1024 .f32 := (scM0).view
abbrev VO0 : View sig .tc .vmem S1024x1024 .bf16 := (Memref.whole cc0_stg3_0 : Memref sig .tc .vmem S1024x1024 .bf16).view

end Cert.KernelIdeal.Hand

end
-- ==== Proof.R0Runs.lean ====
/-
  Region 0: the kernel body run once per case of its two conditionals, on any whole staging memrefs.
  First block of the contraction: the accumulator, found at anything, is zeroed and the first product added.
  Last block: the product is added, then the bias and the rectifier applied and the output block stored.
  What each buffer ends with is recorded as the list of pieces the stores wrote.
-/
import proofs.«143312_j70592082477120_2_alg».proof.Proof.R0Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The contraction's first block (the output window idle: its buffer handed back untouched). -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    { LS : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__fc_kernel i arg3 harg3 arg4 harg4 arg5 harg5 arg6 harg6 arg7 harg7) K } := by
  refine ⟨?_, fun xi3 E K => ?run⟩
  case run =>
    simp only [cc0__fc_kernel_eq_skeleton]; unfold cc0__fc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- The contraction's last block: the accumulator at what the step before left; the output block is stored. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs : Vec F S1024x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__fc_kernel i arg3 harg3 arg4 harg4 arg5 harg5 arg6 harg6 arg7 harg7) K } := by
  refine ⟨?_, ?_, fun E K => ?run⟩
  case run =>
    simp only [cc0__fc_kernel_eq_skeleton]; unfold cc0__fc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.R0Dat.lean ====
/-
  Region 0: what the accumulator and the output's staging buffer hold after each grid point, the proof data of
  the pipeline, and the body obligation.  After a point the accumulator holds the partial sum of the block products
  of the current contraction (restarted from zero at the contraction's first block); at the contraction's last block
  the output's buffer holds the finished block.  Between points the invariant keeps the accumulator at that value,
  beside the other scoped buffers at anything.
-/
import proofs.«143312_j70592082477120_2_alg».proof.Proof.R0Runs
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- First block: the stores into the accumulator cover it. -/
theorem scover0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i) (x0 : Vec F S1024x1024 .bf16) (x1 : Vec F S1024x1024 .bf16) (x2 : Vec F S1x1024 .f32) (y : S1024x1024.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S1024x1024.size (by sl_kernel_rfl) y
/-- What the first block leaves in the accumulator. -/
def sout0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i) (x0 : Vec F S1024x1024 .bf16) (x1 : Vec F S1024x1024 .bf16) (x2 : Vec F S1x1024 .f32) : Vec F S1024x1024 .f32 :=
  VS0.read (Elt F) (VS0.writes (Elt F) VS0.junk (kernelRun0_A c i arg3 harg3 arg4 harg4 arg5 harg5 arg6 harg6 arg7 harg7 hc0 hc1 x0 x1 x2).1)

/-- Last block: the store into the output's buffer covers it, -/
theorem cover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1x1024 .f32) (xs : Vec F S1024x1024 .f32) (y : S1024x1024.Idx) :
    ∃ pc ∈ (kernelRun0_C c i arg3 harg3 arg4 harg4 arg5 harg5 arg6 harg6 arg7 harg7 hc0 hc1 x0 x1 x2 xs).1, y ∈ pc.1.set :=
  View.cover_of_tiledL (kernelRun0_C c i arg3 harg3 arg4 harg4 arg5 harg5 arg6 harg6 arg7 harg7 hc0 hc1 x0 x1 x2 xs).1 S1024x1024.size (by sl_kernel_rfl) y
/-- what it leaves there, -/
def out0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1x1024 .f32) (xs : Vec F S1024x1024 .f32) : Vec F S1024x1024 .bf16 :=
  VO0.read (Elt F) (VO0.writes (Elt F) VO0.junk (kernelRun0_C c i arg3 harg3 arg4 harg4 arg5 harg5 arg6 harg6 arg7 harg7 hc0 hc1 x0 x1 x2 xs).1)
/-- the store into the accumulator covers it, -/
theorem scover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1x1024 .f32) (xs : Vec F S1024x1024 .f32) (y : S1024x1024.Idx) :
    ∃ pc ∈ (kernelRun0_C c i arg3 harg3 arg4 harg4 arg5 harg5 arg6 harg6 arg7 harg7 hc0 hc1 x0 x1 x2 xs).2.1, y ∈ pc.1.set :=
  View.cover_of_tiledL (kernelRun0_C c i arg3 harg3 arg4 harg4 arg5 harg5 arg6 harg6 arg7 harg7 hc0 hc1 x0 x1 x2 xs).2.1 S1024x1024.size (by sl_kernel_rfl) y
/-- and what it leaves in the accumulator. -/
def sout0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1x1024 .f32) (xs : Vec F S1024x1024 .f32) : Vec F S1024x1024 .f32 :=
  VS0.read (Elt F) (VS0.writes (Elt F) VS0.junk (kernelRun0_C c i arg3 harg3 arg4 harg4 arg5 harg5 arg6 harg6 arg7 harg7 hc0 hc1 x0 x1 x2 xs).2.1)

/-- Where the output window is idle nothing consults its entry: a placeholder. -/
def idleOut0 : Vec F S1024x1024 .bf16 := VO0.read (Elt F) (VO0.junk)

/-! ## Point by point -/

/-- What the output's staging buffer and the accumulator hold after the body at position `n`: the case the closed forms
    select, run at the point's input blocks, the accumulator (where the case reads it) at what position `n - 1` left. -/
def outsAt0 (c : Dev nD) : (n : ℕ) → n < cfg0.N → Vec F S1024x1024 .bf16 × Vec F S1024x1024 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 2 = 0 then
      (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 2 = 1 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        False.elim (by omega)

theorem outsAt0_A (c : Dev nD) (t : Fin cfg0.N) (h0 : t.val % 2 = 0) (h1 : ¬t.val % 2 = 1) :
    outsAt0 V c t.val t.isLt = (idleOut0, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans rfl

theorem outsAt0_C (c : Dev nD) (t : Fin cfg0.N) (h0 : ¬t.val % 2 = 0) (h1 : t.val % 2 = 1) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The other scoped buffers (every other region's staging buffers and accumulators), each at anything. -/
abbrev others0 (c : Dev nD) : sProp 𝕄 :=
  Pipeline.scopedRestBut (Ix := Unit) (Name := ℕ) (U := UR sig nD τ) (Lvl := ℕ) (Val := Elt F) spec0 c [cc0_scratch0]

/-- The scoped rest with the accumulator split off it. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA
  rw [Pipeline.scopedRest_split_of_list spec0 c [cc0_scratch0] (by decide) (by decide)]
  simp only [scM0, owns_whole, bigSepL]; try rfl

/-- Before the first point the accumulator holds anything; afterwards what the point before left. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- The arrays as the region finds them; after the body each input's buffer at its block, the output's and the accumulator
    at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the closed forms say which case the point is in; the invariant
    hands the body the accumulator (at anything at the first point, else at what the point before left) and takes it back
    at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 2 = 0
  · have h1 : ¬t.val % 2 = 1 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 2 = 1
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover0_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · exfalso; omega

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives it back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, HR⟩, Hg⟩
  isplitl [HS HR]
  · isplitl [HS]; · iexists _; iexact HS
    iexact HR
  iexact Hg

end Cert.KernelIdeal.Hand

end
-- ==== Proof.R1Conds.lean ====
/-
  Region 1 of the network (layer 2): where along the grid the accumulator is reset and where the layer's
  block is finished.  The grid's last axis walks the blocks of the contraction; the accumulator is zeroed at its first
  step and the bias (and rectifier) applied and the block stored at its last.
-/
import proofs.«143312_j70592082477120_2_alg».proof.Proof.Gen.KernelIdeal.Launch
import proofs.«143312_j70592082477120_2_alg».proof.Proof.Gen.KernelIdeal.Skeleton
import proofs.«143312_j70592082477120_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contraction's first block: the body's first conditional, from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The contraction's last block: the body's second conditional. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle, and not written back, exactly where the contraction is not at its last block. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging memref at point `t`, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
/-- The accumulator: the kernel's one scratch buffer, whole. -/
abbrev scM1 : Memref sig .tc .vmem S1024x1024 .f32 := Memref.whole cc1_scratch0
/-- The accumulator and one staging buffer of the output as views: contents are stated through them. -/
abbrev VS1 : View sig .tc .vmem S1024x1024 .f32 := (scM1).view
abbrev VO1 : View sig .tc .vmem S1024x1024 .bf16 := (Memref.whole cc1_stg3_0 : Memref sig .tc .vmem S1024x1024 .bf16).view

end Cert.KernelIdeal.Hand

end
-- ==== Proof.R1Runs.lean ====
/-
  Region 1: the kernel body run once per case of its two conditionals, on any whole staging memrefs.
  First block of the contraction: the accumulator, found at anything, is zeroed and the first product added.
  A middle block: the product is added to the accumulator the step before left.
  Last block: the product is added, then the bias and the rectifier applied and the output block stored.
  What each buffer ends with is recorded as the list of pieces the stores wrote.
-/
import proofs.«143312_j70592082477120_2_alg».proof.Proof.R1Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The contraction's first block (the output window idle: its buffer handed back untouched). -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    { LS : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__fc_kernel i arg3 harg3 arg4 harg4 arg5 harg5 arg6 harg6 arg7 harg7) K } := by
  refine ⟨?_, fun xi3 E K => ?run⟩
  case run =>
    simp only [cc1__fc_kernel_eq_skeleton]; unfold cc1__fc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- A middle block of the contraction: the accumulator at what the step before left. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs : Vec F S1024x1024 .f32) :
    { LS : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__fc_kernel i arg3 harg3 arg4 harg4 arg5 harg5 arg6 harg6 arg7 harg7) K } := by
  refine ⟨?_, fun xi3 E K => ?run⟩
  case run =>
    simp only [cc1__fc_kernel_eq_skeleton]; unfold cc1__fc_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- The contraction's last block: the accumulator at what the step before left; the output block is stored. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs : Vec F S1024x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__fc_kernel i arg3 harg3 arg4 harg4 arg5 harg5 arg6 harg6 arg7 harg7) K } := by
  refine ⟨?_, ?_, fun E K => ?run⟩
  case run =>
    simp only [cc1__fc_kernel_eq_skeleton]; unfold cc1__fc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.R1Dat.lean ====
/-
  Region 1: what the accumulator and the output's staging buffer hold after each grid point, the proof data of
  the pipeline, and the body obligation.  After a point the accumulator holds the partial sum of the block products
  of the current contraction (restarted from zero at the contraction's first block); at the contraction's last block
  the output's buffer holds the finished block.  Between points the invariant keeps the accumulator at that value,
  beside the other scoped buffers at anything.
-/
import proofs.«143312_j70592082477120_2_alg».proof.Proof.R1Runs
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- First block: the stores into the accumulator cover it. -/
theorem scover1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i) (x0 : Vec F S1024x1024 .bf16) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S1024x1024.size (by sl_kernel_rfl) y
/-- What the first block leaves in the accumulator. -/
def sout1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i) (x0 : Vec F S1024x1024 .bf16) (x1 : Vec F S1024x1024 .bf16) (x2 : Vec F S1x1024 .f32) : Vec F S1024x1024 .f32 :=
  VS1.read (Elt F) (VS1.writes (Elt F) VS1.junk (kernelRun1_A c i arg3 harg3 arg4 harg4 arg5 harg5 arg6 harg6 arg7 harg7 hc0 hc1 x0 x1 x2).1)

/-- Middle block: the store into the accumulator covers it. -/
theorem scover1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i) (x0 : Vec F S1024x1024 .bf16) (x1 : Vec F S1024x1024 .bf16) (x2 : Vec F S1x1024 .f32) (xs : Vec F S1024x1024 .f32) (y : S1024x1024.Idx) :
    ∃ pc ∈ (kernelRun1_B c i arg3 harg3 arg4 harg4 arg5 harg5 arg6 harg6 arg7 harg7 hc0 hc1 x0 x1 x2 xs).1, y ∈ pc.1.set :=
  View.cover_of_tiledL (kernelRun1_B c i arg3 harg3 arg4 harg4 arg5 harg5 arg6 harg6 arg7 harg7 hc0 hc1 x0 x1 x2 xs).1 S1024x1024.size (by sl_kernel_rfl) y
/-- What a middle block leaves in the accumulator. -/
def sout1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i) (x0 : Vec F S1024x1024 .bf16) (x1 : Vec F S1024x1024 .bf16) (x2 : Vec F S1x1024 .f32) (xs : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs).1)

/-- Last block: the store into the output's buffer covers it, -/
theorem cover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .bf16) (x2 : Vec F S1x1024 .f32) (xs : Vec F S1024x1024 .f32) (y : S1024x1024.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S1024x1024.size (by sl_kernel_rfl) y
/-- what it leaves there, -/
def out1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .bf16) (x2 : Vec F S1x1024 .f32) (xs : Vec F S1024x1024 .f32) : Vec F S1024x1024 .bf16 :=
  VO1.read (Elt F) (VO1.writes (Elt F) VO1.junk (kernelRun1_C c i arg3 harg3 arg4 harg4 arg5 harg5 arg6 harg6 arg7 harg7 hc0 hc1 x0 x1 x2 xs).1)
/-- the store into the accumulator covers it, -/
theorem scover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .bf16) (x2 : Vec F S1x1024 .f32) (xs : Vec F S1024x1024 .f32) (y : S1024x1024.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S1024x1024.size (by sl_kernel_rfl) y
/-- and what it leaves in the accumulator. -/
def sout1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .bf16) (x2 : Vec F S1x1024 .f32) (xs : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs).2.1)

/-- Where the output window is idle nothing consults its entry: a placeholder. -/
def idleOut1 : Vec F S1024x1024 .bf16 := VO1.read (Elt F) (VO1.junk)

/-! ## Point by point -/

/-- What the output's staging buffer and the accumulator hold after the body at position `n`: the case the closed forms
    select, run at the point's input blocks, the accumulator (where the case reads it) at what position `n - 1` left. -/
def outsAt1 (c : Dev nD) : (n : ℕ) → n < cfg1.N → Vec F S1024x1024 .bf16 × Vec F S1024x1024 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (idleOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (idleOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The other scoped buffers (every other region's staging buffers and accumulators), each at anything. -/
abbrev others1 (c : Dev nD) : sProp 𝕄 :=
  Pipeline.scopedRestBut (Ix := Unit) (Name := ℕ) (U := UR sig nD τ) (Lvl := ℕ) (Val := Elt F) spec1 c [cc1_scratch0]

/-- The scoped rest with the accumulator split off it. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [scM1, owns_whole, bigSepL]; try rfl

/-- Before the first point the accumulator holds anything; afterwards what the point before left. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 c) ∗ (∃ r, prngReg c r)) := by
  cases n with
  | zero => exact absurd rfl hz
  | succ n => rfl

/-! ## The proof data -/

/-- The arrays as the region finds them; after the body each input's buffer at its block, the output's and the accumulator
    at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which case the point is in; the invariant
    hands the body the accumulator (at anything at the first point, else at what the point before left) and takes it back
    at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · have h1 : ¬t.val % 4 = 3 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover1_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, HR⟩, Hg⟩
  isplitl [HS HR]
  · isplitl [HS]; · iexists _; iexact HS
    iexact HR
  iexact Hg

end Cert.KernelIdeal.Hand

end
-- ==== Proof.R2Conds.lean ====
/-
  Region 2 of the network (layer 3): where along the grid the accumulator is reset and where the layer's
  block is finished.  The grid's last axis walks the blocks of the contraction; the accumulator is zeroed at its first
  step and the bias (and rectifier) applied and the block stored at its last.
-/
import proofs.«143312_j70592082477120_2_alg».proof.Proof.Gen.KernelIdeal.Launch
import proofs.«143312_j70592082477120_2_alg».proof.Proof.Gen.KernelIdeal.Skeleton
import proofs.«143312_j70592082477120_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contraction's first block: the body's first conditional, from the grid coordinates. -/
abbrev cond2_0 (i : grid2.Coords) : Prop := (Scalar.cmpi .ne (Scalar.extui (Scalar.cmpi .eq (BitVec.ofNat 32 (i 2).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The contraction's last block: the body's second conditional. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-- The three input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- The output window is idle, and not written back, exactly where the contraction is not at its last block. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-- Each window's current staging memref at point `t`, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The accumulator: the kernel's one scratch buffer, whole. -/
abbrev scM2 : Memref sig .tc .vmem S1024x1024 .f32 := Memref.whole cc2_scratch0
/-- The accumulator and one staging buffer of the output as views: contents are stated through them. -/
abbrev VS2 : View sig .tc .vmem S1024x1024 .f32 := (scM2).view
abbrev VO2 : View sig .tc .vmem S1024x1024 .f32 := (Memref.whole cc2_stg3_0 : Memref sig .tc .vmem S1024x1024 .f32).view

end Cert.KernelIdeal.Hand

end
-- ==== Proof.R2Runs.lean ====
/-
  Region 2: the kernel body run once per case of its two conditionals, on any whole staging memrefs.
  First block of the contraction: the accumulator, found at anything, is zeroed and the first product added.
  A middle block: the product is added to the accumulator the step before left.
  Last block: the product is added, then the bias applied and the output block stored.
  What each buffer ends with is recorded as the list of pieces the stores wrote.
-/
import proofs.«143312_j70592082477120_2_alg».proof.Proof.R2Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The contraction's first block (the output window idle: its buffer handed back untouched). -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1x1024 .f32) :
    { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__fc_kernel i arg3 harg3 arg4 harg4 arg5 harg5 arg6 harg6 arg7 harg7) K } := by
  refine ⟨?_, fun xi3 E K => ?run⟩
  case run =>
    simp only [cc2__fc_kernel_eq_skeleton]; unfold cc2__fc_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- A middle block of the contraction: the accumulator at what the step before left. -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1x1024 .f32) (xs : Vec F S1024x1024 .f32) :
    { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__fc_kernel i arg3 harg3 arg4 harg4 arg5 harg5 arg6 harg6 arg7 harg7) K } := by
  refine ⟨?_, fun xi3 E K => ?run⟩
  case run =>
    simp only [cc2__fc_kernel_eq_skeleton]; unfold cc2__fc_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 4000000 in
/-- The contraction's last block: the accumulator at what the step before left; the output block is stored. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc2__fc_kernel i arg3 harg3 arg4 harg4 arg5 harg5 arg6 harg6 arg7 harg7) K } := by
  refine ⟨?_, ?_, fun E K => ?run⟩
  case run =>
    simp only [cc2__fc_kernel_eq_skeleton]; unfold cc2__fc_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.R2Dat.lean ====
/-
  Region 2: what the accumulator and the output's staging buffer hold after each grid point, the proof data of
  the pipeline, and the body obligation.  After a point the accumulator holds the partial sum of the block products
  of the current contraction (restarted from zero at the contraction's first block); at the contraction's last block
  the output's buffer holds the finished block.  Between points the invariant keeps the accumulator at that value,
  beside the other scoped buffers at anything.
-/
import proofs.«143312_j70592082477120_2_alg».proof.Proof.R2Runs
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- First block: the stores into the accumulator cover it. -/
theorem scover2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i) (x0 : Vec F S1024x1024 .bf16) (x1 : Vec F S1024x1024 .bf16) (x2 : Vec F S1x1024 .f32) (y : S1024x1024.Idx) :
    ∃ pc ∈ (kernelRun2_A c i arg3 harg3 arg4 harg4 arg5 harg5 arg6 harg6 arg7 harg7 hc0 hc1 x0 x1 x2).1, y ∈ pc.1.set :=
  View.cover_of_tiledL (kernelRun2_A c i arg3 harg3 arg4 harg4 arg5 harg5 arg6 harg6 arg7 harg7 hc0 hc1 x0 x1 x2).1 S1024x1024.size (by sl_kernel_rfl) y
/-- What the first block leaves in the accumulator. -/
def sout2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i) (x0 : Vec F S1024x1024 .bf16) (x1 : Vec F S1024x1024 .bf16) (x2 : Vec F S1x1024 .f32) : Vec F S1024x1024 .f32 :=
  VS2.read (Elt F) (VS2.writes (Elt F) VS2.junk (kernelRun2_A c i arg3 harg3 arg4 harg4 arg5 harg5 arg6 harg6 arg7 harg7 hc0 hc1 x0 x1 x2).1)

/-- Middle block: the store into the accumulator covers it. -/
theorem scover2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i) (x0 : Vec F S1024x1024 .bf16) (x1 : Vec F S1024x1024 .bf16) (x2 : Vec F S1x1024 .f32) (xs : Vec F S1024x1024 .f32) (y : S1024x1024.Idx) :
    ∃ pc ∈ (kernelRun2_B c i arg3 harg3 arg4 harg4 arg5 harg5 arg6 harg6 arg7 harg7 hc0 hc1 x0 x1 x2 xs).1, y ∈ pc.1.set :=
  View.cover_of_tiledL (kernelRun2_B c i arg3 harg3 arg4 harg4 arg5 harg5 arg6 harg6 arg7 harg7 hc0 hc1 x0 x1 x2 xs).1 S1024x1024.size (by sl_kernel_rfl) y
/-- What a middle block leaves in the accumulator. -/
def sout2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i) (x0 : Vec F S1024x1024 .bf16) (x1 : Vec F S1024x1024 .bf16) (x2 : Vec F S1x1024 .f32) (xs : Vec F S1024x1024 .f32) : Vec F S1024x1024 .f32 :=
  VS2.read (Elt F) (VS2.writes (Elt F) VS2.junk (kernelRun2_B c i arg3 harg3 arg4 harg4 arg5 harg5 arg6 harg6 arg7 harg7 hc0 hc1 x0 x1 x2 xs).1)

/-- Last block: the store into the output's buffer covers it, -/
theorem cover2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x1024 .bf16) (x1 : Vec F S1024x1024 .bf16) (x2 : Vec F S1x1024 .f32) (xs : Vec F S1024x1024 .f32) (y : S1024x1024.Idx) :
    ∃ pc ∈ (kernelRun2_C c i arg3 harg3 arg4 harg4 arg5 harg5 arg6 harg6 arg7 harg7 hc0 hc1 x0 x1 x2 xs).1, y ∈ pc.1.set :=
  View.cover_of_tiledL (kernelRun2_C c i arg3 harg3 arg4 harg4 arg5 harg5 arg6 harg6 arg7 harg7 hc0 hc1 x0 x1 x2 xs).1 S1024x1024.size (by sl_kernel_rfl) y
/-- what it leaves there, -/
def out2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x1024 .bf16) (x1 : Vec F S1024x1024 .bf16) (x2 : Vec F S1x1024 .f32) (xs : Vec F S1024x1024 .f32) : Vec F S1024x1024 .f32 :=
  VO2.read (Elt F) (VO2.writes (Elt F) VO2.junk (kernelRun2_C c i arg3 harg3 arg4 harg4 arg5 harg5 arg6 harg6 arg7 harg7 hc0 hc1 x0 x1 x2 xs).1)
/-- the store into the accumulator covers it, -/
theorem scover2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x1024 .bf16) (x1 : Vec F S1024x1024 .bf16) (x2 : Vec F S1x1024 .f32) (xs : Vec F S1024x1024 .f32) (y : S1024x1024.Idx) :
    ∃ pc ∈ (kernelRun2_C c i arg3 harg3 arg4 harg4 arg5 harg5 arg6 harg6 arg7 harg7 hc0 hc1 x0 x1 x2 xs).2.1, y ∈ pc.1.set :=
  View.cover_of_tiledL (kernelRun2_C c i arg3 harg3 arg4 harg4 arg5 harg5 arg6 harg6 arg7 harg7 hc0 hc1 x0 x1 x2 xs).2.1 S1024x1024.size (by sl_kernel_rfl) y
/-- and what it leaves in the accumulator. -/
def sout2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x1024 .bf16) (x1 : Vec F S1024x1024 .bf16) (x2 : Vec F S1x1024 .f32) (xs : Vec F S1024x1024 .f32) : Vec F S1024x1024 .f32 :=
  VS2.read (Elt F) (VS2.writes (Elt F) VS2.junk (kernelRun2_C c i arg3 harg3 arg4 harg4 arg5 harg5 arg6 harg6 arg7 harg7 hc0 hc1 x0 x1 x2 xs).2.1)

/-- Where the output window is idle nothing consults its entry: a placeholder. -/
def idleOut2 : Vec F S1024x1024 .f32 := VO2.read (Elt F) (VO2.junk)

/-! ## Point by point -/

/-- What the output's staging buffer and the accumulator hold after the body at position `n`: the case the closed forms
    select, run at the point's input blocks, the accumulator (where the case reads it) at what position `n - 1` left. -/
def outsAt2 (c : Dev nD) : (n : ℕ) → n < cfg2.N → Vec F S1024x1024 .f32 × Vec F S1024x1024 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (idleOut2, sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans rfl

theorem outsAt2_B (c : Dev nD) (t : Fin cfg2.N) (h0 : ¬t.val % 4 = 0) (h1 : ¬t.val % 4 = 3) :
    outsAt2 V c t.val t.isLt = (idleOut2, sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The other scoped buffers (every other region's staging buffers and accumulators), each at anything. -/
abbrev others2 (c : Dev nD) : sProp 𝕄 :=
  Pipeline.scopedRestBut (Ix := Unit) (Name := ℕ) (U := UR sig nD τ) (Lvl := ℕ) (Val := Elt F) spec2 c [cc2_scratch0]

/-- The scoped rest with the accumulator split off it. -/
theorem PhiA2_eq (c : Dev nD) :
    (Pipeline.ΦA spec2 c : sProp 𝕄)
      = iprop(iprop((∃ d, owns (c : Thread nD τ) scM2 fullShare d) ∗ others2 c) ∗ (∃ r, prngReg c r)) := by
  unfold Pipeline.ΦA
  rw [Pipeline.scopedRest_split_of_list spec2 c [cc2_scratch0] (by decide) (by decide)]
  simp only [scM2, owns_whole, bigSepL]; try rfl

/-- Before the first point the accumulator holds anything; afterwards what the point before left. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ others2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ others2 c) ∗ (∃ r, prngReg c r)) := by
  cases n with
  | zero => exact absurd rfl hz
  | succ n => rfl

/-! ## The proof data -/

/-- The arrays as the region finds them; after the body each input's buffer at its block, the output's and the accumulator
    at `outsAt2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the closed forms say which case the point is in; the invariant
    hands the body the accumulator (at anything at the first point, else at what the point before left) and takes it back
    at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 4 = 0
  · have h1 : ¬t.val % 4 = 3 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [Dat.leavesExact_idle (dat2 V c) 3 t (idleAt2_3 t (fun h => h1 ((hcond2_1 t).mp h))) (noFlush2_3 t (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C sout2_C; (try dsimp only)
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover2_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C c _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B; (try dsimp only)
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover2_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point, -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- and after the last point the invariant gives it back, the accumulator's contents forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨HS, HR⟩, Hg⟩
  isplitl [HS HR]
  · isplitl [HS]; · iexists _; iexact HS
    iexact HR
  iexact Hg

end Cert.KernelIdeal.Hand

end
-- ==== Proof.Run.lean ====
/-
  The whole program as a chain of segments: the host lines before the first layer, the three layers' regions, the
  final slice.  Between two segments every unscoped buffer of the core is held at a known valuation: the launch
  contents, then each host stretch applied, then each region's arrays at what its pipeline leaves.  The run ends with
  every unscoped buffer at the last valuation; the arguments are never written, and the result buffer holds the slice
  of the third layer's output array.
-/
import proofs.«143312_j70592082477120_2_alg».proof.Proof.R0Dat
import proofs.«143312_j70592082477120_2_alg».proof.Proof.R1Dat
import proofs.«143312_j70592082477120_2_alg».proof.Proof.R2Dat
import proofs.«143312_j70592082477120_2_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
/-- The same read at the TensorCore's references: what the first layer's region is entered with. -/
abbrev V5 : (c : Dev nD) → (b : Ref sig .tc) → Buf (Elt F) ((c : Thread nD τ).loc b) := fun c b => W5 m c b

/-- After the first layer: its arrays at what its pipeline leaves, every other buffer as entered. -/
def W6 (c : Dev nD) : Valuation τ sig (Elt F) :=
  Pipeline.withArrays spec0 c (W5 m c) fun w => (dat0 (V5 m) c).arrAt w cfg0.N
abbrev V6 : (c : Dev nD) → (b : Ref sig .tc) → Buf (Elt F) ((c : Thread nD τ).loc b) := fun c b => W6 m c b
theorem W6_arr (c : Dev nD) (w : Fin cfg0.W) :
    W6 m c (Proc.devRef .tc (Pipeline.arrRef spec0 w)) = (dat0 (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb

/-- After the second layer. -/
def W7 (c : Dev nD) : Valuation τ sig (Elt F) :=
  Pipeline.withArrays spec1 c (W6 m c) fun w => (dat1 (V6 m) c).arrAt w cfg1.N
abbrev V7 : (c : Dev nD) → (b : Ref sig .tc) → Buf (Elt F) ((c : Thread nD τ).loc b) := fun c b => W7 m c b
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb

/-- After the third layer. -/
def W8 (c : Dev nD) : Valuation τ sig (Elt F) :=
  Pipeline.withArrays spec2 c (W7 m c) fun w => (dat2 (V7 m) c).arrAt w cfg2.N
abbrev V8 : (c : Dev nD) → (b : Ref sig .tc) → Buf (Elt F) ((c : Thread nD τ).loc b) := fun c b => W8 m c b
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb

/-- After the final slice. -/
abbrev W9 : Dev nD → Valuation τ sig (Elt F) := fun c => StableHlo.after hostOps3 (W8 m c)

/-! ## The proof data family and what rides along -/

abbrev adm' : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (V5 m) c
  | ⟨1, _⟩ => fun c => dat1 (V6 m) c
  | ⟨2, _⟩ => fun c => dat2 (V7 m) c
abbrev 𝒱h : Variants := Variants.none
abbrev Lh : GSem nD τ sig → Finset Unit := fun _ => ∅
abbrev lvh : GSem nD τ sig → Unit → ℕ := fun _ _ => 0
/-- Beside the buffers: the generator register at some state and the core owing nothing. -/
abbrev Rh (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

theorem hF0 (c : Dev nD) (w : Fin cfg0.W) : (dat0 (V5 m) c).arrAt w cfg0.N = V6 m c (Pipeline.arrRef spec0 w) :=
  (W6_arr m c w).symm
theorem hrest0 (c : Dev nD) : ∀ b, b ∉ Finset.univ.image (Pipeline.arrRef spec0) → V6 m c b = V5 m c b :=
  fun b hb => W6_of_ne m c b fun w e => hb (Finset.mem_image.mpr ⟨w, Finset.mem_univ _, e⟩)

set_option backward.isDefEq.respectTransparency.types false in
/-- Layer 1's region over the thread state: entered from every unscoped buffer at the valuation before it, left at the one
    after it.  Its arrays are split out of the unscoped buffers and put back at the exit contents; the generator register goes
    into the invariant and comes back; nothing is owed; the kernel has no semaphore of its own. -/
def reg0 : Pipeline.RegionSeg (pcfgs (F := F)) adm' (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (V5 m) c).loose
  hwaits := Pipeline.hwaits_of_owed_zero _ _ _ _ Lh lvh 0 fun _ _ => rfl
  pre c := iprop(StableHlo.held (c : Thread nD τ) (Pipeline.ucRefs τ sig) (W5 m c) ∗ Rh c)
  post c := iprop(StableHlo.held (c : Thread nD τ) (Pipeline.ucRefs τ sig) (W6 m c) ∗ Rh c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V5 m) c)
    unfold Pipeline.ΦA
    iintro ⟨Hp, -, Hr⟩
    isplitl [Hr]; · iexact Hr
    iexact Hp
  hout c := by
    rw [Pipeline.ownSems0_none]
    refine BIBase.Entails.trans (hout0 (V5 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V5 m c) (V6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)

set_option backward.isDefEq.respectTransparency.types false in
/-- Layer 2's region over the thread state: entered from every unscoped buffer at the valuation before it, left at the one
    after it.  Its arrays are split out of the unscoped buffers and put back at the exit contents; the generator register goes
    into the invariant and comes back; nothing is owed; the kernel has no semaphore of its own. -/
def reg1 : Pipeline.RegionSeg (pcfgs (F := F)) adm' (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ Lh lvh 1 fun _ _ => rfl
  pre c := iprop(StableHlo.held (c : Thread nD τ) (Pipeline.ucRefs τ sig) (W6 m c) ∗ Rh c)
  post c := iprop(StableHlo.held (c : Thread nD τ) (Pipeline.ucRefs τ sig) (W7 m c) ∗ Rh c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V6 m) c)
    unfold Pipeline.ΦA
    iintro ⟨Hp, -, Hr⟩
    isplitl [Hr]; · iexact Hr
    iexact Hp
  hout c := by
    rw [Pipeline.ownSems0_none]
    refine BIBase.Entails.trans (hout1 (V6 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

set_option backward.isDefEq.respectTransparency.types false in
/-- Layer 3's region over the thread state: entered from every unscoped buffer at the valuation before it, left at the one
    after it.  Its arrays are split out of the unscoped buffers and put back at the exit contents; the generator register goes
    into the invariant and comes back; nothing is owed; the kernel has no semaphore of its own. -/
def reg2 : Pipeline.RegionSeg (pcfgs (F := F)) adm' (pdats m) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ Lh lvh 2 fun _ _ => rfl
  pre c := iprop(StableHlo.held (c : Thread nD τ) (Pipeline.ucRefs τ sig) (W7 m c) ∗ Rh c)
  post c := iprop(StableHlo.held (c : Thread nD τ) (Pipeline.ucRefs τ sig) (W8 m c) ∗ Rh c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm' (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V7 m) c)
    unfold Pipeline.ΦA
    iintro ⟨Hp, -, Hr⟩
    isplitl [Hr]; · iexact Hr
    iexact Hp
  hout c := by
    rw [Pipeline.ownSems0_none]
    refine BIBase.Entails.trans (hout2 (V7 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's nine segments in order. -/
abbrev segs : List (Pipeline.Seg (pcfgs (F := F)) adm' (pdats m) () defs₀ 𝒱h Lh lvh) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .region (reg1 m),
    .region (reg2 m),
    .host (hseg hostOps3 hostOps3_sub hostOps3_fresh (W8 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and every
    final memory has each unscoped buffer of each core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm' (pdats m) () cellOf_inj emb₁ defs₀ 𝒱h Lh lvh m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rh c))
    (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m c) ∗ Rh c) ⊢ _
        iintro ⟨Hh, Hp, HO⟩
        isplitl [Hh Hp]
        · isplitl [Hh]; · iexact Hh
          iexact Hp
        iexact HO⟩)
    (hinit := by
      refine Pipeline.initEach Lh lvh fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-! ## The arguments are never written -/

/-- A buffer no host line writes and no region holds as an array ends as launched. -/
theorem W9_kept (c : Dev nD) (b : Ref sig .tc) (h0 : b ∉ hostOps0_W) (h1 : b ∉ hostOps0_1_W) (h2 : b ∉ hostOps0_2_W) (h3 : b ∉ hostOps0_3_W)
    (h4 : b ∉ hostOps0_4_W) (h5 : b ∉ hostOps3_W) (hr0 : ∀ w, Pipeline.arrRef spec0 w ≠ b) (hr1 : ∀ w, Pipeline.arrRef spec1 w ≠ b)
    (hr2 : ∀ w, Pipeline.arrRef spec2 w ≠ b) : W9 m c (Proc.devRef .tc b) = m ((c : Thread nD τ).loc b) :=
  (StableHlo.after_of_writes_sub hostOps3 _ hostOps3_writes h5).trans <| (W8_of_ne m c b hr2).trans <| (W7_of_ne m c b hr1).trans <|
  (W6_of_ne m c b hr0).trans <| (StableHlo.after_of_writes_sub hostOps0_4 _ hostOps0_4_writes h4).trans <|
  (StableHlo.after_of_writes_sub hostOps0_3 _ hostOps0_3_writes h3).trans <| (StableHlo.after_of_writes_sub hostOps0_2 _ hostOps0_2_writes h2).trans <|
  (StableHlo.after_of_writes_sub hostOps0_1 _ hostOps0_1_writes h1).trans <| (StableHlo.after_of_writes_sub hostOps0 _ hostOps0_writes h0).trans rfl

theorem W9_arg0 (c : Dev nD) : W9 m c (Proc.devRef .tc main_arg0) = m ((c : Thread nD τ).loc main_arg0) :=
  W9_kept m c main_arg0 (by decide) (by decide) (by decide) (by decide) (by decide) (by decide) (by decide) (by decide) (by decide)
theorem W9_arg1 (c : Dev nD) : W9 m c (Proc.devRef .tc main_arg1) = m ((c : Thread nD τ).loc main_arg1) :=
  W9_kept m c main_arg1 (by decide) (by decide) (by decide) (by decide) (by decide) (by decide) (by decide) (by decide) (by decide)
theorem W9_arg2 (c : Dev nD) : W9 m c (Proc.devRef .tc main_arg2) = m ((c : Thread nD τ).loc main_arg2) :=
  W9_kept m c main_arg2 (by decide) (by decide) (by decide) (by decide) (by decide) (by decide) (by decide) (by decide) (by decide)
theorem W9_arg3 (c : Dev nD) : W9 m c (Proc.devRef .tc main_arg3) = m ((c : Thread nD τ).loc main_arg3) :=
  W9_kept m c main_arg3 (by decide) (by decide) (by decide) (by decide) (by decide) (by decide) (by decide) (by decide) (by decide)
theorem W9_arg4 (c : Dev nD) : W9 m c (Proc.devRef .tc main_arg4) = m ((c : Thread nD τ).loc main_arg4) :=
  W9_kept m c main_arg4 (by decide) (by decide) (by decide) (by decide) (by decide) (by decide) (by decide) (by decide) (by decide)
theorem W9_arg5 (c : Dev nD) : W9 m c (Proc.devRef .tc main_arg5) = m ((c : Thread nD τ).loc main_arg5) :=
  W9_kept m c main_arg5 (by decide) (by decide) (by decide) (by decide) (by decide) (by decide) (by decide) (by decide) (by decide)
theorem W9_arg6 (c : Dev nD) : W9 m c (Proc.devRef .tc main_arg6) = m ((c : Thread nD τ).loc main_arg6) :=
  W9_kept m c main_arg6 (by decide) (by decide) (by decide) (by decide) (by decide) (by decide) (by decide) (by decide) (by decide)

/-- The frame: every weakly fair execution terminates, nothing faulting, the seven argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W9_arg0 m c), (h c _ (mem_uc main_arg1 (by decide))).trans (W9_arg1 m c),
     (h c _ (mem_uc main_arg2 (by decide))).trans (W9_arg2 m c), (h c _ (mem_uc main_arg3 (by decide))).trans (W9_arg3 m c),
     (h c _ (mem_uc main_arg4 (by decide))).trans (W9_arg4 m c), (h c _ (mem_uc main_arg5 (by decide))).trans (W9_arg5 m c),
     (h c _ (mem_uc main_arg6 (by decide))).trans (W9_arg6 m c)⟩) (run_all m ρ)

end Cert.KernelIdeal.Hand

end
-- ==== Proof.Spec.lean ====
/-
  The three-layer perceptron as ONE function of its argument arrays, index by index, on the extended reals:
  each hidden layer is  max (∑ₖ x[r,k] · w[k,c] + b[c], 0)  and the last layer is  ∑ₖ h[r,k] · w[k,c] + b[c].
  Both programs are compared against these functions.  The zero is kept as the float word it is printed as.
-/
import Idealize.ShloMosaic.PureOps.Ideal
import Idealize.ShloMosaic.Lib.ValueIdx
import Idealize.ShloMosaic.PureOps.Ideal.Laws

noncomputable section

open scoped BigOperators

namespace Cert.Spec

open Idealize.ShloMosaic Idealize.ShloMosaic.ValueIdx

/-- The float zero word, read on the extended reals. -/
abbrev zeroW : EReal := Ideal.ofBits .f32 0x00000000#32

theorem zeroW_eq : zeroW = 0 := Ideal.ofBits_zero_f32

/-- The affine part of the first layer: rows of `x` against columns of `w1`, plus the bias of the column. -/
def affine1 (x : (⟨2, ![4096, 2048]⟩ : Shape).Idx → EReal) (w : (⟨2, ![2048, 4096]⟩ : Shape).Idx → EReal)
    (b : (⟨1, ![4096]⟩ : Shape).Idx → EReal) : (⟨2, ![4096, 4096]⟩ : Shape).Idx → EReal :=
  fun i => (∑ k : Fin 2048, x (ix2 (i 0) k) * w (ix2 k (i 1))) + b (ix1 (i 1))

/-- The affine part of the second layer. -/
def affine2 (h : (⟨2, ![4096, 4096]⟩ : Shape).Idx → EReal) (w : (⟨2, ![4096, 4096]⟩ : Shape).Idx → EReal)
    (b : (⟨1, ![4096]⟩ : Shape).Idx → EReal) : (⟨2, ![4096, 4096]⟩ : Shape).Idx → EReal :=
  fun i => (∑ k : Fin 4096, h (ix2 (i 0) k) * w (ix2 k (i 1))) + b (ix1 (i 1))

/-- The last layer: no rectifier, 1000 columns. -/
def affine3 (h : (⟨2, ![4096, 4096]⟩ : Shape).Idx → EReal) (w : (⟨2, ![4096, 1000]⟩ : Shape).Idx → EReal)
    (b : (⟨1, ![1000]⟩ : Shape).Idx → EReal) : (⟨2, ![4096, 1000]⟩ : Shape).Idx → EReal :=
  fun i => (∑ k : Fin 4096, h (ix2 (i 0) k) * w (ix2 k (i 1))) + b (ix1 (i 1))

/-- The rectifier, entry by entry: the larger of the entry and zero. -/
def relu {s : Shape} (a : s.Idx → EReal) : s.Idx → EReal := fun i => max (a i) zeroW

/-- The whole network. -/
def mlp (x : (⟨2, ![4096, 2048]⟩ : Shape).Idx → EReal) (w1 : (⟨2, ![2048, 4096]⟩ : Shape).Idx → EReal)
    (b1 : (⟨1, ![4096]⟩ : Shape).Idx → EReal) (w2 : (⟨2, ![4096, 4096]⟩ : Shape).Idx → EReal)
    (b2 : (⟨1, ![4096]⟩ : Shape).Idx → EReal) (w3 : (⟨2, ![4096, 1000]⟩ : Shape).Idx → EReal)
    (b3 : (⟨1, ![1000]⟩ : Shape).Idx → EReal) : (⟨2, ![4096, 1000]⟩ : Shape).Idx → EReal :=
  affine3 (relu (affine2 (relu (affine1 x w1 b1)) w2 b2)) w3 b3

end Cert.Spec

end
-- ==== Proof.Layers.lean ====
/-
  One layer as a function of the arrays its kernel region reads: the activations [4096, K], the weights [K, N]
  and the bias as a row [1, N].  Entry (r, c) is  ∑ₖ a[r,k] · w[k,c] + b[0,c], rectified in the first two layers.
-/
import proofs.«143312_j70592082477120_2_alg».proof.Proof.Spec

noncomputable section

open scoped BigOperators

namespace Cert.Spec

open Idealize.ShloMosaic Idealize.ShloMosaic.ValueIdx

/-- The first layer's region: contraction over 2048, rectified. -/
def layerA (a : (⟨2, ![4096, 2048]⟩ : Shape).Idx → EReal) (w : (⟨2, ![2048, 4096]⟩ : Shape).Idx → EReal)
    (b : (⟨2, ![1, 4096]⟩ : Shape).Idx → EReal) : (⟨2, ![4096, 4096]⟩ : Shape).Idx → EReal :=
  fun i => max ((∑ k : Fin 2048, a (ix2 (i 0) k) * w (ix2 k (i 1))) + b (ix2 (0 : Fin 1) (i 1))) zeroW

/-- The second layer's region: contraction over 4096, rectified. -/
def layerB (a : (⟨2, ![4096, 4096]⟩ : Shape).Idx → EReal) (w : (⟨2, ![4096, 4096]⟩ : Shape).Idx → EReal)
    (b : (⟨2, ![1, 4096]⟩ : Shape).Idx → EReal) : (⟨2, ![4096, 4096]⟩ : Shape).Idx → EReal :=
  fun i => max ((∑ k : Fin 4096, a (ix2 (i 0) k) * w (ix2 k (i 1))) + b (ix2 (0 : Fin 1) (i 1))) zeroW

/-- The third layer's region, on the padded width 1024: contraction over 4096, no rectifier. -/
def layerC (a : (⟨2, ![4096, 4096]⟩ : Shape).Idx → EReal) (w : (⟨2, ![4096, 1024]⟩ : Shape).Idx → EReal)
    (b : (⟨2, ![1, 1024]⟩ : Shape).Idx → EReal) : (⟨2, ![4096, 1024]⟩ : Shape).Idx → EReal :=
  fun i => (∑ k : Fin 4096, a (ix2 (i 0) k) * w (ix2 k (i 1))) + b (ix2 (0 : Fin 1) (i 1))

end Cert.Spec

end
-- ==== Proof.Padding.lean ====
/-
  The last layer's weights and bias are widened from 1000 to 1024 columns before the kernel runs, and the kernel's
  1024-column result is cut back to 1000 columns after it.  Read at an index: a widened array, at a column below 1000,
  is the original array there (and the filling value at a column from 1000 on); the cut array is the wide array at
  the same row and column; and a vector viewed as a one-row matrix reads the vector at the column.
-/
import proofs.«143312_j70592082477120_2_alg».proof.Proof.Gen.KernelIdeal
import Idealize.ShloMosaic.Lib.ValueIdx
import Idealize.ShloMosaic.Lib.Pipeline.Value
import Idealize.ShloMosaic.Lib.ValueLayout
import Idealize.ShloMosaic.Lib.KernelVsHost

noncomputable section

namespace Cert.KernelIdeal.Padding

open Cert.KernelIdeal Cert.KernelIdeal.Gen Idealize.ShloMosaic Idealize.ShloMosaic.ValueIdx

variable {α : Type}

/-! ## The widened arrays -/

/-- The weights widened to 1024 columns, at a column below 1000: the weights there. -/
theorem pad_cols_inside (x : S4096x1000.Idx → α) (v : S_.Idx → α) (r : Fin 4096) (c : Fin 1024) (hc : c.val < 1000) :
    pad S4096x1024 ![0, 0] ![0, 24] ![0, 0] x v pads_S4096x1000_S4096x1024_000_0240 h_S_ (ix2 r c)
      = x (ix2 r ⟨c.val, hc⟩) :=
  pad_apply_of_inside _ _ _ x v _ _ (ix2 r c) (ix2 r ⟨c.val, hc⟩) (fun a => by
    match a with
    | ⟨0, _⟩ => show r.val = 0 + r.val * (0 + 1); omega
    | ⟨1, _⟩ => show c.val = 0 + c.val * (0 + 1); omega)

/-- The weights widened to 1024 columns, at a column from 1000 on: the filling value. -/
theorem pad_cols_outside (x : S4096x1000.Idx → α) (v : S_.Idx → α) (r : Fin 4096) (c : Fin 1024) (hc : 1000 ≤ c.val) :
    pad S4096x1024 ![0, 0] ![0, 24] ![0, 0] x v pads_S4096x1000_S4096x1024_000_0240 h_S_ (ix2 r c)
      = v (Shape.Idx.first h_S_) :=
  pad_apply_of_not_inside _ _ _ x v _ _ (ix2 r c) ⟨1, by decide⟩ (fun h => by
    have h3 : (c.val - 0) / (0 + 1) < 1000 := h.2.2
    omega)

/-- The bias widened to 1024 entries, at an entry below 1000: the bias there. -/
theorem pad_vec_inside (x : S1000.Idx → α) (v : S_.Idx → α) (c : Fin 1024) (hc : c.val < 1000) :
    pad S1024 ![0] ![24] ![0] x v pads_S1000_S1024_0240 h_S_ (ix1 c) = x (ix1 ⟨c.val, hc⟩) :=
  pad_apply_of_inside _ _ _ x v _ _ (ix1 c) (ix1 ⟨c.val, hc⟩) (fun a => by
    match a with
    | ⟨0, _⟩ => show c.val = 0 + c.val * (0 + 1); omega)

/-- The bias widened to 1024 entries, at an entry from 1000 on: the filling value. -/
theorem pad_vec_outside (x : S1000.Idx → α) (v : S_.Idx → α) (c : Fin 1024) (hc : 1000 ≤ c.val) :
    pad S1024 ![0] ![24] ![0] x v pads_S1000_S1024_0240 h_S_ (ix1 c) = v (Shape.Idx.first h_S_) :=
  pad_apply_of_not_inside _ _ _ x v _ _ (ix1 c) ⟨0, by decide⟩ (fun h => by
    have h3 : (c.val - 0) / (0 + 1) < 1000 := h.2.2
    omega)

/-! ## The result cut back to 1000 columns -/

/-- The 1024-column result cut to its first 1000 columns, at `(r, c)`: the wide result at the same row and column. -/
theorem slice_cols (y : S4096x1024.Idx → α) (r : Fin 4096) (c : Fin 1000) :
    extractStridedSlice S4096x1000 ![0, 0] y slices_S4096x1024_S4096x1000_0_0 (ix2 r c)
      = y (ix2 r ⟨c.val, Nat.lt_trans c.isLt (by decide)⟩) :=
  slice2_axis1_apply 0 y _ r c ⟨c.val, Nat.lt_trans c.isLt (by decide)⟩ (Nat.zero_add _).symm

/-! ## A vector viewed as a one-row matrix -/

/-- A bias of 4096 entries viewed as one row, at column `c`: the bias at `c`. -/
theorem row_of_vec_4096 (x : S4096.Idx → α) (u : Fin 1) (c : Fin 4096) :
    shapeCast S1x4096 x shapeCasts_S4096_S1x4096 (ix2 u c) = x (ix1 c) :=
  shapeCast_a_1a_apply x _ u c

/-- The widened bias of 1024 entries viewed as one row, at column `c`: the widened bias at `c`. -/
theorem row_of_vec_1024 (x : S1024.Idx → α) (u : Fin 1) (c : Fin 1024) :
    shapeCast S1x1024 x shapeCasts_S1024_S1x1024 (ix2 u c) = x (ix1 c) :=
  shapeCast_a_1a_apply x _ u c

/-- The bias widened and then viewed as one row, at a column below 1000: the bias there. -/
theorem row_of_padded_vec (x : S1000.Idx → α) (v : S_.Idx → α) (u : Fin 1) (c : Fin 1024) (hc : c.val < 1000) :
    shapeCast S1x1024 (pad S1024 ![0] ![24] ![0] x v pads_S1000_S1024_0240 h_S_) shapeCasts_S1024_S1x1024 (ix2 u c)
      = x (ix1 ⟨c.val, hc⟩) := by
  rw [row_of_vec_1024, pad_vec_inside x v c hc]

end Cert.KernelIdeal.Padding

end
-- ==== Proof.R0Pieces.lean ====
/-
  Region 0: what each case's stores amount to, as the body's arithmetic of what it loaded.
  First block: the accumulator ends at  zero-block + product.  Middle block: previous accumulator + product.
  Last block: the same, and the output block is  bias and rectifier applied to that accumulator.
-/
import proofs.«143312_j70592082477120_2_alg».proof.Proof.R0Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz0 : (![0, 0] : Fin S1024x1024.rank → Nat) = fun _ => 0 := by funext a; fin_cases a <;> rfl
theorem hz0' : (![0, 0] : Fin S1x1024.rank → Nat) = fun _ => 0 := by funext a; fin_cases a <;> rfl

theorem sout0_A_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i) (x0 : Vec F S1024x1024 .bf16) (x1 : Vec F S1024x1024 .bf16) (x2 : Vec F S1x1024 .f32) :
    sout0_A c i arg3 harg3 arg4 harg4 arg5 harg5 arg6 harg6 arg7 harg7 hc0 hc1 x0 x1 x2 = k0_pay2 (k0_pay1 (F := F)) x0 x1 := by
  unfold sout0_A
  rw [View.read_writes_eq_canon _ _ _ (scover0_A c i arg3 harg3 arg4 harg4 arg5 harg5 arg6 harg6 arg7 harg7 hc0 hc1 x0 x1 x2)]
  unfold kernelRun0_A
  dsimp only
  sl_unfold_words
  rw [View.canon_cons_unit_zero hz0]
  simp only [View.readAt_eq_ld, Memref.IsWhole.read_unread, View.ld_unit_zero (S := S1024x1024) hz0, View.ld_unit_zero (S := S1x1024) hz0']
  rw [View.readCov_unit_zero (S := S1024x1024) _ hz0]

theorem sout0_C_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1x1024 .f32) (xs : Vec F S1024x1024 .f32) :
    sout0_C c i arg3 harg3 arg4 harg4 arg5 harg5 arg6 harg6 arg7 harg7 hc0 hc1 x0 x1 x2 xs = k0_pay2 xs x0 x1 := by
  unfold sout0_C
  rw [View.read_writes_eq_canon _ _ _ (scover0_C c i arg3 harg3 arg4 harg4 arg5 harg5 arg6 harg6 arg7 harg7 hc0 hc1 x0 x1 x2 xs)]
  unfold kernelRun0_C
  dsimp only
  sl_unfold_words
  rw [View.canon_unit_zero hz0]
  simp only [View.readAt_eq_ld, Memref.IsWhole.read_unread, View.ld_unit_zero (S := S1024x1024) hz0, View.ld_unit_zero (S := S1x1024) hz0']

theorem out0_C_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1x1024 .f32) (xs : Vec F S1024x1024 .f32) :
    out0_C c i arg3 harg3 arg4 harg4 arg5 harg5 arg6 harg6 arg7 harg7 hc0 hc1 x0 x1 x2 xs = k0_pay3 (k0_pay2 xs x0 x1) x2 := by
  unfold out0_C
  rw [View.read_writes_eq_canon _ _ _ (cover0_C c i arg3 harg3 arg4 harg4 arg5 harg5 arg6 harg6 arg7 harg7 hc0 hc1 x0 x1 x2 xs)]
  unfold kernelRun0_C
  dsimp only
  sl_unfold_words
  rw [View.canon_unit_zero hz0]
  simp only [View.readAt_eq_ld, Memref.IsWhole.read_unread, View.ld_unit_zero (S := S1024x1024) hz0, View.ld_unit_zero (S := S1x1024) hz0']
  rw [View.readCov_unit_zero (S := S1024x1024) _ hz0]

end Cert.KernelIdeal.Hand

end
-- ==== Proof.SumBlocks.lean ====
/-
  Two facts about sums on the extended reals (a commutative additive monoid: addition is associative and
  commutative and zero is neutral; nothing here needs a finite value).
  (a) An accumulator that starts at the zero word and has one block added at a time holds the sum of the blocks.
  (b) A sum over `B * 1024` consecutive positions is the sum, over the `B` blocks, of the sums inside each block.
  Together: accumulating the per-block sums of a product-sum over the contracted axis is the whole product-sum.
-/
import Mathlib.Data.Fintype.BigOperators
import Mathlib.Algebra.BigOperators.Group.Finset.Basic
import Idealize.ShloMosaic.PureOps.Ideal
import proofs.«143312_j70592082477120_2_alg».proof.Proof.Spec

noncomputable section

open scoped BigOperators

namespace Cert.Spec

/-- The accumulator after block `n`: it starts at the zero word, and block `k` adds `f k`. -/
def accUpTo (f : ℕ → EReal) : ℕ → EReal
  | 0 => zeroW + f 0
  | n + 1 => accUpTo f n + f (n + 1)

theorem accUpTo_zero (f : ℕ → EReal) : accUpTo f 0 = zeroW + f 0 := rfl
theorem accUpTo_succ (f : ℕ → EReal) (n : ℕ) : accUpTo f (n + 1) = accUpTo f n + f (n + 1) := rfl

/-- The accumulator after block `n` is the sum of the blocks `0 … n`. -/
theorem accUpTo_eq_sum (f : ℕ → EReal) (n : ℕ) : accUpTo f n = ∑ k ∈ Finset.range (n + 1), f k := by
  induction n with
  | zero => rw [accUpTo_zero, zeroW_eq, zero_add, Finset.sum_range_one]
  | succ n ih => rw [accUpTo_succ, ih, Finset.sum_range_succ f (n + 1)]

/-- A sum over `B * W` consecutive naturals, block by block. -/
theorem sum_range_blocks (W B : ℕ) (g : ℕ → EReal) :
    ∑ k ∈ Finset.range (B * W), g k = ∑ kb ∈ Finset.range B, ∑ kk ∈ Finset.range W, g (kb * W + kk) := by
  induction B with
  | zero => rw [Nat.zero_mul, Finset.range_zero, Finset.sum_empty, Finset.sum_empty]
  | succ B ih => rw [Nat.succ_mul, Finset.sum_range_add, ih, Finset.sum_range_succ]

/-- A sum over `Fin (B * 1024)` is the double sum over the `B` blocks of 1024. -/
theorem sum_blocks (B : ℕ) (g : ℕ → EReal) :
    ∑ k : Fin (B * 1024), g k.val = ∑ kb ∈ Finset.range B, ∑ kk : Fin 1024, g (kb * 1024 + kk.val) := by
  rw [Fin.sum_univ_eq_sum_range g (B * 1024), sum_range_blocks 1024 B g]
  refine Finset.sum_congr rfl fun kb _ => ?_
  exact (Fin.sum_univ_eq_sum_range (fun kk => g (kb * 1024 + kk)) 1024).symm

/-- Two blocks of 1024. -/
theorem sum_blocks_2048 (g : ℕ → EReal) :
    ∑ k : Fin 2048, g k.val = ∑ kb ∈ Finset.range 2, ∑ kk : Fin 1024, g (kb * 1024 + kk.val) :=
  sum_blocks 2 g

/-- Four blocks of 1024. -/
theorem sum_blocks_4096 (g : ℕ → EReal) :
    ∑ k : Fin 4096, g k.val = ∑ kb ∈ Finset.range 4, ∑ kk : Fin 1024, g (kb * 1024 + kk.val) :=
  sum_blocks 4 g

/-- Accumulating the two per-block sums, from the zero word, is the sum over all 2048 positions. -/
theorem accUpTo_blocks_2048 (g : ℕ → EReal) :
    accUpTo (fun kb => ∑ kk : Fin 1024, g (kb * 1024 + kk.val)) 1 = ∑ k : Fin 2048, g k.val := by
  rw [accUpTo_eq_sum, sum_blocks_2048]

/-- Accumulating the four per-block sums, from the zero word, is the sum over all 4096 positions. -/
theorem accUpTo_blocks_4096 (g : ℕ → EReal) :
    accUpTo (fun kb => ∑ kk : Fin 1024, g (kb * 1024 + kk.val)) 3 = ∑ k : Fin 4096, g k.val := by
  rw [accUpTo_eq_sum, sum_blocks_4096]

end Cert.Spec

end
-- ==== Proof.BlockAlg.lean ====
/-
  The arithmetic shared by the three layers' kernels.  An array is read at natural-number coordinates (zero outside
  the array), so that a block's entry is spoken of by its position in the whole array.  The product-sum of a row of
  the activations with a column of the weights over ONE block of 1024 contraction positions is a block term; the
  accumulator after the last block, started from the zero word, is the product-sum over the whole contraction.
-/
import proofs.«143312_j70592082477120_2_alg».proof.Proof.SumBlocks
import Idealize.ShloMosaic.Lib.ValueIdx

noncomputable section

open scoped BigOperators

namespace Cert.Spec

open Idealize.ShloMosaic Idealize.ShloMosaic.ValueIdx

/-- An array's entry at natural-number coordinates; zero outside the array. -/
def at2 {n0 n1 : ℕ} (A : (⟨2, ![n0, n1]⟩ : Shape).Idx → EReal) (r k : ℕ) : EReal :=
  if h : r < n0 ∧ k < n1 then A (ix2 ⟨r, h.1⟩ ⟨k, h.2⟩) else 0

theorem at2_of_lt {n0 n1 : ℕ} (A : (⟨2, ![n0, n1]⟩ : Shape).Idx → EReal) (r k : ℕ) (hr : r < n0) (hk : k < n1) :
    at2 A r k = A (ix2 ⟨r, hr⟩ ⟨k, hk⟩) := by
  unfold at2
  rw [dif_pos ⟨hr, hk⟩]

theorem at2_val {n0 n1 : ℕ} (A : (⟨2, ![n0, n1]⟩ : Shape).Idx → EReal) (r : Fin n0) (k : Fin n1) :
    at2 A r.val k.val = A (ix2 r k) :=
  at2_of_lt A r.val k.val r.isLt k.isLt

/-- Row `r` of `A` against column `c` of `W`, over contraction block `kb`: 1024 products. -/
def blockTerm {n0 n1 n2 : ℕ} (A : (⟨2, ![n0, n1]⟩ : Shape).Idx → EReal) (W : (⟨2, ![n1, n2]⟩ : Shape).Idx → EReal)
    (r c kb : ℕ) : EReal :=
  ∑ kk : Fin 1024, at2 A r (kb * 1024 + kk.val) * at2 W (kb * 1024 + kk.val) c

theorem accUpTo_one (f : ℕ → EReal) : accUpTo f 1 = accUpTo f 0 + f 1 := rfl
theorem accUpTo_two (f : ℕ → EReal) : accUpTo f 2 = accUpTo f 1 + f 2 := rfl
theorem accUpTo_three (f : ℕ → EReal) : accUpTo f 3 = accUpTo f 2 + f 3 := rfl

/-- With two contraction blocks, the accumulator after the second is the whole product-sum over 2048. -/
theorem acc_blockTerm_2048 {n0 n2 : ℕ} (A : (⟨2, ![n0, 2048]⟩ : Shape).Idx → EReal) (W : (⟨2, ![2048, n2]⟩ : Shape).Idx → EReal)
    (r : Fin n0) (c : Fin n2) :
    accUpTo (blockTerm A W r.val c.val) 1 = ∑ k : Fin 2048, A (ix2 r k) * W (ix2 k c) := by
  refine (accUpTo_blocks_2048 (fun k => at2 A r.val k * at2 W k c.val)).trans ?_
  refine Finset.sum_congr rfl fun k _ => ?_
  show at2 A r.val k.val * at2 W k.val c.val = _
  rw [at2_val, at2_val]

/-- With four contraction blocks, the accumulator after the fourth is the whole product-sum over 4096. -/
theorem acc_blockTerm_4096 {n0 n2 : ℕ} (A : (⟨2, ![n0, 4096]⟩ : Shape).Idx → EReal) (W : (⟨2, ![4096, n2]⟩ : Shape).Idx → EReal)
    (r : Fin n0) (c : Fin n2) :
    accUpTo (blockTerm A W r.val c.val) 3 = ∑ k : Fin 4096, A (ix2 r k) * W (ix2 k c) := by
  refine (accUpTo_blocks_4096 (fun k => at2 A r.val k * at2 W k c.val)).trans ?_
  refine Finset.sum_congr rfl fun k _ => ?_
  show at2 A r.val k.val * at2 W k.val c.val = _
  rw [at2_val, at2_val]

end Cert.Spec

end
-- ==== Proof.Payloads.lean ====
/-
  What each block-level value of the kernel holds at an entry `(p, q)` of its 1024 × 1024 block, on the extended reals.
  The accumulator's first value is the zero word everywhere.  One accumulation step adds, to the accumulator's entry,
  the product-sum of row `p` of the left block with column `q` of the right block over the block's 1024 contraction
  positions (the casts to the same shape are the identity, and the product accumulates into a block of zero words,
  which adds nothing).  The closing step adds the bias of column `q` (one row, repeated down the block) and, in the
  two hidden layers, takes the larger of that and the zero word; narrowing the format changes no extended real.
-/
import proofs.«143312_j70592082477120_2_alg».proof.Proof.Gen.KernelIdeal.Skeleton
import proofs.«143312_j70592082477120_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The block product at an entry -/

theorem lhs_row (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem lhs_contr (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k
theorem rhs_contr (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k
theorem rhs_col (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The block product into a block of zero words, at entry `(p, q)`: row `p` of the left block against column `q` of
    the right block. -/
theorem matmul_block (a b : FVec Ideal S1024x1024 .bf16) (p q : Fin 1024) :
    matmul dot_S1024x1024_S1024x1024_S1024x1024_1_0_0_1_n_n none a b (constant (F := Ideal) S1024x1024 .f32 0x00000000#32) (ix2 p q)
      = ∑ kk : Fin 1024, a (ix2 p kk) * b (ix2 kk q) := by
  simp only [matmul]
  rw [Ideal.matmul_constant_zero_apply,
    ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q)
      ((ValueIdx.contrEquiv1 dot_S1024x1024_S1024x1024_S1024x1024_1_0_0_1_n_n 1024 rfl rfl).symm k) = ix2 p k :=
    funext fun ax => Fin.ext (by
      match ax with
      | ⟨0, _⟩ => exact lhs_row _ _
      | ⟨1, _⟩ => exact (lhs_contr _ _).trans hk)
  have er : dot_S1024x1024_S1024x1024_S1024x1024_1_0_0_1_n_n.rhsIdx (ix2 p q)
      ((ValueIdx.contrEquiv1 dot_S1024x1024_S1024x1024_S1024x1024_1_0_0_1_n_n 1024 rfl rfl).symm k) = ix2 k q :=
    funext fun ax => Fin.ext (by
      match ax with
      | ⟨0, _⟩ => exact (rhs_contr _ _).trans hk
      | ⟨1, _⟩ => exact rhs_col _ _)
  rw [el, er]

/-! ## Layer 1 -/

/-- The accumulator's first value is the zero word at every entry. -/
theorem pay1_apply_0 (p q : Fin 1024) : k0_pay1 (F := Ideal) (ix2 p q) = Cert.Spec.zeroW := by
  unfold k0_pay1
  simp only [shapeCast_self]
  rfl

/-- One accumulation step, at entry `(p, q)`: the accumulator's entry plus the block's product-sum. -/
theorem pay2_apply_0 (v3 : Vec Ideal S1024x1024 .f32) (v4 v6 : Vec Ideal S1024x1024 .bf16) (p q : Fin 1024) :
    k0_pay2 (F := Ideal) v3 v4 v6 (ix2 p q) = v3 (ix2 p q) + ∑ kk : Fin 1024, v4 (ix2 p kk) * v6 (ix2 kk q) := by
  unfold k0_pay2
  simp only [shapeCast_self]
  rw [addf_apply, matmul_block]

/-- The closing step, at entry `(p, q)`: the accumulator's entry plus the bias of column `q`, and the larger of that and the
    zero word. -/
theorem pay3_apply_0 (v16 : Vec Ideal S1024x1024 .f32) (v17 : Vec Ideal S1x1024 .f32) (p q : Fin 1024) :
    k0_pay3 (F := Ideal) v16 v17 (ix2 p q) = max (v16 (ix2 p q) + v17 (ix2 (0 : Fin 1) q)) Cert.Spec.zeroW := by
  unfold k0_pay3
  simp only [shapeCast_self]
  rw [truncf_apply, maximumf_apply, addf_apply, broadcastTo_1b_ab_apply]
  rfl

/-! ## Layer 2 -/

/-- The accumulator's first value is the zero word at every entry. -/
theorem pay1_apply_1 (p q : Fin 1024) : k1_pay1 (F := Ideal) (ix2 p q) = Cert.Spec.zeroW := by
  unfold k1_pay1
  simp only [shapeCast_self]
  rfl

/-- One accumulation step, at entry `(p, q)`: the accumulator's entry plus the block's product-sum. -/
theorem pay2_apply_1 (v3 : Vec Ideal S1024x1024 .f32) (v4 v6 : Vec Ideal S1024x1024 .bf16) (p q : Fin 1024) :
    k1_pay2 (F := Ideal) v3 v4 v6 (ix2 p q) = v3 (ix2 p q) + ∑ kk : Fin 1024, v4 (ix2 p kk) * v6 (ix2 kk q) := by
  unfold k1_pay2
  simp only [shapeCast_self]
  rw [addf_apply, matmul_block]

/-- The closing step, at entry `(p, q)`: the accumulator's entry plus the bias of column `q`, and the larger of that and the
    zero word. -/
theorem pay3_apply_1 (v16 : Vec Ideal S1024x1024 .f32) (v17 : Vec Ideal S1x1024 .f32) (p q : Fin 1024) :
    k1_pay3 (F := Ideal) v16 v17 (ix2 p q) = max (v16 (ix2 p q) + v17 (ix2 (0 : Fin 1) q)) Cert.Spec.zeroW := by
  unfold k1_pay3
  simp only [shapeCast_self]
  rw [truncf_apply, maximumf_apply, addf_apply, broadcastTo_1b_ab_apply]
  rfl

/-! ## Layer 3 -/

/-- The accumulator's first value is the zero word at every entry. -/
theorem pay1_apply_2 (p q : Fin 1024) : k2_pay1 (F := Ideal) (ix2 p q) = Cert.Spec.zeroW := by
  unfold k2_pay1
  simp only [shapeCast_self]
  rfl

/-- One accumulation step, at entry `(p, q)`: the accumulator's entry plus the block's product-sum. -/
theorem pay2_apply_2 (v3 : Vec Ideal S1024x1024 .f32) (v4 v6 : Vec Ideal S1024x1024 .bf16) (p q : Fin 1024) :
    k2_pay2 (F := Ideal) v3 v4 v6 (ix2 p q) = v3 (ix2 p q) + ∑ kk : Fin 1024, v4 (ix2 p kk) * v6 (ix2 kk q) := by
  unfold k2_pay2
  simp only [shapeCast_self]
  rw [addf_apply, matmul_block]

/-- The closing step, at entry `(p, q)`: the accumulator's entry plus the bias of column `q`. -/
theorem pay3_apply_2 (v16 : Vec Ideal S1024x1024 .f32) (v17 : Vec Ideal S1x1024 .f32) (p q : Fin 1024) :
    k2_pay3 (F := Ideal) v16 v17 (ix2 p q) = v16 (ix2 p q) + v17 (ix2 (0 : Fin 1) q) := by
  unfold k2_pay3
  simp only [shapeCast_self]
  rw [addf_apply, broadcastTo_1b_ab_apply]

end Cert.KernelIdeal.Pay

end
-- ==== Proof.R0Value.lean ====
/-
  Region 0 (layer 1): the array the region writes ends holding the layer's function of the three arrays it reads.
  Point `t` of the grid works on row block `t / 8`, column block `t / 2 % 4` and contraction block `t % 2`.
  After the point the accumulator holds, at entry `(p, q)` of its block, the accumulated block terms of the contraction
  blocks so far (an induction on the point); at the last contraction block that is the whole product-sum, and the block
  written back is the bias added and the rectifier applied: the layer's function on that block.  The blocks written back tile the array.
-/
import proofs.«143312_j70592082477120_2_alg».proof.Proof.R0Pieces
import proofs.«143312_j70592082477120_2_alg».proof.Proof.Layers
import proofs.«143312_j70592082477120_2_alg».proof.Proof.BlockAlg
import proofs.«143312_j70592082477120_2_alg».proof.Proof.Payloads
import Idealize.ShloMosaic.Lib.Pipeline.Value

set_option maxRecDepth 16384

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx
open Idealize.SL Idealize.SL.Sem
open Idealize.ShloMosaic.Pipeline (Dat Cfg Window)

-- the TensorCore's buffer contents when the region is entered, on the extended reals
variable (V : (c : Dev nD) → (b : Ref sig .tc) → Buf (Elt Ideal) ((c : Thread nD τ).loc b))

/-! ## Where point `t` works -/

/-- The windows' block indices at point `t`, decided once over the grid. -/
theorem idx0 : ∀ t : Fin cfg0.N,
    win0_0.index t (0 : Fin 2) = t.val / 8 ∧ win0_0.index t (1 : Fin 2) = t.val % 2
    ∧ win0_1.index t (0 : Fin 2) = t.val % 2 ∧ win0_1.index t (1 : Fin 2) = t.val / 2 % 4
    ∧ win0_2.index t (0 : Fin 2) = 0 ∧ win0_2.index t (1 : Fin 2) = t.val / 2 % 4
    ∧ win0_3.index t (0 : Fin 2) = t.val / 8 ∧ win0_3.index t (1 : Fin 2) = t.val / 2 % 4 :=
  (by decide +kernel : ∀ t : Fin grid0.N, _)

/-! ## The input blocks, read at an entry -/

/-- The activations' block at point `t`, at entry `(p, kk)`. -/
theorem iblk0_0_apply (c : Dev nD) (t : Fin cfg0.N) (p kk : Fin 1024) :
    (iblk0 V c 0 t : Vec Ideal S1024x1024 .bf16) (ix2 p kk)
      = Cert.Spec.at2 (V c main_v0 : S4096x2048.Idx → EReal) (t.val / 8 * 1024 + p.val) (t.val % 2 * 1024 + kk.val) := by
  have hN : t.val < 32 := lt_of_lt_of_eq t.isLt N_0
  obtain ⟨e0, e1, -⟩ := idx0 t
  rw [Cert.Spec.at2_of_lt _ _ _ (by omega) (by omega)]
  unfold iblk0
  rw [View.read_apply]
  show V c main_v0 (((cfg0.win 0).blk t).view.emb (ix2 p kk)) = V c main_v0 _
  refine congrArg (V c main_v0) (funext fun a => Fin.ext ?_)
  match a with
  | ⟨0, _⟩ => show win0_0.index t (0 : Fin 2) * 1024 + 1 * p.val = t.val / 8 * 1024 + p.val; rw [e0]; omega
  | ⟨1, _⟩ => show win0_0.index t (1 : Fin 2) * 1024 + 1 * kk.val = t.val % 2 * 1024 + kk.val; rw [e1]; omega

/-- The weights' block at point `t`, at entry `(kk, q)`. -/
theorem iblk0_1_apply (c : Dev nD) (t : Fin cfg0.N) (kk q : Fin 1024) :
    (iblk0 V c 1 t : Vec Ideal S1024x1024 .bf16) (ix2 kk q)
      = Cert.Spec.at2 (V c main_v1 : S2048x4096.Idx → EReal) (t.val % 2 * 1024 + kk.val) (t.val / 2 % 4 * 1024 + q.val) := by
  have hN : t.val < 32 := lt_of_lt_of_eq t.isLt N_0
  obtain ⟨-, -, e2, e3, -⟩ := idx0 t
  rw [Cert.Spec.at2_of_lt _ _ _ (by omega) (by omega)]
  unfold iblk0
  rw [View.read_apply]
  show V c main_v1 (((cfg0.win 1).blk t).view.emb (ix2 kk q)) = V c main_v1 _
  refine congrArg (V c main_v1) (funext fun a => Fin.ext ?_)
  match a with
  | ⟨0, _⟩ => show win0_1.index t (0 : Fin 2) * 1024 + 1 * kk.val = t.val % 2 * 1024 + kk.val; rw [e2]; omega
  | ⟨1, _⟩ => show win0_1.index t (1 : Fin 2) * 1024 + 1 * q.val = t.val / 2 % 4 * 1024 + q.val; rw [e3]; omega

/-- The bias row's block at point `t`, at entry `(0, q)`. -/
theorem iblk0_2_apply (c : Dev nD) (t : Fin cfg0.N) (q : Fin 1024) :
    (iblk0 V c 2 t : Vec Ideal S1x1024 .f32) (ix2 (0 : Fin 1) q)
      = Cert.Spec.at2 (V c main_v4 : S1x4096.Idx → EReal) 0 (t.val / 2 % 4 * 1024 + q.val) := by
  have hN : t.val < 32 := lt_of_lt_of_eq t.isLt N_0
  obtain ⟨-, -, -, -, e4, e5, -⟩ := idx0 t
  rw [Cert.Spec.at2_of_lt _ _ _ (by omega) (by omega)]
  unfold iblk0
  rw [View.read_apply]
  show V c main_v4 (((cfg0.win 2).blk t).view.emb (ix2 (0 : Fin 1) q)) = V c main_v4 _
  refine congrArg (V c main_v4) (funext fun a => Fin.ext ?_)
  match a with
  | ⟨0, _⟩ => show win0_2.index t (0 : Fin 2) * 1 + 1 * 0 = 0; rw [e4]
  | ⟨1, _⟩ => show win0_2.index t (1 : Fin 2) * 1024 + 1 * q.val = t.val / 2 % 4 * 1024 + q.val; rw [e5]; omega

/-! ## The accumulator after each point -/

/-- At the contraction's first block the accumulator is the zero word plus the first block term. -/
theorem acc0_first (c : Dev nD) (t : Fin cfg0.N) (h0 : t.val % 2 = 0) (p q : Fin 1024) :
    ((outsAt0 V c t.val t.isLt).2 : Vec Ideal S1024x1024 .f32) (ix2 p q)
      = Cert.Spec.accUpTo (Cert.Spec.blockTerm (V c main_v0 : S4096x2048.Idx → EReal) (V c main_v1 : S2048x4096.Idx → EReal)
          (t.val / 8 * 1024 + p.val) (t.val / 2 % 4 * 1024 + q.val)) (t.val % 2) := by
  have h1 : ¬t.val % 2 = 1 := by omega
  rw [outsAt0_A V c t h0 h1]
  dsimp only
  refine (congrFun (sout0_A_eq (F := Ideal) c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) (ix2 p q)).trans ?_
  refine (pay2_apply_0 (k0_pay1 (F := Ideal)) (iblk0 V c 0 t) (iblk0 V c 1 t) p q).trans ?_
  rw [pay1_apply_0 p q, h0, Cert.Spec.accUpTo_zero]
  refine congrArg (Cert.Spec.zeroW + ·) ?_
  unfold Cert.Spec.blockTerm
  refine Finset.sum_congr rfl fun kk _ => ?_
  rw [iblk0_0_apply V c t p kk, iblk0_1_apply V c t kk q, h0]

/-- At the contraction's last block the accumulator gains the last block term. -/
theorem acc0_last (c : Dev nD) (t : Fin cfg0.N) (h0 : ¬t.val % 2 = 0) (h1 : t.val % 2 = 1)
    (ih : ∀ p q : Fin 1024, ((outsAt0 V c (t.val - 1) (Nat.lt_of_le_of_lt (Nat.sub_le _ _) t.isLt)).2 : Vec Ideal S1024x1024 .f32) (ix2 p q)
      = Cert.Spec.accUpTo (Cert.Spec.blockTerm (V c main_v0 : S4096x2048.Idx → EReal) (V c main_v1 : S2048x4096.Idx → EReal)
          ((t.val - 1) / 8 * 1024 + p.val) ((t.val - 1) / 2 % 4 * 1024 + q.val)) ((t.val - 1) % 2))
    (p q : Fin 1024) :
    ((outsAt0 V c t.val t.isLt).2 : Vec Ideal S1024x1024 .f32) (ix2 p q)
      = Cert.Spec.accUpTo (Cert.Spec.blockTerm (V c main_v0 : S4096x2048.Idx → EReal) (V c main_v1 : S2048x4096.Idx → EReal)
          (t.val / 8 * 1024 + p.val) (t.val / 2 % 4 * 1024 + q.val)) (t.val % 2) := by
  have hN : t.val < 32 := lt_of_lt_of_eq t.isLt N_0
  rw [outsAt0_C V c t h0 h1]
  dsimp only
  refine (congrFun (sout0_C_eq (F := Ideal) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) (ix2 p q)).trans ?_
  refine (pay2_apply_0 (outsAt0 V c (t.val - 1) (Nat.lt_of_le_of_lt (Nat.sub_le _ _) t.isLt)).2 (iblk0 V c 0 t) (iblk0 V c 1 t) p q).trans ?_
  rw [ih p q]
  have e1 : (t.val - 1) / 8 = t.val / 8 := by omega
  have e2 : (t.val - 1) / 2 % 4 = t.val / 2 % 4 := by omega
  have hm : t.val % 2 = (t.val - 1) % 2 + 1 := by omega
  rw [e1, e2, hm, Cert.Spec.accUpTo_succ]
  refine congrArg (Cert.Spec.accUpTo _ ((t.val - 1) % 2) + ·) ?_
  unfold Cert.Spec.blockTerm
  refine Finset.sum_congr rfl fun kk _ => ?_
  rw [iblk0_0_apply V c t p kk, iblk0_1_apply V c t kk q, hm]

/-- After every point the accumulator holds the accumulated block terms of the contraction blocks so far. -/
theorem acc0 (c : Dev nD) : ∀ (n : ℕ) (hn : n < cfg0.N) (p q : Fin 1024),
    ((outsAt0 V c n hn).2 : Vec Ideal S1024x1024 .f32) (ix2 p q)
      = Cert.Spec.accUpTo (Cert.Spec.blockTerm (V c main_v0 : S4096x2048.Idx → EReal) (V c main_v1 : S2048x4096.Idx → EReal)
          (n / 8 * 1024 + p.val) (n / 2 % 4 * 1024 + q.val)) (n % 2) := by
  intro n
  induction n using Nat.strong_induction_on with
  | _ n ih =>
    intro hn p q
    have hN : n < 32 := lt_of_lt_of_eq hn N_0
    by_cases h0 : n % 2 = 0
    · exact acc0_first V c ⟨n, hn⟩ h0 p q
    · have h1 : n % 2 = 1 := by omega
      exact acc0_last V c ⟨n, hn⟩ h0 h1 (fun p' q' => ih (n - 1) (by omega) (Nat.lt_of_le_of_lt (Nat.sub_le _ _) hn) p' q') p q
/-! ## The block written back -/

/-- At the contraction's last block, the written block's entry `(p, q)` is the layer's function at the entry's place in
    the array. -/
theorem out0_apply (c : Dev nD) (t : Fin cfg0.N) (h0 : ¬t.val % 2 = 0) (h1 : t.val % 2 = 1) (p q : Fin 1024)
    (hr : t.val / 8 * 1024 + p.val < 4096) (hc : t.val / 2 % 4 * 1024 + q.val < 4096) :
    ((outsAt0 V c t.val t.isLt).1 : Vec Ideal S1024x1024 .bf16) (ix2 p q)
      = Cert.Spec.layerA (V c main_v0 : S4096x2048.Idx → EReal) (V c main_v1 : S2048x4096.Idx → EReal) (V c main_v4 : S1x4096.Idx → EReal)
          (ix2 (⟨t.val / 8 * 1024 + p.val, hr⟩ : Fin 4096) (⟨t.val / 2 % 4 * 1024 + q.val, hc⟩ : Fin 4096) : S4096x4096.Idx) := by
  have hN : t.val < 32 := lt_of_lt_of_eq t.isLt N_0
  have hacc := acc0 V c t.val t.isLt p q
  rw [outsAt0_C V c t h0 h1] at hacc ⊢
  dsimp only at hacc ⊢
  have hs := (congrFun (sout0_C_eq (F := Ideal) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) (ix2 p q)).symm.trans hacc
  refine (congrFun (out0_C_eq (F := Ideal) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) (ix2 p q)).trans ?_
  refine (pay3_apply_0 (k0_pay2 (outsAt0 V c (t.val - 1) (Nat.lt_of_le_of_lt (Nat.sub_le _ _) t.isLt)).2 (iblk0 V c 0 t) (iblk0 V c 1 t)) (iblk0 V c 2 t) p q).trans ?_
  rw [hs, iblk0_2_apply V c t q, Cert.Spec.at2_of_lt _ _ _ (by decide) hc, h1]
  rw [Cert.Spec.acc_blockTerm_2048 (V c main_v0 : S4096x2048.Idx → EReal) (V c main_v1 : S2048x4096.Idx → EReal) ⟨t.val / 8 * 1024 + p.val, hr⟩ ⟨t.val / 2 % 4 * 1024 + q.val, hc⟩]
  rfl

/-- What a write-back point writes is its block of the layer's function of the arrays the region reads. -/
theorem flushed0_eq (c : Dev nD) (t : Fin cfg0.N) (hf : (cfg0.win 3).flush t = true) :
    (dat0 (F := Ideal) V c).flushed 3 t
      = ((cfg0.win 3).blk t).view.read (Elt Ideal) (Cert.Spec.layerA (V c main_v0 : S4096x2048.Idx → EReal) (V c main_v1 : S2048x4096.Idx → EReal) (V c main_v4 : S1x4096.Idx → EReal)) := by
  have hN : t.val < 32 := lt_of_lt_of_eq t.isLt N_0
  have hl : t.val % 2 = 1 := (flush0_3 t).mp hf
  obtain ⟨-, -, -, -, -, -, e6, e7⟩ := idx0 t
  show (cfg0.win 3).cut (grid0.coords t) ((dat0 V c).after 3 t) = _
  rw [after0_3]
  funext j
  obtain ⟨p, q, rfl⟩ : ∃ (p q : Fin 1024), j = ix2 p q := ⟨j 0, j 1, eq_ix2 (n0 := 1024) (n1 := 1024) j⟩
  have hr : t.val / 8 * 1024 + p.val < 4096 := by have := p.isLt; omega
  have hc : t.val / 2 % 4 * 1024 + q.val < 4096 := by have := q.isLt; omega
  rw [View.read_apply]
  show ((outsAt0 V c t.val t.isLt).1 : Vec Ideal S1024x1024 .bf16) (ix2 p q)
    = Cert.Spec.layerA (V c main_v0 : S4096x2048.Idx → EReal) (V c main_v1 : S2048x4096.Idx → EReal) (V c main_v4 : S1x4096.Idx → EReal) (((cfg0.win 3).blk t).view.emb (ix2 p q))
  have hemb : ((cfg0.win 3).blk t).view.emb (ix2 p q)
      = (ix2 (⟨t.val / 8 * 1024 + p.val, hr⟩ : Fin 4096) (⟨t.val / 2 % 4 * 1024 + q.val, hc⟩ : Fin 4096) : S4096x4096.Idx) :=
    funext fun a => Fin.ext (by
      match a with
      | ⟨0, _⟩ => show win0_3.index t (0 : Fin 2) * 1024 + 1 * p.val = t.val / 8 * 1024 + p.val; rw [e6]; omega
      | ⟨1, _⟩ => show win0_3.index t (1 : Fin 2) * 1024 + 1 * q.val = t.val / 2 % 4 * 1024 + q.val; rw [e7]; omega)
  rw [hemb]
  exact out0_apply V c t (by omega) hl p q hr hc

/-! ## The blocks written back tile the array -/

/-- An index of the array is in point `t`'s block iff each coordinate is in the block's range on its axis. -/
theorem mem_blk0 (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v9).slice (win0_3.rect t)).set ↔ _
  rw [View.set_slice_whole, Rect.mem_set_unit]
  exact Iff.rfl

/-- Every index of the array is in the block of some write-back point. -/
theorem cover0 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 32 := N_0
  obtain ⟨t, ht⟩ : ∃ t : Fin cfg0.N, t.val = ((i 0).val / 1024 * 4 + (i 1).val / 1024) * 2 + 1 := ⟨⟨((i 0).val / 1024 * 4 + (i 1).val / 1024) * 2 + 1, by omega⟩, rfl⟩
  obtain ⟨-, -, -, -, -, -, e6, e7⟩ := idx0 t
  refine ⟨t, (flush0_3 t).mpr (by omega), ?_⟩
  rw [mem_blk0]
  intro a
  match a with
  | ⟨0, _⟩ => show win0_3.index t (0 : Fin 2) * 1024 ≤ (i 0).val ∧ (i 0).val < win0_3.index t (0 : Fin 2) * 1024 + 1024; rw [e6]; omega
  | ⟨1, _⟩ => show win0_3.index t (1 : Fin 2) * 1024 ≤ (i 1).val ∧ (i 1).val < win0_3.index t (1 : Fin 2) * 1024 + 1024; rw [e7]; omega

/-! ## The array after the region -/

/-- The array the region writes ends holding the layer's function of the arrays it reads. -/
theorem final0 (c : Dev nD) :
    (dat0 (F := Ideal) V c).arrAt 3 cfg0.N = Cert.Spec.layerA (V c main_v0 : S4096x2048.Idx → EReal) (V c main_v1 : S2048x4096.Idx → EReal) (V c main_v4 : S1x4096.Idx → EReal) :=
  (dat0 (F := Ideal) V c).arrAt_eq_of_cover 3 _ (fun t hf => flushed0_eq V c t hf) cover0

end Cert.KernelIdeal.Hand

end
-- ==== Proof.R1Pieces.lean ====
/-
  Region 1: what each case's stores amount to, as the body's arithmetic of what it loaded.
  First block: the accumulator ends at  zero-block + product.  Middle block: previous accumulator + product.
  Last block: the same, and the output block is  bias and rectifier applied to that accumulator.
-/
import proofs.«143312_j70592082477120_2_alg».proof.Proof.R1Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin S1024x1024.rank → Nat) = fun _ => 0 := by funext a; fin_cases a <;> rfl
theorem hz1' : (![0, 0] : Fin S1x1024.rank → Nat) = fun _ => 0 := by funext a; fin_cases a <;> rfl

theorem sout1_A_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i) (x0 : Vec F S1024x1024 .bf16) (x1 : Vec F S1024x1024 .bf16) (x2 : Vec F S1x1024 .f32) :
    sout1_A c i arg3 harg3 arg4 harg4 arg5 harg5 arg6 harg6 arg7 harg7 hc0 hc1 x0 x1 x2 = k1_pay2 (k1_pay1 (F := F)) x0 x1 := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero hz1]
  simp only [View.readAt_eq_ld, Memref.IsWhole.read_unread, View.ld_unit_zero (S := S1024x1024) hz1, View.ld_unit_zero (S := S1x1024) hz1']
  rw [View.readCov_unit_zero (S := S1024x1024) _ hz1]

theorem sout1_B_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i) (x0 : Vec F S1024x1024 .bf16) (x1 : Vec F S1024x1024 .bf16) (x2 : Vec F S1x1024 .f32) (xs : Vec F S1024x1024 .f32) :
    sout1_B c i arg3 harg3 arg4 harg4 arg5 harg5 arg6 harg6 arg7 harg7 hc0 hc1 x0 x1 x2 xs = k1_pay2 xs x0 x1 := by
  unfold sout1_B
  rw [View.read_writes_eq_canon _ _ _ (scover1_B c i arg3 harg3 arg4 harg4 arg5 harg5 arg6 harg6 arg7 harg7 hc0 hc1 x0 x1 x2 xs)]
  unfold kernelRun1_B
  dsimp only
  sl_unfold_words
  rw [View.canon_unit_zero hz1]
  simp only [View.readAt_eq_ld, Memref.IsWhole.read_unread, View.ld_unit_zero (S := S1024x1024) hz1, View.ld_unit_zero (S := S1x1024) hz1']

theorem sout1_C_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .bf16) (x2 : Vec F S1x1024 .f32) (xs : Vec F S1024x1024 .f32) :
    sout1_C c i arg3 harg3 arg4 harg4 arg5 harg5 arg6 harg6 arg7 harg7 hc0 hc1 x0 x1 x2 xs = k1_pay2 xs x0 x1 := by
  unfold sout1_C
  rw [View.read_writes_eq_canon _ _ _ (scover1_C c i arg3 harg3 arg4 harg4 arg5 harg5 arg6 harg6 arg7 harg7 hc0 hc1 x0 x1 x2 xs)]
  unfold kernelRun1_C
  dsimp only
  sl_unfold_words
  rw [View.canon_unit_zero hz1]
  simp only [View.readAt_eq_ld, Memref.IsWhole.read_unread, View.ld_unit_zero (S := S1024x1024) hz1, View.ld_unit_zero (S := S1x1024) hz1']

theorem out1_C_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .bf16) (x2 : Vec F S1x1024 .f32) (xs : Vec F S1024x1024 .f32) :
    out1_C c i arg3 harg3 arg4 harg4 arg5 harg5 arg6 harg6 arg7 harg7 hc0 hc1 x0 x1 x2 xs = k1_pay3 (k1_pay2 xs x0 x1) x2 := by
  unfold out1_C
  rw [View.read_writes_eq_canon _ _ _ (cover1_C c i arg3 harg3 arg4 harg4 arg5 harg5 arg6 harg6 arg7 harg7 hc0 hc1 x0 x1 x2 xs)]
  unfold kernelRun1_C
  dsimp only
  sl_unfold_words
  rw [View.canon_unit_zero hz1]
  simp only [View.readAt_eq_ld, Memref.IsWhole.read_unread, View.ld_unit_zero (S := S1024x1024) hz1, View.ld_unit_zero (S := S1x1024) hz1']
  rw [View.readCov_unit_zero (S := S1024x1024) _ hz1]

end Cert.KernelIdeal.Hand

end
-- ==== Proof.R1Value.lean ====
/-
  Region 1 (layer 2): the array the region writes ends holding the layer's function of the three arrays it reads.
  Point `t` of the grid works on row block `t / 16`, column block `t / 4 % 4` and contraction block `t % 4`.
  After the point the accumulator holds, at entry `(p, q)` of its block, the accumulated block terms of the contraction
  blocks so far (an induction on the point); at the last contraction block that is the whole product-sum, and the block
  written back is the bias added and the rectifier applied: the layer's function on that block.  The blocks written back tile the array.
-/
import proofs.«143312_j70592082477120_2_alg».proof.Proof.R1Pieces
import proofs.«143312_j70592082477120_2_alg».proof.Proof.Layers
import proofs.«143312_j70592082477120_2_alg».proof.Proof.BlockAlg
import proofs.«143312_j70592082477120_2_alg».proof.Proof.Payloads
import Idealize.ShloMosaic.Lib.Pipeline.Value

set_option maxRecDepth 16384

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx
open Idealize.SL Idealize.SL.Sem
open Idealize.ShloMosaic.Pipeline (Dat Cfg Window)

-- the TensorCore's buffer contents when the region is entered, on the extended reals
variable (V : (c : Dev nD) → (b : Ref sig .tc) → Buf (Elt Ideal) ((c : Thread nD τ).loc b))

/-! ## Where point `t` works -/

/-- The windows' block indices at point `t`, decided once over the grid. -/
theorem idx1 : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-! ## The input blocks, read at an entry -/

/-- The activations' block at point `t`, at entry `(p, kk)`. -/
theorem iblk1_0_apply (c : Dev nD) (t : Fin cfg1.N) (p kk : Fin 1024) :
    (iblk1 V c 0 t : Vec Ideal S1024x1024 .bf16) (ix2 p kk)
      = Cert.Spec.at2 (V c main_v9 : S4096x4096.Idx → EReal) (t.val / 16 * 1024 + p.val) (t.val % 4 * 1024 + kk.val) := by
  have hN : t.val < 64 := lt_of_lt_of_eq t.isLt N_1
  obtain ⟨e0, e1, -⟩ := idx1 t
  rw [Cert.Spec.at2_of_lt _ _ _ (by omega) (by omega)]
  unfold iblk1
  rw [View.read_apply]
  show V c main_v9 (((cfg1.win 0).blk t).view.emb (ix2 p kk)) = V c main_v9 _
  refine congrArg (V c main_v9) (funext fun a => Fin.ext ?_)
  match a with
  | ⟨0, _⟩ => show win1_0.index t (0 : Fin 2) * 1024 + 1 * p.val = t.val / 16 * 1024 + p.val; rw [e0]; omega
  | ⟨1, _⟩ => show win1_0.index t (1 : Fin 2) * 1024 + 1 * kk.val = t.val % 4 * 1024 + kk.val; rw [e1]; omega

/-- The weights' block at point `t`, at entry `(kk, q)`. -/
theorem iblk1_1_apply (c : Dev nD) (t : Fin cfg1.N) (kk q : Fin 1024) :
    (iblk1 V c 1 t : Vec Ideal S1024x1024 .bf16) (ix2 kk q)
      = Cert.Spec.at2 (V c main_v2 : S4096x4096.Idx → EReal) (t.val % 4 * 1024 + kk.val) (t.val / 4 % 4 * 1024 + q.val) := by
  have hN : t.val < 64 := lt_of_lt_of_eq t.isLt N_1
  obtain ⟨-, -, e2, e3, -⟩ := idx1 t
  rw [Cert.Spec.at2_of_lt _ _ _ (by omega) (by omega)]
  unfold iblk1
  rw [View.read_apply]
  show V c main_v2 (((cfg1.win 1).blk t).view.emb (ix2 kk q)) = V c main_v2 _
  refine congrArg (V c main_v2) (funext fun a => Fin.ext ?_)
  match a with
  | ⟨0, _⟩ => show win1_1.index t (0 : Fin 2) * 1024 + 1 * kk.val = t.val % 4 * 1024 + kk.val; rw [e2]; omega
  | ⟨1, _⟩ => show win1_1.index t (1 : Fin 2) * 1024 + 1 * q.val = t.val / 4 % 4 * 1024 + q.val; rw [e3]; omega

/-- The bias row's block at point `t`, at entry `(0, q)`. -/
theorem iblk1_2_apply (c : Dev nD) (t : Fin cfg1.N) (q : Fin 1024) :
    (iblk1 V c 2 t : Vec Ideal S1x1024 .f32) (ix2 (0 : Fin 1) q)
      = Cert.Spec.at2 (V c main_v5 : S1x4096.Idx → EReal) 0 (t.val / 4 % 4 * 1024 + q.val) := by
  have hN : t.val < 64 := lt_of_lt_of_eq t.isLt N_1
  obtain ⟨-, -, -, -, e4, e5, -⟩ := idx1 t
  rw [Cert.Spec.at2_of_lt _ _ _ (by omega) (by omega)]
  unfold iblk1
  rw [View.read_apply]
  show V c main_v5 (((cfg1.win 2).blk t).view.emb (ix2 (0 : Fin 1) q)) = V c main_v5 _
  refine congrArg (V c main_v5) (funext fun a => Fin.ext ?_)
  match a with
  | ⟨0, _⟩ => show win1_2.index t (0 : Fin 2) * 1 + 1 * 0 = 0; rw [e4]
  | ⟨1, _⟩ => show win1_2.index t (1 : Fin 2) * 1024 + 1 * q.val = t.val / 4 % 4 * 1024 + q.val; rw [e5]; omega

/-! ## The accumulator after each point -/

/-- At the contraction's first block the accumulator is the zero word plus the first block term. -/
theorem acc1_first (c : Dev nD) (t : Fin cfg1.N) (h0 : t.val % 4 = 0) (p q : Fin 1024) :
    ((outsAt1 V c t.val t.isLt).2 : Vec Ideal S1024x1024 .f32) (ix2 p q)
      = Cert.Spec.accUpTo (Cert.Spec.blockTerm (V c main_v9 : S4096x4096.Idx → EReal) (V c main_v2 : S4096x4096.Idx → EReal)
          (t.val / 16 * 1024 + p.val) (t.val / 4 % 4 * 1024 + q.val)) (t.val % 4) := by
  have h1 : ¬t.val % 4 = 3 := by omega
  rw [outsAt1_A V c t h0 h1]
  dsimp only
  refine (congrFun (sout1_A_eq (F := Ideal) c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) (ix2 p q)).trans ?_
  refine (pay2_apply_1 (k1_pay1 (F := Ideal)) (iblk1 V c 0 t) (iblk1 V c 1 t) p q).trans ?_
  rw [pay1_apply_1 p q, h0, Cert.Spec.accUpTo_zero]
  refine congrArg (Cert.Spec.zeroW + ·) ?_
  unfold Cert.Spec.blockTerm
  refine Finset.sum_congr rfl fun kk _ => ?_
  rw [iblk1_0_apply V c t p kk, iblk1_1_apply V c t kk q, h0]

/-- At a middle block of the contraction the accumulator gains that block's term. -/
theorem acc1_mid (c : Dev nD) (t : Fin cfg1.N) (h0 : ¬t.val % 4 = 0) (h1 : ¬t.val % 4 = 3)
    (ih : ∀ p q : Fin 1024, ((outsAt1 V c (t.val - 1) (Nat.lt_of_le_of_lt (Nat.sub_le _ _) t.isLt)).2 : Vec Ideal S1024x1024 .f32) (ix2 p q)
      = Cert.Spec.accUpTo (Cert.Spec.blockTerm (V c main_v9 : S4096x4096.Idx → EReal) (V c main_v2 : S4096x4096.Idx → EReal)
          ((t.val - 1) / 16 * 1024 + p.val) ((t.val - 1) / 4 % 4 * 1024 + q.val)) ((t.val - 1) % 4))
    (p q : Fin 1024) :
    ((outsAt1 V c t.val t.isLt).2 : Vec Ideal S1024x1024 .f32) (ix2 p q)
      = Cert.Spec.accUpTo (Cert.Spec.blockTerm (V c main_v9 : S4096x4096.Idx → EReal) (V c main_v2 : S4096x4096.Idx → EReal)
          (t.val / 16 * 1024 + p.val) (t.val / 4 % 4 * 1024 + q.val)) (t.val % 4) := by
  have hN : t.val < 64 := lt_of_lt_of_eq t.isLt N_1
  rw [outsAt1_B V c t h0 h1]
  dsimp only
  refine (congrFun (sout1_B_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) (ix2 p q)).trans ?_
  refine (pay2_apply_1 (outsAt1 V c (t.val - 1) (Nat.lt_of_le_of_lt (Nat.sub_le _ _) t.isLt)).2 (iblk1 V c 0 t) (iblk1 V c 1 t) p q).trans ?_
  rw [ih p q]
  have e1 : (t.val - 1) / 16 = t.val / 16 := by omega
  have e2 : (t.val - 1) / 4 % 4 = t.val / 4 % 4 := by omega
  have hm : t.val % 4 = (t.val - 1) % 4 + 1 := by omega
  rw [e1, e2, hm, Cert.Spec.accUpTo_succ]
  refine congrArg (Cert.Spec.accUpTo _ ((t.val - 1) % 4) + ·) ?_
  unfold Cert.Spec.blockTerm
  refine Finset.sum_congr rfl fun kk _ => ?_
  rw [iblk1_0_apply V c t p kk, iblk1_1_apply V c t kk q, hm]

/-- At the contraction's last block the accumulator gains the last block term. -/
theorem acc1_last (c : Dev nD) (t : Fin cfg1.N) (h0 : ¬t.val % 4 = 0) (h1 : t.val % 4 = 3)
    (ih : ∀ p q : Fin 1024, ((outsAt1 V c (t.val - 1) (Nat.lt_of_le_of_lt (Nat.sub_le _ _) t.isLt)).2 : Vec Ideal S1024x1024 .f32) (ix2 p q)
      = Cert.Spec.accUpTo (Cert.Spec.blockTerm (V c main_v9 : S4096x4096.Idx → EReal) (V c main_v2 : S4096x4096.Idx → EReal)
          ((t.val - 1) / 16 * 1024 + p.val) ((t.val - 1) / 4 % 4 * 1024 + q.val)) ((t.val - 1) % 4))
    (p q : Fin 1024) :
    ((outsAt1 V c t.val t.isLt).2 : Vec Ideal S1024x1024 .f32) (ix2 p q)
      = Cert.Spec.accUpTo (Cert.Spec.blockTerm (V c main_v9 : S4096x4096.Idx → EReal) (V c main_v2 : S4096x4096.Idx → EReal)
          (t.val / 16 * 1024 + p.val) (t.val / 4 % 4 * 1024 + q.val)) (t.val % 4) := by
  have hN : t.val < 64 := lt_of_lt_of_eq t.isLt N_1
  rw [outsAt1_C V c t h0 h1]
  dsimp only
  refine (congrFun (sout1_C_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) (ix2 p q)).trans ?_
  refine (pay2_apply_1 (outsAt1 V c (t.val - 1) (Nat.lt_of_le_of_lt (Nat.sub_le _ _) t.isLt)).2 (iblk1 V c 0 t) (iblk1 V c 1 t) p q).trans ?_
  rw [ih p q]
  have e1 : (t.val - 1) / 16 = t.val / 16 := by omega
  have e2 : (t.val - 1) / 4 % 4 = t.val / 4 % 4 := by omega
  have hm : t.val % 4 = (t.val - 1) % 4 + 1 := by omega
  rw [e1, e2, hm, Cert.Spec.accUpTo_succ]
  refine congrArg (Cert.Spec.accUpTo _ ((t.val - 1) % 4) + ·) ?_
  unfold Cert.Spec.blockTerm
  refine Finset.sum_congr rfl fun kk _ => ?_
  rw [iblk1_0_apply V c t p kk, iblk1_1_apply V c t kk q, hm]

/-- After every point the accumulator holds the accumulated block terms of the contraction blocks so far. -/
theorem acc1 (c : Dev nD) : ∀ (n : ℕ) (hn : n < cfg1.N) (p q : Fin 1024),
    ((outsAt1 V c n hn).2 : Vec Ideal S1024x1024 .f32) (ix2 p q)
      = Cert.Spec.accUpTo (Cert.Spec.blockTerm (V c main_v9 : S4096x4096.Idx → EReal) (V c main_v2 : S4096x4096.Idx → EReal)
          (n / 16 * 1024 + p.val) (n / 4 % 4 * 1024 + q.val)) (n % 4) := by
  intro n
  induction n using Nat.strong_induction_on with
  | _ n ih =>
    intro hn p q
    have hN : n < 64 := lt_of_lt_of_eq hn N_1
    by_cases h0 : n % 4 = 0
    · exact acc1_first V c ⟨n, hn⟩ h0 p q
    · by_cases h1 : n % 4 = 3
      · exact acc1_last V c ⟨n, hn⟩ h0 h1 (fun p' q' => ih (n - 1) (by omega) (Nat.lt_of_le_of_lt (Nat.sub_le _ _) hn) p' q') p q
      · exact acc1_mid V c ⟨n, hn⟩ h0 h1 (fun p' q' => ih (n - 1) (by omega) (Nat.lt_of_le_of_lt (Nat.sub_le _ _) hn) p' q') p q
/-! ## The block written back -/

/-- At the contraction's last block, the written block's entry `(p, q)` is the layer's function at the entry's place in
    the array. -/
theorem out1_apply (c : Dev nD) (t : Fin cfg1.N) (h0 : ¬t.val % 4 = 0) (h1 : t.val % 4 = 3) (p q : Fin 1024)
    (hr : t.val / 16 * 1024 + p.val < 4096) (hc : t.val / 4 % 4 * 1024 + q.val < 4096) :
    ((outsAt1 V c t.val t.isLt).1 : Vec Ideal S1024x1024 .bf16) (ix2 p q)
      = Cert.Spec.layerB (V c main_v9 : S4096x4096.Idx → EReal) (V c main_v2 : S4096x4096.Idx → EReal) (V c main_v5 : S1x4096.Idx → EReal)
          (ix2 (⟨t.val / 16 * 1024 + p.val, hr⟩ : Fin 4096) (⟨t.val / 4 % 4 * 1024 + q.val, hc⟩ : Fin 4096) : S4096x4096.Idx) := by
  have hN : t.val < 64 := lt_of_lt_of_eq t.isLt N_1
  have hacc := acc1 V c t.val t.isLt p q
  rw [outsAt1_C V c t h0 h1] at hacc ⊢
  dsimp only at hacc ⊢
  have hs := (congrFun (sout1_C_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) (ix2 p q)).symm.trans hacc
  refine (congrFun (out1_C_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) (ix2 p q)).trans ?_
  refine (pay3_apply_1 (k1_pay2 (outsAt1 V c (t.val - 1) (Nat.lt_of_le_of_lt (Nat.sub_le _ _) t.isLt)).2 (iblk1 V c 0 t) (iblk1 V c 1 t)) (iblk1 V c 2 t) p q).trans ?_
  rw [hs, iblk1_2_apply V c t q, Cert.Spec.at2_of_lt _ _ _ (by decide) hc, h1]
  rw [Cert.Spec.acc_blockTerm_4096 (V c main_v9 : S4096x4096.Idx → EReal) (V c main_v2 : S4096x4096.Idx → EReal) ⟨t.val / 16 * 1024 + p.val, hr⟩ ⟨t.val / 4 % 4 * 1024 + q.val, hc⟩]
  rfl

/-- What a write-back point writes is its block of the layer's function of the arrays the region reads. -/
theorem flushed1_eq (c : Dev nD) (t : Fin cfg1.N) (hf : (cfg1.win 3).flush t = true) :
    (dat1 (F := Ideal) V c).flushed 3 t
      = ((cfg1.win 3).blk t).view.read (Elt Ideal) (Cert.Spec.layerB (V c main_v9 : S4096x4096.Idx → EReal) (V c main_v2 : S4096x4096.Idx → EReal) (V c main_v5 : S1x4096.Idx → EReal)) := by
  have hN : t.val < 64 := lt_of_lt_of_eq t.isLt N_1
  have hl : t.val % 4 = 3 := (flush1_3 t).mp hf
  obtain ⟨-, -, -, -, -, -, e6, e7⟩ := idx1 t
  show (cfg1.win 3).cut (grid1.coords t) ((dat1 V c).after 3 t) = _
  rw [after1_3]
  funext j
  obtain ⟨p, q, rfl⟩ : ∃ (p q : Fin 1024), j = ix2 p q := ⟨j 0, j 1, eq_ix2 (n0 := 1024) (n1 := 1024) j⟩
  have hr : t.val / 16 * 1024 + p.val < 4096 := by have := p.isLt; omega
  have hc : t.val / 4 % 4 * 1024 + q.val < 4096 := by have := q.isLt; omega
  rw [View.read_apply]
  show ((outsAt1 V c t.val t.isLt).1 : Vec Ideal S1024x1024 .bf16) (ix2 p q)
    = Cert.Spec.layerB (V c main_v9 : S4096x4096.Idx → EReal) (V c main_v2 : S4096x4096.Idx → EReal) (V c main_v5 : S1x4096.Idx → EReal) (((cfg1.win 3).blk t).view.emb (ix2 p q))
  have hemb : ((cfg1.win 3).blk t).view.emb (ix2 p q)
      = (ix2 (⟨t.val / 16 * 1024 + p.val, hr⟩ : Fin 4096) (⟨t.val / 4 % 4 * 1024 + q.val, hc⟩ : Fin 4096) : S4096x4096.Idx) :=
    funext fun a => Fin.ext (by
      match a with
      | ⟨0, _⟩ => show win1_3.index t (0 : Fin 2) * 1024 + 1 * p.val = t.val / 16 * 1024 + p.val; rw [e6]; omega
      | ⟨1, _⟩ => show win1_3.index t (1 : Fin 2) * 1024 + 1 * q.val = t.val / 4 % 4 * 1024 + q.val; rw [e7]; omega)
  rw [hemb]
  exact out1_apply V c t (by omega) hl p q hr hc

/-! ## The blocks written back tile the array -/

/-- An index of the array is in point `t`'s block iff each coordinate is in the block's range on its axis. -/
theorem mem_blk1 (t : Fin cfg1.N) (i : S4096x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v10).slice (win1_3.rect t)).set ↔ _
  rw [View.set_slice_whole, Rect.mem_set_unit]
  exact Iff.rfl

/-- Every index of the array is in the block of some write-back point. -/
theorem cover1 (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  have hN : cfg1.N = 64 := N_1
  obtain ⟨t, ht⟩ : ∃ t : Fin cfg1.N, t.val = (((i 0).val / 1024 * 4 + (i 1).val / 1024) * 4 + 3) := ⟨⟨(((i 0).val / 1024 * 4 + (i 1).val / 1024) * 4 + 3), by omega⟩, rfl⟩
  obtain ⟨-, -, -, -, -, -, e6, e7⟩ := idx1 t
  refine ⟨t, (flush1_3 t).mpr (by omega), ?_⟩
  rw [mem_blk1]
  intro a
  match a with
  | ⟨0, _⟩ => show win1_3.index t (0 : Fin 2) * 1024 ≤ (i 0).val ∧ (i 0).val < win1_3.index t (0 : Fin 2) * 1024 + 1024; rw [e6]; omega
  | ⟨1, _⟩ => show win1_3.index t (1 : Fin 2) * 1024 ≤ (i 1).val ∧ (i 1).val < win1_3.index t (1 : Fin 2) * 1024 + 1024; rw [e7]; omega

/-! ## The array after the region -/

/-- The array the region writes ends holding the layer's function of the arrays it reads. -/
theorem final1 (c : Dev nD) :
    (dat1 (F := Ideal) V c).arrAt 3 cfg1.N = Cert.Spec.layerB (V c main_v9 : S4096x4096.Idx → EReal) (V c main_v2 : S4096x4096.Idx → EReal) (V c main_v5 : S1x4096.Idx → EReal) :=
  (dat1 (F := Ideal) V c).arrAt_eq_of_cover 3 _ (fun t hf => flushed1_eq V c t hf) cover1

end Cert.KernelIdeal.Hand

end
-- ==== Proof.R2Pieces.lean ====
/-
  Region 2: what each case's stores amount to, as the body's arithmetic of what it loaded.
  First block: the accumulator ends at  zero-block + product.  Middle block: previous accumulator + product.
  Last block: the same, and the output block is  bias applied to that accumulator.
-/
import proofs.«143312_j70592082477120_2_alg».proof.Proof.R2Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin S1024x1024.rank → Nat) = fun _ => 0 := by funext a; fin_cases a <;> rfl
theorem hz2' : (![0, 0] : Fin S1x1024.rank → Nat) = fun _ => 0 := by funext a; fin_cases a <;> rfl

theorem sout2_A_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i) (x0 : Vec F S1024x1024 .bf16) (x1 : Vec F S1024x1024 .bf16) (x2 : Vec F S1x1024 .f32) :
    sout2_A c i arg3 harg3 arg4 harg4 arg5 harg5 arg6 harg6 arg7 harg7 hc0 hc1 x0 x1 x2 = k2_pay2 (k2_pay1 (F := F)) x0 x1 := by
  unfold sout2_A
  rw [View.read_writes_eq_canon _ _ _ (scover2_A c i arg3 harg3 arg4 harg4 arg5 harg5 arg6 harg6 arg7 harg7 hc0 hc1 x0 x1 x2)]
  unfold kernelRun2_A
  dsimp only
  sl_unfold_words
  rw [View.canon_cons_unit_zero hz2]
  simp only [View.readAt_eq_ld, Memref.IsWhole.read_unread, View.ld_unit_zero (S := S1024x1024) hz2, View.ld_unit_zero (S := S1x1024) hz2']
  rw [View.readCov_unit_zero (S := S1024x1024) _ hz2]

theorem sout2_B_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i) (x0 : Vec F S1024x1024 .bf16) (x1 : Vec F S1024x1024 .bf16) (x2 : Vec F S1x1024 .f32) (xs : Vec F S1024x1024 .f32) :
    sout2_B c i arg3 harg3 arg4 harg4 arg5 harg5 arg6 harg6 arg7 harg7 hc0 hc1 x0 x1 x2 xs = k2_pay2 xs x0 x1 := by
  unfold sout2_B
  rw [View.read_writes_eq_canon _ _ _ (scover2_B c i arg3 harg3 arg4 harg4 arg5 harg5 arg6 harg6 arg7 harg7 hc0 hc1 x0 x1 x2 xs)]
  unfold kernelRun2_B
  dsimp only
  sl_unfold_words
  rw [View.canon_unit_zero hz2]
  simp only [View.readAt_eq_ld, Memref.IsWhole.read_unread, View.ld_unit_zero (S := S1024x1024) hz2, View.ld_unit_zero (S := S1x1024) hz2']

theorem sout2_C_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x1024 .bf16) (x1 : Vec F S1024x1024 .bf16) (x2 : Vec F S1x1024 .f32) (xs : Vec F S1024x1024 .f32) :
    sout2_C c i arg3 harg3 arg4 harg4 arg5 harg5 arg6 harg6 arg7 harg7 hc0 hc1 x0 x1 x2 xs = k2_pay2 xs x0 x1 := by
  unfold sout2_C
  rw [View.read_writes_eq_canon _ _ _ (scover2_C c i arg3 harg3 arg4 harg4 arg5 harg5 arg6 harg6 arg7 harg7 hc0 hc1 x0 x1 x2 xs)]
  unfold kernelRun2_C
  dsimp only
  sl_unfold_words
  rw [View.canon_unit_zero hz2]
  simp only [View.readAt_eq_ld, Memref.IsWhole.read_unread, View.ld_unit_zero (S := S1024x1024) hz2, View.ld_unit_zero (S := S1x1024) hz2']

theorem out2_C_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x1024 .bf16) (x1 : Vec F S1024x1024 .bf16) (x2 : Vec F S1x1024 .f32) (xs : Vec F S1024x1024 .f32) :
    out2_C c i arg3 harg3 arg4 harg4 arg5 harg5 arg6 harg6 arg7 harg7 hc0 hc1 x0 x1 x2 xs = k2_pay3 (k2_pay2 xs x0 x1) x2 := by
  unfold out2_C
  rw [View.read_writes_eq_canon _ _ _ (cover2_C c i arg3 harg3 arg4 harg4 arg5 harg5 arg6 harg6 arg7 harg7 hc0 hc1 x0 x1 x2 xs)]
  unfold kernelRun2_C
  dsimp only
  sl_unfold_words
  rw [View.canon_unit_zero hz2]
  simp only [View.readAt_eq_ld, Memref.IsWhole.read_unread, View.ld_unit_zero (S := S1024x1024) hz2, View.ld_unit_zero (S := S1x1024) hz2']
  rw [View.readCov_unit_zero (S := S1024x1024) _ hz2]

end Cert.KernelIdeal.Hand

end
-- ==== Proof.R2Acc.lean ====
/-
  Region 2 (layer 3): the accumulator and the block written back, entry by entry.
  Point `t` of the grid works on row block `t / 4`, column block `0` and contraction block `t % 4`.
  After the point the accumulator holds, at entry `(p, q)` of its block, the accumulated block terms of the contraction
  blocks so far (an induction on the point); at the last contraction block that is the whole product-sum, and the block
  written back is the bias added: the layer's function on that block.  The blocks written back tile the array.
-/
import proofs.«143312_j70592082477120_2_alg».proof.Proof.R2Pieces
import proofs.«143312_j70592082477120_2_alg».proof.Proof.Layers
import proofs.«143312_j70592082477120_2_alg».proof.Proof.BlockAlg
import proofs.«143312_j70592082477120_2_alg».proof.Proof.Payloads
import Idealize.ShloMosaic.Lib.Pipeline.Value

set_option maxRecDepth 16384

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx
open Idealize.SL Idealize.SL.Sem
open Idealize.ShloMosaic.Pipeline (Dat Cfg Window)

-- the TensorCore's buffer contents when the region is entered, on the extended reals
variable (V : (c : Dev nD) → (b : Ref sig .tc) → Buf (Elt Ideal) ((c : Thread nD τ).loc b))

/-! ## Where point `t` works -/

/-- The windows' block indices at point `t`, decided once over the grid. -/
theorem idx2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = t.val / 4 ∧ win2_3.index t (1 : Fin 2) = 0 :=
  (by decide +kernel : ∀ t : Fin grid2.N, _)

/-! ## The input blocks, read at an entry -/

/-- The activations' block at point `t`, at entry `(p, kk)`. -/
theorem iblk2_0_apply (c : Dev nD) (t : Fin cfg2.N) (p kk : Fin 1024) :
    (iblk2 V c 0 t : Vec Ideal S1024x1024 .bf16) (ix2 p kk)
      = Cert.Spec.at2 (V c main_v10 : S4096x4096.Idx → EReal) (t.val / 4 * 1024 + p.val) (t.val % 4 * 1024 + kk.val) := by
  have hN : t.val < 16 := lt_of_lt_of_eq t.isLt N_2
  obtain ⟨e0, e1, -⟩ := idx2 t
  rw [Cert.Spec.at2_of_lt _ _ _ (by omega) (by omega)]
  unfold iblk2
  rw [View.read_apply]
  show V c main_v10 (((cfg2.win 0).blk t).view.emb (ix2 p kk)) = V c main_v10 _
  refine congrArg (V c main_v10) (funext fun a => Fin.ext ?_)
  match a with
  | ⟨0, _⟩ => show win2_0.index t (0 : Fin 2) * 1024 + 1 * p.val = t.val / 4 * 1024 + p.val; rw [e0]; omega
  | ⟨1, _⟩ => show win2_0.index t (1 : Fin 2) * 1024 + 1 * kk.val = t.val % 4 * 1024 + kk.val; rw [e1]; omega

/-- The weights' block at point `t`, at entry `(kk, q)`. -/
theorem iblk2_1_apply (c : Dev nD) (t : Fin cfg2.N) (kk q : Fin 1024) :
    (iblk2 V c 1 t : Vec Ideal S1024x1024 .bf16) (ix2 kk q)
      = Cert.Spec.at2 (V c main_v6 : S4096x1024.Idx → EReal) (t.val % 4 * 1024 + kk.val) (0 * 1024 + q.val) := by
  have hN : t.val < 16 := lt_of_lt_of_eq t.isLt N_2
  obtain ⟨-, -, e2, e3, -⟩ := idx2 t
  rw [Cert.Spec.at2_of_lt _ _ _ (by omega) (by omega)]
  unfold iblk2
  rw [View.read_apply]
  show V c main_v6 (((cfg2.win 1).blk t).view.emb (ix2 kk q)) = V c main_v6 _
  refine congrArg (V c main_v6) (funext fun a => Fin.ext ?_)
  match a with
  | ⟨0, _⟩ => show win2_1.index t (0 : Fin 2) * 1024 + 1 * kk.val = t.val % 4 * 1024 + kk.val; rw [e2]; omega
  | ⟨1, _⟩ => show win2_1.index t (1 : Fin 2) * 1024 + 1 * q.val = 0 * 1024 + q.val; rw [e3]; omega

/-- The bias row's block at point `t`, at entry `(0, q)`. -/
theorem iblk2_2_apply (c : Dev nD) (t : Fin cfg2.N) (q : Fin 1024) :
    (iblk2 V c 2 t : Vec Ideal S1x1024 .f32) (ix2 (0 : Fin 1) q)
      = Cert.Spec.at2 (V c main_v8 : S1x1024.Idx → EReal) 0 (0 * 1024 + q.val) := by
  have hN : t.val < 16 := lt_of_lt_of_eq t.isLt N_2
  obtain ⟨-, -, -, -, e4, e5, -⟩ := idx2 t
  rw [Cert.Spec.at2_of_lt _ _ _ (by omega) (by omega)]
  unfold iblk2
  rw [View.read_apply]
  show V c main_v8 (((cfg2.win 2).blk t).view.emb (ix2 (0 : Fin 1) q)) = V c main_v8 _
  refine congrArg (V c main_v8) (funext fun a => Fin.ext ?_)
  match a with
  | ⟨0, _⟩ => show win2_2.index t (0 : Fin 2) * 1 + 1 * 0 = 0; rw [e4]
  | ⟨1, _⟩ => show win2_2.index t (1 : Fin 2) * 1024 + 1 * q.val = 0 * 1024 + q.val; rw [e5]; omega

/-! ## The accumulator after each point -/

/-- At the contraction's first block the accumulator is the zero word plus the first block term. -/
theorem acc2_first (c : Dev nD) (t : Fin cfg2.N) (h0 : t.val % 4 = 0) (p q : Fin 1024) :
    ((outsAt2 V c t.val t.isLt).2 : Vec Ideal S1024x1024 .f32) (ix2 p q)
      = Cert.Spec.accUpTo (Cert.Spec.blockTerm (V c main_v10 : S4096x4096.Idx → EReal) (V c main_v6 : S4096x1024.Idx → EReal)
          (t.val / 4 * 1024 + p.val) (0 * 1024 + q.val)) (t.val % 4) := by
  have h1 : ¬t.val % 4 = 3 := by omega
  rw [outsAt2_A V c t h0 h1]
  dsimp only
  refine (congrFun (sout2_A_eq (F := Ideal) c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t)) (ix2 p q)).trans ?_
  refine (pay2_apply_2 (k2_pay1 (F := Ideal)) (iblk2 V c 0 t) (iblk2 V c 1 t) p q).trans ?_
  rw [pay1_apply_2 p q, h0, Cert.Spec.accUpTo_zero]
  refine congrArg (Cert.Spec.zeroW + ·) ?_
  unfold Cert.Spec.blockTerm
  refine Finset.sum_congr rfl fun kk _ => ?_
  rw [iblk2_0_apply V c t p kk, iblk2_1_apply V c t kk q, h0]

/-- At a middle block of the contraction the accumulator gains that block's term. -/
theorem acc2_mid (c : Dev nD) (t : Fin cfg2.N) (h0 : ¬t.val % 4 = 0) (h1 : ¬t.val % 4 = 3)
    (ih : ∀ p q : Fin 1024, ((outsAt2 V c (t.val - 1) (Nat.lt_of_le_of_lt (Nat.sub_le _ _) t.isLt)).2 : Vec Ideal S1024x1024 .f32) (ix2 p q)
      = Cert.Spec.accUpTo (Cert.Spec.blockTerm (V c main_v10 : S4096x4096.Idx → EReal) (V c main_v6 : S4096x1024.Idx → EReal)
          ((t.val - 1) / 4 * 1024 + p.val) (0 * 1024 + q.val)) ((t.val - 1) % 4))
    (p q : Fin 1024) :
    ((outsAt2 V c t.val t.isLt).2 : Vec Ideal S1024x1024 .f32) (ix2 p q)
      = Cert.Spec.accUpTo (Cert.Spec.blockTerm (V c main_v10 : S4096x4096.Idx → EReal) (V c main_v6 : S4096x1024.Idx → EReal)
          (t.val / 4 * 1024 + p.val) (0 * 1024 + q.val)) (t.val % 4) := by
  have hN : t.val < 16 := lt_of_lt_of_eq t.isLt N_2
  rw [outsAt2_B V c t h0 h1]
  dsimp only
  refine (congrFun (sout2_B_eq (F := Ideal) c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) (ix2 p q)).trans ?_
  refine (pay2_apply_2 (outsAt2 V c (t.val - 1) (Nat.lt_of_le_of_lt (Nat.sub_le _ _) t.isLt)).2 (iblk2 V c 0 t) (iblk2 V c 1 t) p q).trans ?_
  rw [ih p q]
  have e1 : (t.val - 1) / 4 = t.val / 4 := by omega
  have hm : t.val % 4 = (t.val - 1) % 4 + 1 := by omega
  rw [e1, hm, Cert.Spec.accUpTo_succ]
  refine congrArg (Cert.Spec.accUpTo _ ((t.val - 1) % 4) + ·) ?_
  unfold Cert.Spec.blockTerm
  refine Finset.sum_congr rfl fun kk _ => ?_
  rw [iblk2_0_apply V c t p kk, iblk2_1_apply V c t kk q, hm]

/-- At the contraction's last block the accumulator gains the last block term. -/
theorem acc2_last (c : Dev nD) (t : Fin cfg2.N) (h0 : ¬t.val % 4 = 0) (h1 : t.val % 4 = 3)
    (ih : ∀ p q : Fin 1024, ((outsAt2 V c (t.val - 1) (Nat.lt_of_le_of_lt (Nat.sub_le _ _) t.isLt)).2 : Vec Ideal S1024x1024 .f32) (ix2 p q)
      = Cert.Spec.accUpTo (Cert.Spec.blockTerm (V c main_v10 : S4096x4096.Idx → EReal) (V c main_v6 : S4096x1024.Idx → EReal)
          ((t.val - 1) / 4 * 1024 + p.val) (0 * 1024 + q.val)) ((t.val - 1) % 4))
    (p q : Fin 1024) :
    ((outsAt2 V c t.val t.isLt).2 : Vec Ideal S1024x1024 .f32) (ix2 p q)
      = Cert.Spec.accUpTo (Cert.Spec.blockTerm (V c main_v10 : S4096x4096.Idx → EReal) (V c main_v6 : S4096x1024.Idx → EReal)
          (t.val / 4 * 1024 + p.val) (0 * 1024 + q.val)) (t.val % 4) := by
  have hN : t.val < 16 := lt_of_lt_of_eq t.isLt N_2
  rw [outsAt2_C V c t h0 h1]
  dsimp only
  refine (congrFun (sout2_C_eq (F := Ideal) c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) (ix2 p q)).trans ?_
  refine (pay2_apply_2 (outsAt2 V c (t.val - 1) (Nat.lt_of_le_of_lt (Nat.sub_le _ _) t.isLt)).2 (iblk2 V c 0 t) (iblk2 V c 1 t) p q).trans ?_
  rw [ih p q]
  have e1 : (t.val - 1) / 4 = t.val / 4 := by omega
  have hm : t.val % 4 = (t.val - 1) % 4 + 1 := by omega
  rw [e1, hm, Cert.Spec.accUpTo_succ]
  refine congrArg (Cert.Spec.accUpTo _ ((t.val - 1) % 4) + ·) ?_
  unfold Cert.Spec.blockTerm
  refine Finset.sum_congr rfl fun kk _ => ?_
  rw [iblk2_0_apply V c t p kk, iblk2_1_apply V c t kk q, hm]

/-- After every point the accumulator holds the accumulated block terms of the contraction blocks so far. -/
theorem acc2 (c : Dev nD) : ∀ (n : ℕ) (hn : n < cfg2.N) (p q : Fin 1024),
    ((outsAt2 V c n hn).2 : Vec Ideal S1024x1024 .f32) (ix2 p q)
      = Cert.Spec.accUpTo (Cert.Spec.blockTerm (V c main_v10 : S4096x4096.Idx → EReal) (V c main_v6 : S4096x1024.Idx → EReal)
          (n / 4 * 1024 + p.val) (0 * 1024 + q.val)) (n % 4) := by
  intro n
  induction n using Nat.strong_induction_on with
  | _ n ih =>
    intro hn p q
    have hN : n < 16 := lt_of_lt_of_eq hn N_2
    by_cases h0 : n % 4 = 0
    · exact acc2_first V c ⟨n, hn⟩ h0 p q
    · by_cases h1 : n % 4 = 3
      · exact acc2_last V c ⟨n, hn⟩ h0 h1 (fun p' q' => ih (n - 1) (by omega) (Nat.lt_of_le_of_lt (Nat.sub_le _ _) hn) p' q') p q
      · exact acc2_mid V c ⟨n, hn⟩ h0 h1 (fun p' q' => ih (n - 1) (by omega) (Nat.lt_of_le_of_lt (Nat.sub_le _ _) hn) p' q') p q
/-! ## The block written back -/

/-- At the contraction's last block, the written block's entry `(p, q)` is the layer's function at the entry's place in
    the array. -/
theorem out2_apply (c : Dev nD) (t : Fin cfg2.N) (h0 : ¬t.val % 4 = 0) (h1 : t.val % 4 = 3) (p q : Fin 1024)
    (hr : t.val / 4 * 1024 + p.val < 4096) (hc : 0 * 1024 + q.val < 1024) :
    ((outsAt2 V c t.val t.isLt).1 : Vec Ideal S1024x1024 .f32) (ix2 p q)
      = Cert.Spec.layerC (V c main_v10 : S4096x4096.Idx → EReal) (V c main_v6 : S4096x1024.Idx → EReal) (V c main_v8 : S1x1024.Idx → EReal)
          (ix2 (⟨t.val / 4 * 1024 + p.val, hr⟩ : Fin 4096) (⟨0 * 1024 + q.val, hc⟩ : Fin 1024) : S4096x1024.Idx) := by
  have hN : t.val < 16 := lt_of_lt_of_eq t.isLt N_2
  have hacc := acc2 V c t.val t.isLt p q
  rw [outsAt2_C V c t h0 h1] at hacc ⊢
  dsimp only at hacc ⊢
  have hs := (congrFun (sout2_C_eq (F := Ideal) c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) (ix2 p q)).symm.trans hacc
  refine (congrFun (out2_C_eq (F := Ideal) c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) (ix2 p q)).trans ?_
  refine (pay3_apply_2 (k2_pay2 (outsAt2 V c (t.val - 1) (Nat.lt_of_le_of_lt (Nat.sub_le _ _) t.isLt)).2 (iblk2 V c 0 t) (iblk2 V c 1 t)) (iblk2 V c 2 t) p q).trans ?_
  rw [hs, iblk2_2_apply V c t q, Cert.Spec.at2_of_lt _ _ _ (by decide) hc, h1]
  rw [Cert.Spec.acc_blockTerm_4096 (V c main_v10 : S4096x4096.Idx → EReal) (V c main_v6 : S4096x1024.Idx → EReal) ⟨t.val / 4 * 1024 + p.val, hr⟩ ⟨0 * 1024 + q.val, hc⟩]
  rfl

/-! ## The blocks written back tile the array -/

/-- An index of the array is in point `t`'s block iff each coordinate is in the block's range on its axis. -/
theorem mem_blk2 (t : Fin cfg2.N) (i : S4096x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v11).slice (win2_3.rect t)).set ↔ _
  rw [View.set_slice_whole, Rect.mem_set_unit]
  exact Iff.rfl

/-- Every index of the array is in the block of some write-back point. -/
theorem cover2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 16 := N_2
  obtain ⟨t, ht⟩ : ∃ t : Fin cfg2.N, t.val = ((i 0).val / 1024 * 4 + 3) := ⟨⟨((i 0).val / 1024 * 4 + 3), by omega⟩, rfl⟩
  obtain ⟨-, -, -, -, -, -, e6, e7⟩ := idx2 t
  refine ⟨t, (flush2_3 t).mpr (by omega), ?_⟩
  rw [mem_blk2]
  intro a
  match a with
  | ⟨0, _⟩ => show win2_3.index t (0 : Fin 2) * 1024 ≤ (i 0).val ∧ (i 0).val < win2_3.index t (0 : Fin 2) * 1024 + 1024; rw [e6]; omega
  | ⟨1, _⟩ => show win2_3.index t (1 : Fin 2) * 1024 ≤ (i 1).val ∧ (i 1).val < win2_3.index t (1 : Fin 2) * 1024 + 1024; rw [e7]; omega

end Cert.KernelIdeal.Hand

end
-- ==== Proof.R2Value.lean ====
/-
  Region 2 (layer 3): the array the region writes ends holding the layer's function of the three arrays it reads.
  A write-back point writes, entry by entry, the layer's function at the entry's place in the array (the accumulated
  product-sum of the whole contraction plus the bias); the blocks written back tile the array.
-/
import proofs.«143312_j70592082477120_2_alg».proof.Proof.R2Acc
import Idealize.ShloMosaic.Lib.Pipeline.Value

set_option maxRecDepth 16384

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx
open Idealize.SL Idealize.SL.Sem
open Idealize.ShloMosaic.Pipeline (Dat Cfg Window)

-- the TensorCore's buffer contents when the region is entered, on the extended reals
variable (V : (c : Dev nD) → (b : Ref sig .tc) → Buf (Elt Ideal) ((c : Thread nD τ).loc b))

/-! ## The block written back -/

/-- What a write-back point writes is its block of the layer's function of the arrays the region reads. -/
theorem flushed2_eq (c : Dev nD) (t : Fin cfg2.N) (hf : (cfg2.win 3).flush t = true) :
    (dat2 (F := Ideal) V c).flushed 3 t
      = ((cfg2.win 3).blk t).view.read (Elt Ideal) (Cert.Spec.layerC (V c main_v10 : S4096x4096.Idx → EReal) (V c main_v6 : S4096x1024.Idx → EReal) (V c main_v8 : S1x1024.Idx → EReal)) := by
  have hN : t.val < 16 := lt_of_lt_of_eq t.isLt N_2
  have hl : t.val % 4 = 3 := (flush2_3 t).mp hf
  have hne : ¬t.val % 4 = 0 := by omega
  show (cfg2.win 3).cut (grid2.coords t) ((dat2 V c).after 3 t) = _
  rw [after2_3]
  funext j
  obtain ⟨p, q, rfl⟩ : ∃ (p q : Fin 1024), j = ix2 p q := ⟨j 0, j 1, eq_ix2 (n0 := 1024) (n1 := 1024) j⟩
  have hr : t.val / 4 * 1024 + p.val < 4096 := by have := p.isLt; omega
  have hc : 0 * 1024 + q.val < 1024 := by rw [Nat.zero_mul, Nat.zero_add]; exact q.isLt
  rw [View.read_apply]
  show ((outsAt2 V c t.val t.isLt).1 : Vec Ideal S1024x1024 .f32) (ix2 p q)
    = Cert.Spec.layerC (V c main_v10 : S4096x4096.Idx → EReal) (V c main_v6 : S4096x1024.Idx → EReal) (V c main_v8 : S1x1024.Idx → EReal) (((cfg2.win 3).blk t).view.emb (ix2 p q))
  have hemb : ((cfg2.win 3).blk t).view.emb (ix2 p q)
      = (ix2 (⟨t.val / 4 * 1024 + p.val, hr⟩ : Fin 4096) (⟨0 * 1024 + q.val, hc⟩ : Fin 1024) : S4096x1024.Idx) := by
    obtain ⟨-, -, -, -, -, -, e6, e7⟩ := idx2 t
    exact funext fun a => Fin.ext (by
      match a with
      | ⟨0, _⟩ => show win2_3.index t (0 : Fin 2) * 1024 + 1 * p.val = t.val / 4 * 1024 + p.val; rw [e6, Nat.one_mul]
      | ⟨1, _⟩ => show win2_3.index t (1 : Fin 2) * 1024 + 1 * q.val = 0 * 1024 + q.val; rw [e7, Nat.one_mul])
  rw [hemb]
  exact out2_apply V c t hne hl p q hr hc

/-! ## The array after the region -/

/-- The array the region writes ends holding the layer's function of the arrays it reads. -/
theorem final2 (c : Dev nD) :
    (dat2 (F := Ideal) V c).arrAt 3 cfg2.N = Cert.Spec.layerC (V c main_v10 : S4096x4096.Idx → EReal) (V c main_v6 : S4096x1024.Idx → EReal) (V c main_v8 : S1x1024.Idx → EReal) :=
  (dat2 (F := Ideal) V c).arrAt_eq_of_cover 3 _ (fun t hf => flushed2_eq V c t hf) cover2

end Cert.KernelIdeal.Hand

end
-- ==== Proof.KernelValue.lean ====
/-
  The kernel program's value on the extended reals.  The host lines before the regions only change formats (the
  identity here), reshape the biases into rows and pad the third layer's weights and bias with 24 zero columns; each
  region leaves its layer's function of the arrays it reads; the final slice drops the padded columns, which no kept
  entry depends on.  So the result buffer holds the three-layer network of the seven arguments.
-/
import proofs.«143312_j70592082477120_2_alg».proof.Proof.Run
import proofs.«143312_j70592082477120_2_alg».proof.Proof.Layers
import proofs.«143312_j70592082477120_2_alg».proof.Proof.Padding
import proofs.«143312_j70592082477120_2_alg».proof.Proof.R0Value
import proofs.«143312_j70592082477120_2_alg».proof.Proof.R1Value
import proofs.«143312_j70592082477120_2_alg».proof.Proof.R2Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-! ## What the host lines before the regions leave (format changes are the identity on the extended reals) -/

theorem V5_v0 (c : Dev nD) : (V5 m c main_v0 : S4096x2048.Idx → EReal) = m ((c : Thread nD τ).loc main_arg0) := by
  dsimp only [V5, W5, W4, W3, W2, W1, W0]; after_results; rfl
theorem V5_v1 (c : Dev nD) : (V5 m c main_v1 : S2048x4096.Idx → EReal) = m ((c : Thread nD τ).loc main_arg1) := by
  dsimp only [V5, W5, W4, W3, W2, W1, W0]; after_results; rfl
theorem V5_v2 (c : Dev nD) : (V5 m c main_v2 : S4096x4096.Idx → EReal) = m ((c : Thread nD τ).loc main_arg3) := by
  dsimp only [V5, W5, W4, W3, W2, W1, W0]; after_results; rfl
theorem V5_v4 (c : Dev nD) : (V5 m c main_v4 : S1x4096.Idx → EReal) = shapeCast S1x4096 (m ((c : Thread nD τ).loc main_arg2)) shapeCasts_S4096_S1x4096 := by
  dsimp only [V5, W5, W4, W3, W2, W1, W0]; after_results; rfl
theorem V5_v5 (c : Dev nD) : (V5 m c main_v5 : S1x4096.Idx → EReal) = shapeCast S1x4096 (m ((c : Thread nD τ).loc main_arg4)) shapeCasts_S4096_S1x4096 := by
  dsimp only [V5, W5, W4, W3, W2, W1, W0]; after_results; rfl
theorem V5_v6 (c : Dev nD) : ∃ v : S_.Idx → EReal, (V5 m c main_v6 : S4096x1024.Idx → EReal)
    = pad S4096x1024 ![0, 0] ![0, 24] ![0, 0] (m ((c : Thread nD τ).loc main_arg5) : S4096x1000.Idx → EReal) v pads_S4096x1000_S4096x1024_000_0240 h_S_ := by
  refine ⟨sitofp (F := Ideal) .bf16 (constantI S_ 32 0#32), ?_⟩
  dsimp only [V5, W5, W4, W3, W2, W1, W0]; after_results; rfl
theorem V5_v8 (c : Dev nD) : ∃ v : S_.Idx → EReal, (V5 m c main_v8 : S1x1024.Idx → EReal)
    = shapeCast S1x1024 (pad S1024 ![0] ![24] ![0] (m ((c : Thread nD τ).loc main_arg6) : S1000.Idx → EReal) v pads_S1000_S1024_0240 h_S_) shapeCasts_S1024_S1x1024 := by
  refine ⟨sitofp (F := Ideal) .f32 (constantI S_ 32 0#32), ?_⟩
  dsimp only [V5, W5, W4, W3, W2, W1, W0]; after_results; rfl

/-! ## Through the regions -/

theorem V6_v9 (c : Dev nD) : (V6 m c main_v9 : S4096x4096.Idx → EReal) = Cert.Spec.layerA (V5 m c main_v0) (V5 m c main_v1) (V5 m c main_v4) :=
  (W6_arr m c 3).trans (final0 (V5 m) c)
theorem V6_v2 (c : Dev nD) : (V6 m c main_v2 : S4096x4096.Idx → EReal) = V5 m c main_v2 := W6_of_ne m c main_v2 (by decide)
theorem V6_v5 (c : Dev nD) : (V6 m c main_v5 : S1x4096.Idx → EReal) = V5 m c main_v5 := W6_of_ne m c main_v5 (by decide)
theorem V6_v6 (c : Dev nD) : (V6 m c main_v6 : S4096x1024.Idx → EReal) = V5 m c main_v6 := W6_of_ne m c main_v6 (by decide)
theorem V6_v8 (c : Dev nD) : (V6 m c main_v8 : S1x1024.Idx → EReal) = V5 m c main_v8 := W6_of_ne m c main_v8 (by decide)
theorem V7_v10 (c : Dev nD) : (V7 m c main_v10 : S4096x4096.Idx → EReal) = Cert.Spec.layerB (V6 m c main_v9) (V6 m c main_v2) (V6 m c main_v5) :=
  (W7_arr m c 3).trans (final1 (V6 m) c)
theorem V7_v6 (c : Dev nD) : (V7 m c main_v6 : S4096x1024.Idx → EReal) = V6 m c main_v6 := W7_of_ne m c main_v6 (by decide)
theorem V7_v8 (c : Dev nD) : (V7 m c main_v8 : S1x1024.Idx → EReal) = V6 m c main_v8 := W7_of_ne m c main_v8 (by decide)
theorem V8_v11 (c : Dev nD) : (V8 m c main_v11 : S4096x1024.Idx → EReal) = Cert.Spec.layerC (V7 m c main_v10) (V7 m c main_v6) (V7 m c main_v8) :=
  (W8_arr m c 3).trans (final2 (V7 m) c)
theorem W9_v12 (c : Dev nD) : (W9 m c (Proc.devRef .tc main_v12) : S4096x1000.Idx → EReal)
    = extractStridedSlice S4096x1000 ![0, 0] (V8 m c main_v11 : S4096x1024.Idx → EReal) slices_S4096x1024_S4096x1000_0_0 := by
  dsimp only [W9, V8]; after_results <;> rfl

/-! ## The layers against the specification -/

theorem layerA_eq (a : S4096x2048.Idx → EReal) (w : S2048x4096.Idx → EReal) (b : S1x4096.Idx → EReal) (b1 : S4096.Idx → EReal)
    (hb : ∀ cc : Fin 4096, b (ix2 (0 : Fin 1) cc) = b1 (ix1 cc)) : Cert.Spec.layerA a w b = Cert.Spec.relu (Cert.Spec.affine1 a w b1) := by
  funext i
  obtain ⟨r, cc, rfl⟩ : ∃ (r : Fin 4096) (cc : Fin 4096), i = ix2 r cc := ⟨i 0, i 1, eq_ix2 i⟩
  show max ((∑ k : Fin 2048, a (ix2 r k) * w (ix2 k cc)) + b (ix2 (0 : Fin 1) cc)) Cert.Spec.zeroW = max ((∑ k : Fin 2048, a (ix2 r k) * w (ix2 k cc)) + b1 (ix1 cc)) Cert.Spec.zeroW
  rw [hb]
theorem layerB_eq (a : S4096x4096.Idx → EReal) (w : S4096x4096.Idx → EReal) (b : S1x4096.Idx → EReal) (b1 : S4096.Idx → EReal)
    (hb : ∀ cc : Fin 4096, b (ix2 (0 : Fin 1) cc) = b1 (ix1 cc)) : Cert.Spec.layerB a w b = Cert.Spec.relu (Cert.Spec.affine2 a w b1) := by
  funext i
  obtain ⟨r, cc, rfl⟩ : ∃ (r : Fin 4096) (cc : Fin 4096), i = ix2 r cc := ⟨i 0, i 1, eq_ix2 i⟩
  show max ((∑ k : Fin 4096, a (ix2 r k) * w (ix2 k cc)) + b (ix2 (0 : Fin 1) cc)) Cert.Spec.zeroW = max ((∑ k : Fin 4096, a (ix2 r k) * w (ix2 k cc)) + b1 (ix1 cc)) Cert.Spec.zeroW
  rw [hb]
theorem layerC_eq (a : S4096x4096.Idx → EReal) (w : S4096x1024.Idx → EReal) (b : S1x1024.Idx → EReal) (w3 : S4096x1000.Idx → EReal) (b3 : S1000.Idx → EReal)
    (r : Fin 4096) (cc : Fin 1000) (h : cc.val < 1024) (hw : ∀ k : Fin 4096, w (ix2 k ⟨cc.val, h⟩) = w3 (ix2 k cc))
    (hb : b (ix2 (0 : Fin 1) ⟨cc.val, h⟩) = b3 (ix1 cc)) :
    Cert.Spec.layerC a w b (ix2 r ⟨cc.val, h⟩) = Cert.Spec.affine3 a w3 b3 (ix2 r cc) := by
  show (∑ k : Fin 4096, a (ix2 r k) * w (ix2 k ⟨cc.val, h⟩)) + b (ix2 (0 : Fin 1) ⟨cc.val, h⟩) = (∑ k : Fin 4096, a (ix2 r k) * w3 (ix2 k cc)) + b3 (ix1 cc)
  rw [hb]
  exact congrArg (· + b3 (ix1 cc)) (Finset.sum_congr rfl fun k _ => by rw [hw k])

/-- The program's result buffer ends at the network of the launch contents of its seven arguments. -/
theorem kernel_value (c : Dev nD) : (W9 m c (Proc.devRef .tc main_v12) : S4096x1000.Idx → EReal)
    = Cert.Spec.mlp (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  obtain ⟨v6, h6⟩ := V5_v6 m c
  obtain ⟨v8, h8⟩ := V5_v8 m c
  have hA : (V6 m c main_v9 : S4096x4096.Idx → EReal) = Cert.Spec.relu (Cert.Spec.affine1 (m ((c : Thread nD τ).loc main_arg0)) (m ((c : Thread nD τ).loc main_arg1)) (m ((c : Thread nD τ).loc main_arg2))) := by
    rw [V6_v9, V5_v0, V5_v1, V5_v4]
    exact layerA_eq _ _ _ _ fun cc => Cert.KernelIdeal.Padding.row_of_vec_4096 _ 0 cc
  have hB : (V7 m c main_v10 : S4096x4096.Idx → EReal) = Cert.Spec.relu (Cert.Spec.affine2 (V6 m c main_v9) (m ((c : Thread nD τ).loc main_arg3)) (m ((c : Thread nD τ).loc main_arg4))) := by
    rw [V7_v10, V6_v2, V6_v5, V5_v2, V5_v5]
    exact layerB_eq _ _ _ _ fun cc => Cert.KernelIdeal.Padding.row_of_vec_4096 _ 0 cc
  funext i
  obtain ⟨r, cc, rfl⟩ : ∃ (r : Fin 4096) (cc : Fin 1000), i = ix2 r cc := ⟨i 0, i 1, eq_ix2 i⟩
  rw [W9_v12, Cert.KernelIdeal.Padding.slice_cols, V8_v11]
  refine (layerC_eq _ _ _ (m ((c : Thread nD τ).loc main_arg5)) (m ((c : Thread nD τ).loc main_arg6)) r cc _ (fun k => ?_) ?_).trans ?_
  · rw [V7_v6, V6_v6, h6]; exact Cert.KernelIdeal.Padding.pad_cols_inside _ _ k ⟨cc.val, _⟩ cc.isLt
  · rw [V7_v8, V6_v8, h8]; exact Cert.KernelIdeal.Padding.row_of_padded_vec _ _ 0 ⟨cc.val, _⟩ cc.isLt
  · rw [hB, hA]; rfl

/-- Every weakly fair execution of the program terminates with the result buffer at the network of the arguments' launch
    contents, the arguments unchanged. -/
theorem value_all (ρ : Dev nD → PrngReg) : θ_run defs (onTc (τ := τ) (main (F := Ideal))) ⟨m, fun _ => 0, ρ⟩ (fun r => ∀ c : Dev nD,
      r.2.mem ((c.tc : Thread nD τ).loc main_v12) = Cert.Spec.mlp (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v12 (by decide))).trans (kernel_value m c),
     (h c _ (mem_uc main_arg0 (by decide))).trans (W9_arg0 m c), (h c _ (mem_uc main_arg1 (by decide))).trans (W9_arg1 m c),
     (h c _ (mem_uc main_arg2 (by decide))).trans (W9_arg2 m c), (h c _ (mem_uc main_arg3 (by decide))).trans (W9_arg3 m c),
     (h c _ (mem_uc main_arg4 (by decide))).trans (W9_arg4 m c), (h c _ (mem_uc main_arg5 (by decide))).trans (W9_arg5 m c),
     (h c _ (mem_uc main_arg6 (by decide))).trans (W9_arg6 m c)⟩) (run_all m ρ)

end Cert.KernelIdeal.Hand

end
-- ==== Proof.RefValue.lean ====
/-
  The reference network, read index by index on the extended reals, is the specification's function `Cert.Spec.mlp`
  of its seven argument arrays.  Each layer of the reference is a product-sum over the contracted axis, plus the bias
  of the column (carried to the row by two broadcasts that only re-index), and, for the two hidden layers, the larger
  of that and the zero word.  Layer by layer this is `relu (affine1 ·)`, `relu (affine2 ·)`, `affine3 ·`.
-/
import proofs.«143312_j70592082477120_2_alg».proof.Proof.Gen.ReferenceIdeal.Read
import proofs.«143312_j70592082477120_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-! ## The index functions of the reads are the coordinate constructors -/

theorem lidx0 (i : S4096x4096.Idx) (k : Fin 2048) : lidx_main_v0 i k = ix2 (i 0) k :=
  funext fun a => Fin.ext (by match a with | ⟨0, _⟩ => rfl | ⟨1, _⟩ => rfl)
theorem ridx0 (i : S4096x4096.Idx) (k : Fin 2048) : ridx_main_v0 i k = ix2 k (i 1) :=
  funext fun a => Fin.ext (by match a with | ⟨0, _⟩ => rfl | ⟨1, _⟩ => rfl)
theorem bias0 (i : S4096x4096.Idx) : idx_main_v1 (idx_main_v2 i) = ix1 (i 1) :=
  funext fun a => Fin.ext (by match a with | ⟨0, _⟩ => rfl)

theorem lidx5 (i : S4096x4096.Idx) (k : Fin 4096) : lidx_main_v5 i k = ix2 (i 0) k :=
  funext fun a => Fin.ext (by match a with | ⟨0, _⟩ => rfl | ⟨1, _⟩ => rfl)
theorem ridx5 (i : S4096x4096.Idx) (k : Fin 4096) : ridx_main_v5 i k = ix2 k (i 1) :=
  funext fun a => Fin.ext (by match a with | ⟨0, _⟩ => rfl | ⟨1, _⟩ => rfl)
theorem bias5 (i : S4096x4096.Idx) : idx_main_v6 (idx_main_v7 i) = ix1 (i 1) :=
  funext fun a => Fin.ext (by match a with | ⟨0, _⟩ => rfl)

theorem lidx10 (i : S4096x1000.Idx) (k : Fin 4096) : lidx_main_v10 i k = ix2 (i 0) k :=
  funext fun a => Fin.ext (by match a with | ⟨0, _⟩ => rfl | ⟨1, _⟩ => rfl)
theorem ridx10 (i : S4096x1000.Idx) (k : Fin 4096) : ridx_main_v10 i k = ix2 k (i 1) :=
  funext fun a => Fin.ext (by match a with | ⟨0, _⟩ => rfl | ⟨1, _⟩ => rfl)
theorem bias10 (i : S4096x1000.Idx) : idx_main_v11 (idx_main_v12 i) = ix1 (i 1) :=
  funext fun a => Fin.ext (by match a with | ⟨0, _⟩ => rfl)

/-! ## Layer by layer -/

/-- The first hidden layer: the rectified affine map of `x` by `w1`, `b1`. -/
theorem layer1 (x0 : (⟨S4096x2048, .f32⟩ : BufTy).Contents (Elt Ideal)) (x1 : (⟨S2048x4096, .f32⟩ : BufTy).Contents (Elt Ideal))
    (x2 : (⟨S4096, .f32⟩ : BufTy).Contents (Elt Ideal)) :
    val_main_v4 (F := Ideal) x0 x1 x2 = Cert.Spec.relu (Cert.Spec.affine1 x0 x1 x2) := by
  funext i
  rw [val_main_v4_apply, val_main_v3_apply, val_main_v0_apply, val_main_v2_apply, val_main_v1_apply,
    val_main_call0_v0_apply, val_main_call0_cst_apply]
  simp only [lidx0, ridx0, bias0, Ideal.addf_def, Ideal.maximumf_def, Ideal.ofBits_def, Cert.Spec.relu, Cert.Spec.affine1]
  rfl

/-- The second hidden layer: the rectified affine map of the first layer's values by `w2`, `b2`. -/
theorem layer2 (x0 : (⟨S4096x2048, .f32⟩ : BufTy).Contents (Elt Ideal)) (x1 : (⟨S2048x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) :
    val_main_v9 (F := Ideal) x0 x1 x2 x3 x4 = Cert.Spec.relu (Cert.Spec.affine2 (val_main_v4 (F := Ideal) x0 x1 x2) x3 x4) := by
  funext i
  rw [val_main_v9_apply, val_main_v8_apply, val_main_v5_apply, val_main_v7_apply, val_main_v6_apply,
    val_main_call1_v0_apply, val_main_call1_cst_apply]
  simp only [lidx5, ridx5, bias5, Ideal.addf_def, Ideal.maximumf_def, Ideal.ofBits_def, Cert.Spec.relu, Cert.Spec.affine2]
  rfl

/-- The last layer: the affine map of the second layer's values by `w3`, `b3`, not rectified. -/
theorem layer3 (x0 : (⟨S4096x2048, .f32⟩ : BufTy).Contents (Elt Ideal)) (x1 : (⟨S2048x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) (x5 : (⟨S4096x1000, .f32⟩ : BufTy).Contents (Elt Ideal))
    (x6 : (⟨S1000, .f32⟩ : BufTy).Contents (Elt Ideal)) :
    val_main_v13 (F := Ideal) x0 x1 x2 x3 x4 x5 x6 = Cert.Spec.affine3 (val_main_v9 (F := Ideal) x0 x1 x2 x3 x4) x5 x6 := by
  funext i
  rw [val_main_v13_apply, val_main_v10_apply, val_main_v12_apply, val_main_v11_apply]
  simp only [lidx10, ridx10, bias10, Ideal.addf_def, Cert.Spec.affine3]
  rfl

/-! ## The whole network -/

/-- The reference's result, as a function of its seven arguments, is the specification's network. -/
theorem ref_eq (x0 : (⟨S4096x2048, .f32⟩ : BufTy).Contents (Elt Ideal)) (x1 : (⟨S2048x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) (x5 : (⟨S4096x1000, .f32⟩ : BufTy).Contents (Elt Ideal))
    (x6 : (⟨S1000, .f32⟩ : BufTy).Contents (Elt Ideal)) :
    Cert.ReferenceIdeal.Read.val_main_v13 (F := Ideal) x0 x1 x2 x3 x4 x5 x6 = Cert.Spec.mlp x0 x1 x2 x3 x4 x5 x6 := by
  rw [layer3, layer2, layer1]
  rfl

/-- On every device, from any memory with zero counters: every weakly fair execution of the reference terminates with
    its result array at the specification's network of the arguments' launch contents, the arguments unchanged. -/
theorem run (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v13) = Cert.Spec.mlp (m' ((c.tc : Thread nD τ).loc main_arg0))
        (m' ((c.tc : Thread nD τ).loc main_arg1)) (m' ((c.tc : Thread nD τ).loc main_arg2))
        (m' ((c.tc : Thread nD τ).loc main_arg3)) (m' ((c.tc : Thread nD τ).loc main_arg4))
        (m' ((c.tc : Thread nD τ).loc main_arg5)) (m' ((c.tc : Thread nD τ).loc main_arg6))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  (θ_run defs _ _).mono (fun _ h c => ⟨(h c).1.trans ((val_main_v13_eq _ _ _ _ _ _ _).trans (ref_eq _ _ _ _ _ _ _)), (h c).2⟩)
    (Cert.ReferenceIdeal.Value.run (F := Ideal) m' ρ')

end Cert.ReferenceIdeal.RefValue

end
-- ==== Proof.lean ====
/-
  The certificate of a three-layer perceptron kernel against its jnp reference.
  The kernel casts activations and weights to bf16, pads the last layer's 1000 columns to 1024 with zeros, runs each
  layer as a blocked matrix product accumulated over the contraction's blocks of 1024 in an f32 accumulator (bias, and in
  the first two layers the rectifier, applied when the last block has been added), and slices the padding off.  The
  reference is  relu(x·w1 + b1) → relu(·w2 + b2) → ·w3 + b3  with whole products.
  On the extended reals a change of float format is the identity, addition is associative and commutative with 0 neutral,
  so a sum accumulated block by block from zero is the whole sum; the padded columns never reach a kept entry.  Hence
  both programs compute the same function of the seven arguments (`Cert.Spec.mlp`), entry by entry; no finiteness is used.
  The frames: each region's body is run once per case of its two conditionals (first block / middle block / last block of
  the contraction), the accumulator carried between grid points in the region's invariant; the host lines and the three
  regions are chained through the valuations of the unscoped buffers.  The idealization rewrote nothing.
-/
import proofs.«143312_j70592082477120_2_alg».proof.Defs
import proofs.«143312_j70592082477120_2_alg».proof.Proof.Gen.Kernel
import proofs.«143312_j70592082477120_2_alg».proof.Proof.Gen.KernelIdeal
import proofs.«143312_j70592082477120_2_alg».proof.Proof.Gen.ReferenceIdeal
import proofs.«143312_j70592082477120_2_alg».proof.Proof.Gen.Pre_finite_inputs
import proofs.«143312_j70592082477120_2_alg».proof.Proof.Gen.ReferenceIdeal.Run
import proofs.«143312_j70592082477120_2_alg».proof.Proof.Gen.ReferenceIdeal.Read
import proofs.«143312_j70592082477120_2_alg».proof.Proof.BRun
import proofs.«143312_j70592082477120_2_alg».proof.Proof.KernelValue
import proofs.«143312_j70592082477120_2_alg».proof.Proof.RefValue
import Idealize.ShloMosaic.Adequacy
import Idealize.ShloMosaic.Init

noncomputable section

namespace Cert.Proof

open Idealize.ShloMosaic Idealize.SL.Sem

/-- The word-level program runs to the end, faults nowhere and leaves its seven arguments as launched. -/
theorem frame_k : Cert.frame_Kernel := fun m ρ _ => Cert.Kernel.Hand.frame_all (F := Bits) m ρ
/-- The same of the idealized program, read on the extended reals. -/
theorem frame_ki : Cert.frame_KernelIdeal := fun m ρ _ => Cert.KernelIdeal.Hand.frame_all (F := Ideal) m ρ
/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The idealization rewrote no operation. -/
theorem preserves : Cert.preserves_Kernel_KernelIdeal := trivial
/-- On the extended reals both programs end with the three-layer network of the arguments: the kernel by its regions'
    accumulated block products, the reference by its three whole products; from memories agreeing on the arguments the
    results are equal entry by entry. -/
theorem algebraic : Cert.algebraic_KernelIdeal_ReferenceIdeal := by
  intro m ρ m' ρ' _ hagree
  refine ⟨fun c => Cert.Spec.mlp (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Hand.value_all m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
